-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S3200000 : Shape := ⟨1, ![3200000]⟩
abbrev S2x3200000 : Shape := ⟨2, ![2, 3200000]⟩
abbrev S4x12 : Shape := ⟨2, ![4, 12]⟩
abbrev S12 : Shape := ⟨1, ![12]⟩
abbrev S12x24 : Shape := ⟨2, ![12, 24]⟩
abbrev S24 : Shape := ⟨1, ![24]⟩
abbrev S24x48 : Shape := ⟨2, ![24, 48]⟩
abbrev S48 : Shape := ⟨1, ![48]⟩
abbrev S48x32 : Shape := ⟨2, ![48, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩
abbrev S100000 : Shape := ⟨1, ![100000]⟩
abbrev S1x3200000 : Shape := ⟨2, ![1, 3200000]⟩
abbrev S3200000x1 : Shape := ⟨2, ![3200000, 1]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S4x12 : S_.BroadcastsInDim S4x12 (![] : Fin 0 → Fin S4x12.rank)
  reducesTo_S4x12_S_d0_1 : S4x12.ReducesTo [0, 1] S_
  bcast_S_S12 : S_.BroadcastsInDim S12 (![] : Fin 0 → Fin S12.rank)
  reducesTo_S12_S_d0 : S12.ReducesTo [0] S_
  bcast_S_S12x24 : S_.BroadcastsInDim S12x24 (![] : Fin 0 → Fin S12x24.rank)
  reducesTo_S12x24_S_d0_1 : S12x24.ReducesTo [0, 1] S_
  bcast_S_S24 : S_.BroadcastsInDim S24 (![] : Fin 0 → Fin S24.rank)
  reducesTo_S24_S_d0 : S24.ReducesTo [0] S_
  bcast_S_S24x48 : S_.BroadcastsInDim S24x48 (![] : Fin 0 → Fin S24x48.rank)
  reducesTo_S24x48_S_d0_1 : S24x48.ReducesTo [0, 1] S_
  bcast_S_S48 : S_.BroadcastsInDim S48 (![] : Fin 0 → Fin S48.rank)
  reducesTo_S48_S_d0 : S48.ReducesTo [0] S_
  bcast_S_S48x32 : S_.BroadcastsInDim S48x32 (![] : Fin 0 → Fin S48x32.rank)
  reducesTo_S48x32_S_d0_1 : S48x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  bcast_S_S100000 : S_.BroadcastsInDim S100000 (![] : Fin 0 → Fin S100000.rank)
  slices_S2x3200000_S1x3200000_1_0 : S2x3200000.Slices ![1, 0] S1x3200000
  shapeCasts_S1x3200000_S3200000 : S1x3200000.ShapeCasts S3200000
  bcast_S3200000_S3200000x1_0 : S3200000.BroadcastsInDim S3200000x1 (![0] : Fin 1 → Fin S3200000x1.rank)
  reducesTo_S100000_S_d0 : S100000.ReducesTo [0] S_
  scatter_S100000_S3200000x1_S3200000_n_0_0_1_wf : ScatterDims.WF S100000 S3200000x1 S3200000 [] [0] [0] 1

variable [Facts]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def fn_part4 {F : FTy → Type} [FloatOps F] (main_arg1 : FVec F S3200000 .f32) (main_arg2 : IVec S2x3200000 32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S100000 .f32 := broadcastInDim S100000 ![] bcast_S_S100000 main_cst_26
  let main_v70 : IVec S1x3200000 32 := (extractStridedSlice S1x3200000 ![1, 0] · slices_S2x3200000_S1x3200000_1_0) main_arg2
  let main_v71 : IVec S3200000 32 := shapeCast S3200000 main_v70 shapeCasts_S1x3200000_S3200000
  let main_v72 : IVec S3200000x1 32 := broadcastInDim S3200000x1 ![0] bcast_S3200000_S3200000x1_0 main_v71
  let main_v73 : FVec F S100000 .f32 := (fun x i u => Host.scatterAdd scatter_S100000_S3200000x1_S3200000_n_0_0_1 x i u) main_v69 main_v72 main_arg1
  let main_cst_27 : FVec F S_ .f32 := constant S_ .f32 0x3F800000#32
  let main_v74 : FVec F S100000 .f32 := broadcastInDim S100000 ![] bcast_S_S100000 main_cst_27
  let main_v75 : FVec F S100000 .f32 := addf main_v73 main_v74
  let main_cst_28 : FVec F S_ .f32 := constant S_ .f32 0x00000000#32
  let main_v76 : FVec F S100000 .f32 := broadcastInDim S100000 ![] bcast_S_S100000 main_cst_28
  let main_v77 : IVec S100000 1 := cmpf .ogt main_v75 main_v76
  let main_c_29 : IVec S_ 1 := constantI S_ 1 1#1
  let main_v78 : IVec S_ 1 := (fun x v => Host.reduce IntOp.andi x v reducesTo_S100000_S_d0 h_S_) main_v77 main_c_29
  let main_v79 : IVec S_ 1 := andi main_v68 main_v78
  main_v79

def fn_part3 {F : FTy → Type} [FloatOps F] (main_arg1 : FVec F S3200000 .f32) (main_arg2 : IVec S2x3200000 32) (main_arg12 : FVec F S16 .f32) (main_arg13 : FVec F S16x2 .f32) (main_arg14 : FVec F S2 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x2 .f32 := Host.absf main_arg13
  let main_cst_22 : FVec F S_ .f32 := constant S_ .f32 0x7F800000#32
  let main_v60 : FVec F S16x2 .f32 := broadcastInDim S16x2 ![] bcast_S_S16x2 main_cst_22
  let main_v61 : IVec S16x2 1 := cmpf .olt main_v59 main_v60
  let main_c_23 : IVec S_ 1 := constantI S_ 1 1#1
  let main_v62 : IVec S_ 1 := (fun x v => Host.reduce IntOp.andi x v reducesTo_S16x2_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg1 main_arg2 main_v63 main_v67

def fn_part2 {F : FTy → Type} [FloatOps F] (main_arg1 : FVec F S3200000 .f32) (main_arg2 : IVec S2x3200000 32) (main_arg8 : FVec F S48 .f32) (main_arg9 : FVec F S48x32 .f32) (main_arg10 : FVec F S32 .f32) (main_arg11 : FVec F S32x16 .f32) (main_arg12 : FVec F S16 .f32) (main_arg13 : FVec F S16x2 .f32) (main_arg14 : FVec F S2 .f32) (main_v33 : IVec S_ 1) : IVec S_ 1 :=
  let main_v34 : FVec F S48 .f32 := Host.absf main_arg8
  let main_cst_12 : FVec F S_ .f32 := constant S_ .f32 0x7F800000#32
  let main_v35 : FVec F S48 .f32 := broadcastInDim S48 ![] bcast_S_S48 main_cst_12
  let main_v36 : IVec S48 1 := cmpf .olt main_v34 main_v35
  let main_c_13 : IVec S_ 1 := constantI S_ 1 1#1
  let main_v37 : IVec S_ 1 := (fun x v => Host.reduce IntOp.andi x v reducesTo_S48_S_d0 h_S_) main_v36 main_c_13
  let main_v38 : IVec S_ 1 := andi main_v33 main_v37
  let main_v39 : FVec F S48x32 .f32 := Host.absf main_arg9
  let main_cst_14 : FVec F S_ .f32 := constant S_ .f32 0x7F800000#32
  let main_v40 : FVec F S48x32 .f32 := broadcastInDim S48x32 ![] bcast_S_S48x32 main_cst_14
  let main_v41 : IVec S48x32 1 := cmpf .olt main_v39 main_v40
  let main_c_15 : IVec S_ 1 := constantI S_ 1 1#1
  let main_v42 : IVec S_ 1 := (fun x v => Host.reduce IntOp.andi x v reducesTo_S48x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x16 .f32 := Host.absf main_arg11
  let main_cst_18 : FVec F S_ .f32 := constant S_ .f32 0x7F800000#32
  let main_v50 : FVec F S32x16 .f32 := broadcastInDim S32x16 ![] bcast_S_S32x16 main_cst_18
  fn_part3 (F := F) main_arg1 main_arg2 main_arg12 main_arg13 main_arg14 main_v48 main_v49 main_v50

def fn_part1 {F : FTy → Type} [FloatOps F] (main_arg1 : FVec F S3200000 .f32) (main_arg2 : IVec S2x3200000 32) (main_arg5 : FVec F S12x24 .f32) (main_arg6 : FVec F S24 .f32) (main_arg7 : FVec F S24x48 .f32) (main_arg8 : FVec F S48 .f32) (main_arg9 : FVec F S48x32 .f32) (main_arg10 : FVec F S32 .f32) (main_arg11 : FVec F S32x16 .f32) (main_arg12 : FVec F S16 .f32) (main_arg13 : FVec F S16x2 .f32) (main_arg14 : FVec F S2 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S12x24 .f32 := Host.absf main_arg5
  let main_cst_6 : FVec F S_ .f32 := constant S_ .f32 0x7F800000#32
  let main_v20 : FVec F S12x24 .f32 := broadcastInDim S12x24 ![] bcast_S_S12x24 main_cst_6
  let main_v21 : IVec S12x24 1 := cmpf .olt main_v19 main_v20
  let main_c_7 : IVec S_ 1 := constantI S_ 1 1#1
  let main_v22 : IVec S_ 1 := (fun x v => Host.reduce IntOp.andi x v reducesTo_S12x24_S_d0_1 h_S_) main_v21 main_c_7
  let main_v23 : IVec S_ 1 := andi main_v18 main_v22
  let main_v24 : FVec F S24 .f32 := Host.absf main_arg6
  let main_cst_8 : FVec F S_ .f32 := constant S_ .f32 0x7F800000#32
  let main_v25 : FVec F S24 .f32 := broadcastInDim S24 ![] bcast_S_S24 main_cst_8
  let main_v26 : IVec S24 1 := cmpf .olt main_v24 main_v25
  let main_c_9 : IVec S_ 1 := constantI S_ 1 1#1
  let main_v27 : IVec S_ 1 := (fun x v => Host.reduce IntOp.andi x v reducesTo_S24_S_d0 h_S_) main_v26 main_c_9
  let main_v28 : IVec S_ 1 := andi main_v23 main_v27
  let main_v29 : FVec F S24x48 .f32 := Host.absf main_arg7
  let main_cst_10 : FVec F S_ .f32 := constant S_ .f32 0x7F800000#32
  let main_v30 : FVec F S24x48 .f32 := broadcastInDim S24x48 ![] bcast_S_S24x48 main_cst_10
  let main_v31 : IVec S24x48 1 := cmpf .olt main_v29 main_v30
  let main_c_11 : IVec S_ 1 := constantI S_ 1 1#1
  let main_v32 : IVec S_ 1 := (fun x v => Host.reduce IntOp.andi x v reducesTo_S24x48_S_d0_1 h_S_) main_v31 main_c_11
  let main_v33 : IVec S_ 1 := andi main_v28 main_v32
  fn_part2 (F := F) main_arg1 main_arg2 main_arg8 main_arg9 main_arg10 main_arg11 main_arg12 main_arg13 main_arg14 main_v33

def fn {F : FTy → Type} [FloatOps F] (main_arg0 : FVec F S100000x4 .f32) (main_arg1 : FVec F S3200000 .f32) (main_arg2 : IVec S2x3200000 32) (main_arg3 : FVec F S4x12 .f32) (main_arg4 : FVec F S12 .f32) (main_arg5 : FVec F S12x24 .f32) (main_arg6 : FVec F S24 .f32) (main_arg7 : FVec F S24x48 .f32) (main_arg8 : FVec F S48 .f32) (main_arg9 : FVec F S48x32 .f32) (main_arg10 : FVec F S32 .f32) (main_arg11 : FVec F S32x16 .f32) (main_arg12 : FVec F S16 .f32) (main_arg13 : FVec F S16x2 .f32) (main_arg14 : FVec F S2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S4x12 .f32 := Host.absf main_arg3
  let main_cst_2 : FVec F S_ .f32 := constant S_ .f32 0x7F800000#32
  let main_v10 : FVec F S4x12 .f32 := broadcastInDim S4x12 ![] bcast_S_S4x12 main_cst_2
  let main_v11 : IVec S4x12 1 := cmpf .olt main_v9 main_v10
  let main_c_3 : IVec S_ 1 := constantI S_ 1 1#1
  let main_v12 : IVec S_ 1 := (fun x v => Host.reduce IntOp.andi x v reducesTo_S4x12_S_d0_1 h_S_) main_v11 main_c_3
  let main_v13 : IVec S_ 1 := andi main_v8 main_v12
  let main_v14 : FVec F S12 .f32 := Host.absf main_arg4
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg1 main_arg2 main_arg5 main_arg6 main_arg7 main_arg8 main_arg9 main_arg10 main_arg11 main_arg12 main_arg13 main_arg14 main_v13 main_v16
-- ==== Kernel.lean ====
abbrev S100000x4 : Shape := ⟨2, ![100000, 4]⟩
abbrev S3200000 : Shape := ⟨1, ![3200000]⟩
abbrev S2x3200000 : Shape := ⟨2, ![2, 3200000]⟩
abbrev S4x12 : Shape := ⟨2, ![4, 12]⟩
abbrev S12 : Shape := ⟨1, ![12]⟩
abbrev S12x24 : Shape := ⟨2, ![12, 24]⟩
abbrev S24 : Shape := ⟨1, ![24]⟩
abbrev S24x48 : Shape := ⟨2, ![24, 48]⟩
abbrev S48 : Shape := ⟨1, ![48]⟩
abbrev S48x32 : Shape := ⟨2, ![48, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x4 : Shape := ⟨2, ![3200000, 4]⟩
abbrev S1x12 : Shape := ⟨2, ![1, 12]⟩
abbrev S100000x12 : Shape := ⟨2, ![100000, 12]⟩
abbrev S5000x4 : Shape := ⟨2, ![5000, 4]⟩
abbrev S5000x12 : Shape := ⟨2, ![5000, 12]⟩
abbrev S3200000x12 : Shape := ⟨2, ![3200000, 12]⟩
abbrev S1x24 : Shape := ⟨2, ![1, 24]⟩
abbrev S100000x24 : Shape := ⟨2, ![100000, 24]⟩
abbrev S5000x24 : Shape := ⟨2, ![5000, 24]⟩
abbrev S3200000x24 : Shape := ⟨2, ![3200000, 24]⟩
abbrev S1x48 : Shape := ⟨2, ![1, 48]⟩
abbrev S100000x48 : Shape := ⟨2, ![100000, 48]⟩
abbrev S5000x48 : Shape := ⟨2, ![5000, 48]⟩
abbrev S1x32 : Shape := ⟨2, ![1, 32]⟩
abbrev S1x16 : Shape := ⟨2, ![1, 16]⟩
abbrev S1x2 : Shape := ⟨2, ![1, 2]⟩

abbrev nBuf : Space → Nat
  | .hbm => 140
  | .vmem => 18
  | .smem => 0
  | _ => 0

abbrev hbmTy0_0 (i : Nat) : BufTy := match i % 128 with
  | 0 => ⟨S100000x4, .f32⟩
  | 1 => ⟨S3200000, .f32⟩
  | 2 => ⟨S2x3200000, .i32⟩
  | 3 => ⟨S4x12, .f32⟩
  | 4 => ⟨S12, .f32⟩
  | 5 => ⟨S12x24, .f32⟩
  | 6 => ⟨S24, .f32⟩
  | 7 => ⟨S24x48, .f32⟩
  | 8 => ⟨S48, .f32⟩
  | 9 => ⟨S48x32, .f32⟩
  | 10 => ⟨S32, .f32⟩
  | 11 => ⟨S32x16, .f32⟩
  | 12 => ⟨S16, .f32⟩
  | 13 => ⟨S16x2, .f32⟩
  | 14 => ⟨S2, .f32⟩
  | 15 => ⟨S1x3200000, .i32⟩
  | 16 => ⟨S3200000, .i32⟩
  | 17 => ⟨S1x3200000, .i32⟩
  | 18 => ⟨S3200000, .i32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000, .f32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S_, .f32⟩
  | 48 => ⟨S100000, .f32⟩
  | 49 => ⟨S100000, .f32⟩
  | 50 => ⟨S100000x1, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x4, .f32⟩
  | 60 => ⟨S3200000x1, .f32⟩
  | 61 => ⟨S3200000x4, .f32⟩
  | 62 => ⟨S3200000x4, .f32⟩
  | 63 => ⟨S_, .f32⟩
  | 64 => ⟨S100000x4, .f32⟩
  | 65 => ⟨S3200000x1, .i32⟩
  | 66 => ⟨S100000x4, .f32⟩
  | 67 => ⟨S100000x4, .f32⟩
  | 68 => ⟨S100000x4, .f32⟩
  | 69 => ⟨S100000x4, .f32⟩
  | 70 => ⟨S1x12, .f32⟩
  | 71 => ⟨S100000x12, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S3200000x12, .f32⟩
  | 81 => ⟨S3200000x1, .f32⟩
  | 82 => ⟨S3200000x12, .f32⟩
  | 83 => ⟨S3200000x12, .f32⟩
  | 84 => ⟨S_, .f32⟩
  | 85 => ⟨S100000x12, .f32⟩
  | 86 => ⟨S3200000x1, .i32⟩
  | 87 => ⟨S100000x12, .f32⟩
  | 88 => ⟨S100000x12, .f32⟩
  | 89 => ⟨S100000x12, .f32⟩
  | 90 => ⟨S100000x12, .f32⟩
  | 91 => ⟨S1x24, .f32⟩
  | 92 => ⟨S100000x24, .f32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i32⟩
  | 99 => ⟨S3200000, .i32⟩
  | 100 => ⟨S3200000x1, .i32⟩
  | 101 => ⟨S3200000x24, .f32⟩
  | 102 => ⟨S3200000x1, .f32⟩
  | 103 => ⟨S3200000x24, .f32⟩
  | 104 => ⟨S3200000x24, .f32⟩
  | 105 => ⟨S_, .f32⟩
  | 106 => ⟨S100000x24, .f32⟩
  | 107 => ⟨S3200000x1, .i32⟩
  | 108 => ⟨S100000x24, .f32⟩
  | 109 => ⟨S100000x24, .f32⟩
  | 110 => ⟨S100000x24, .f32⟩
  | 111 => ⟨S100000x24, .f32⟩
  | 112 => ⟨S1x48, .f32⟩
  | 113 => ⟨S100000x48, .f32⟩
  | 114 => ⟨S_, .f32⟩
  | 115 => ⟨S48, .f32⟩
  | 116 => ⟨S1x48, .f32⟩
  | 117 => ⟨S1x32, .f32⟩
  | 118 => ⟨S1x32, .f32⟩
  | 119 => ⟨S1x32, .f32⟩
  | 120 => ⟨S_, .f32⟩
  | 121 => ⟨S1x32, .f32⟩
  | 122 => ⟨S1x32, .i1⟩
  | 123 => ⟨S_, .f32⟩
  | 124 => ⟨S1x32, .f32⟩
  | 125 => ⟨S1x32, .f32⟩
  | 126 => ⟨S1x32, .f32⟩
  | 127 => ⟨S1x16, .f32⟩
  | _ => ⟨S100000x4, .f32⟩

abbrev hbmTy0_1 (i : Nat) : BufTy := match i % 128 with
  | 0 => ⟨S1x16, .f32⟩
  | 1 => ⟨S1x16, .f32⟩
  | 2 => ⟨S_, .f32⟩
  | 3 => ⟨S1x16, .f32⟩
  | 4 => ⟨S1x16, .i1⟩
  | 5 => ⟨S_, .f32⟩
  | 6 => ⟨S1x16, .f32⟩
  | 7 => ⟨S1x16, .f32⟩
  | 8 => ⟨S1x16, .f32⟩
  | 9 => ⟨S1x2, .f32⟩
  | 10 => ⟨S1x2, .f32⟩
  | 11 => ⟨S1x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S5000x4, .f32⟩
  | .local _ .vmem, ⟨1, _⟩ => ⟨S5000x4, .f32⟩
  | .local _ .vmem, ⟨2, _⟩ => ⟨S4x12, .f32⟩
  | .local _ .vmem, ⟨3, _⟩ => ⟨S1x12, .f32⟩
  | .local _ .vmem, ⟨4, _⟩ => ⟨S5000x12, .f32⟩
  | .local _ .vmem, ⟨5, _⟩ => ⟨S5000x12, .f32⟩
  | .local _ .vmem, ⟨6, _⟩ => ⟨S5000x12, .f32⟩
  | .local _ .vmem, ⟨7, _⟩ => ⟨S5000x12, .f32⟩
  | .local _ .vmem, ⟨8, _⟩ => ⟨S12x24, .f32⟩
  | .local _ .vmem, ⟨9, _⟩ => ⟨S1x24, .f32⟩
  | .local _ .vmem, ⟨10, _⟩ => ⟨S5000x24, .f32⟩
  | .local _ .vmem, ⟨11, _⟩ => ⟨S5000x24, .f32⟩
  | .local _ .vmem, ⟨12, _⟩ => ⟨S5000x24, .f32⟩
  | .local _ .vmem, ⟨13, _⟩ => ⟨S5000x24, .f32⟩
  | .local _ .vmem, ⟨14, _⟩ => ⟨S24x48, .f32⟩
  | .local _ .vmem, ⟨15, _⟩ => ⟨S1x48, .f32⟩
  | .local _ .vmem, ⟨16, _⟩ => ⟨S5000x48, .f32⟩
  | .local _ .vmem, ⟨17, _⟩ => ⟨S5000x48, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_11 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_v88 : Ref sig .tc := ⟨.hbm, 121, rfl⟩
abbrev main_v89 : Ref sig .tc := ⟨.hbm, 122, rfl⟩
abbrev main_cst_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_17 : Ref sig .tc := ⟨.hbm, 130, rfl⟩
abbrev main_v96 : Ref sig .tc := ⟨.hbm, 131, rfl⟩
abbrev main_v97 : Ref sig .tc := ⟨.hbm, 132, rfl⟩
abbrev main_cst_18 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x12 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12x24 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x24 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S24x48 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x48 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x48 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  shapeCasts_S100000_S100000x1 : S100000.ShapeCasts S100000x1
  bcast_S3200000x1_S3200000x4_0_1 : S3200000x1.BroadcastsInDim S3200000x4 (![0, 1] : Fin 2 → Fin S3200000x4.rank)
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  shapeCasts_S12_S1x12 : S12.ShapeCasts S1x12
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  bitsLt_bf16_f32 : FTy.bits .bf16 < FTy.bits .f32
  inb_S4x12_S4x12_0_0 : ∀ a, (![0, 0] : Fin 2 → Nat) a + S4x12.size a ≤ S4x12.size a
  h_S4x12 : 0 < S4x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S5000x12 : S1x12.Broadcasts S5000x12
  inb_S5000x12_S5000x12_0_0 : ∀ a, (![0, 0] : Fin 2 → Nat) a + S5000x12.size a ≤ S5000x12.size a
  h_S5000x12 : 0 < S5000x12.numel
  bcast_S3200000x1_S3200000x12_0_1 : S3200000x1.BroadcastsInDim S3200000x12 (![0, 1] : Fin 2 → Fin S3200000x12.rank)
  bcast_S_S100000x12 : S_.BroadcastsInDim S100000x12 (![] : Fin 0 → Fin S100000x12.rank)
  bcast_S100000x1_S100000x12_0_1 : S100000x1.BroadcastsInDim S100000x12 (![0, 1] : Fin 2 → Fin S100000x12.rank)
  shapeCasts_S24_S1x24 : S24.ShapeCasts S1x24
  shapeCasts_S5000x12_S5000x12 : S5000x12.ShapeCasts S5000x12
  inb_S12x24_S12x24_0_0 : ∀ a, (![0, 0] : Fin 2 → Nat) a + S12x24.size a ≤ S12x24.size a
  h_S12x24 : 0 < S12x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S5000x24 : S1x24.Broadcasts S5000x24
  inb_S5000x24_S5000x24_0_0 : ∀ a, (![0, 0] : Fin 2 → Nat) a + S5000x24.size a ≤ S5000x24.size a
  h_S5000x24 : 0 < S5000x24.numel
  bcast_S3200000x1_S3200000x24_0_1 : S3200000x1.BroadcastsInDim S3200000x24 (![0, 1] : Fin 2 → Fin S3200000x24.rank)
  bcast_S_S100000x24 : S_.BroadcastsInDim S100000x24 (![] : Fin 0 → Fin S100000x24.rank)
  bcast_S100000x1_S100000x24_0_1 : S100000x1.BroadcastsInDim S100000x24 (![0, 1] : Fin 2 → Fin S100000x24.rank)
  shapeCasts_S48_S1x48 : S48.ShapeCasts S1x48
  shapeCasts_S5000x24_S5000x24 : S5000x24.ShapeCasts S5000x24
  inb_S24x48_S24x48_0_0 : ∀ a, (![0, 0] : Fin 2 → Nat) a + S24x48.size a ≤ S24x48.size a
  h_S24x48 : 0 < S24x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  inb_S5000x48_S5000x48_0_0 : ∀ a, (![0, 0] : Fin 2 → Nat) a + S5000x48.size a ≤ S5000x48.size a
  h_S5000x48 : 0 < S5000x48.numel
  reducesTo_S100000x48_S48_d0 : S100000x48.ReducesTo [0] S48
  h_S_ : 0 < S_.numel
  bcast_S48_S1x48_1 : S48.BroadcastsInDim S1x48 (![1] : Fin 1 → Fin S1x48.rank)
  shapeCasts_S32_S1x32 : S32.ShapeCasts S1x32
  bcast_S_S1x32 : S_.BroadcastsInDim S1x32 (![] : Fin 0 → Fin S1x32.rank)
  shapeCasts_S16_S1x16 : S16.ShapeCasts S1x16
  bcast_S_S1x16 : S_.BroadcastsInDim S1x16 (![] : Fin 0 → Fin S1x16.rank)
  shapeCasts_S2_S1x2 : S2.ShapeCasts S1x2
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S5000x4_S4x12_S5000x12_1_0_0_1_n_n_wf : DotDims.WF S5000x4 S4x12 S5000x12 [1] [0] [0] [1] [] []
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  dot_S5000x12_S12x24_S5000x24_1_0_0_1_n_n_wf : DotDims.WF S5000x12 S12x24 S5000x24 [1] [0] [0] [1] [] []
  gather_S100000x24_S3200000x1_S3200000x24_1_0_n_n_0_1_124_wf : GatherDims.WF S100000x24 S3200000x1 S3200000x24 [1] [0] [] [0] [] 1 ![1, 24]
  scatter_S100000x24_S3200000x1_S3200000x24_1_0_0_1_wf : ScatterDims.WF S100000x24 S3200000x1 S3200000x24 [1] [0] [0] 1
  dot_S5000x24_S24x48_S5000x48_1_0_0_1_n_n_wf : DotDims.WF S5000x24 S24x48 S5000x48 [1] [0] [0] [1] [] []
  dot_S1x48_S48x32_S1x32_1_0_0_1_n_n_wf : DotDims.WF S1x48 S48x32 S1x32 [1] [0] [0] [1] [] []
  dot_S1x32_S32x16_S1x16_1_0_0_1_n_n_wf : DotDims.WF S1x32 S32x16 S1x16 [1] [0] [0] [1] [] []
  dot_S1x16_S16x2_S1x2_1_0_0_1_n_n_wf : DotDims.WF S1x16 S16x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x12.size a ≤ S4x12.size a
  hwx0_1 : ∀ i : grid0.Coords, EltTy.bits .f32 = 32 ∨ (Rect.block (s := S4x12) S4x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12.size a ≤ S1x12.size a
  hwx0_2 : ∀ i : grid0.Coords, EltTy.bits .f32 = 32 ∨ (Rect.block (s := S1x12) S1x12.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x12.size a ≤ S100000x12.size a
  hwx0_3 : ∀ i : grid0.Coords, EltTy.bits .f32 = 32 ∨ (Rect.block (s := S100000x12) S5000x12.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x12.size a ≤ S100000x12.size a
  hwx1_0 : ∀ i : grid1.Coords, EltTy.bits .f32 = 32 ∨ (Rect.block (s := S100000x12) S5000x12.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12x24.size a ≤ S12x24.size a
  hwx1_1 : ∀ i : grid1.Coords, EltTy.bits .f32 = 32 ∨ (Rect.block (s := S12x24) S12x24.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x24.size a ≤ S1x24.size a
  hwx1_2 : ∀ i : grid1.Coords, EltTy.bits .f32 = 32 ∨ (Rect.block (s := S1x24) S1x24.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x24.size a ≤ S100000x24.size a
  hwx1_3 : ∀ i : grid1.Coords, EltTy.bits .f32 = 32 ∨ (Rect.block (s := S100000x24) S5000x24.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x24.size a ≤ S100000x24.size a
  hwx2_0 : ∀ i : grid2.Coords, EltTy.bits .f32 = 32 ∨ (Rect.block (s := S100000x24) S5000x24.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S24x48.size a ≤ S24x48.size a
  hwx2_1 : ∀ i : grid2.Coords, EltTy.bits .f32 = 32 ∨ (Rect.block (s := S24x48) S24x48.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x48.size a ≤ S1x48.size a
  hwx2_2 : ∀ i : grid2.Coords, EltTy.bits .f32 = 32 ∨ (Rect.block (s := S1x48) S1x48.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x48.size a ≤ S100000x48.size a
  hwx2_3 : ∀ i : grid2.Coords, EltTy.bits .f32 = 32 ∨ (Rect.block (s := S100000x48) S5000x48.size (cc2_transform_3 i) (hinb2_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S5000x4_S4x12_S5000x12_1_0_0_1_n_n : DotDims S5000x4 S4x12 S5000x12 where
  lhsContracting := [1]
  rhsContracting := [0]
  lhsNonContracting := [0]
  rhsNonContracting := [1]
  lhsBatch := []
  rhsBatch := []
  wf := dot_S5000x4_S4x12_S5000x12_1_0_0_1_n_n_wf
def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def dot_S5000x12_S12x24_S5000x24_1_0_0_1_n_n : DotDims S5000x12 S12x24 S5000x24 where
  lhsContracting := [1]
  rhsContracting := [0]
  lhsNonContracting := [0]
  rhsNonContracting := [1]
  lhsBatch := []
  rhsBatch := []
  wf := dot_S5000x12_S12x24_S5000x24_1_0_0_1_n_n_wf
def gather_S100000x24_S3200000x1_S3200000x24_1_0_n_n_0_1_124 : GatherDims S100000x24 S3200000x1 S3200000x24 where
  offsetDims := [1]
  collapsedSliceDims := [0]
  operandBatchingDims := []
  startIndicesBatchingDims := []
  startIndexMap := [0]
  indexVectorDim := 1
  sliceSizes := ![1, 24]
  wf := gather_S100000x24_S3200000x1_S3200000x24_1_0_n_n_0_1_124_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S5000x24_S24x48_S5000x48_1_0_0_1_n_n : DotDims S5000x24 S24x48 S5000x48 where
  lhsContracting := [1]
  rhsContracting := [0]
  lhsNonContracting := [0]
  rhsNonContracting := [1]
  lhsBatch := []
  rhsBatch := []
  wf := dot_S5000x24_S24x48_S5000x48_1_0_0_1_n_n_wf
def dot_S1x48_S48x32_S1x32_1_0_0_1_n_n : DotDims S1x48 S48x32 S1x32 where
  lhsContracting := [1]
  rhsContracting := [0]
  lhsNonContracting := [0]
  rhsNonContracting := [1]
  lhsBatch := []
  rhsBatch := []
  wf := dot_S1x48_S48x32_S1x32_1_0_0_1_n_n_wf
def dot_S1x32_S32x16_S1x16_1_0_0_1_n_n : DotDims S1x32 S32x16 S1x16 where
  lhsContracting := [1]
  rhsContracting := [0]
  lhsNonContracting := [0]
  rhsNonContracting := [1]
  lhsBatch := []
  rhsBatch := []
  wf := dot_S1x32_S32x16_S1x16_1_0_0_1_n_n_wf
def dot_S1x16_S16x2_S1x2_1_0_0_1_n_n : DotDims S1x16 S16x2 S1x2 where
  lhsContracting := [1]
  rhsContracting := [0]
  lhsNonContracting := [0]
  rhsNonContracting := [1]
  lhsBatch := []
  rhsBatch := []
  wf := dot_S1x16_S16x2_S1x2_1_0_0_1_n_n_wf

abbrev win0_0 : Pipeline.Window sig grid0 :=
  Pipeline.Window.ofSpec (Memref.whole main_v44) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S5000x12.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v62) S5000x12.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S12x24.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x24.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S5000x24.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v80) S5000x24.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S24x48.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S1x48.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82) S5000x48.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x4 : Shape := ⟨2, ![100000, 4]⟩
abbrev S3200000 : Shape := ⟨1, ![3200000]⟩
abbrev S2x3200000 : Shape := ⟨2, ![2, 3200000]⟩
abbrev S4x12 : Shape := ⟨2, ![4, 12]⟩
abbrev S12 : Shape := ⟨1, ![12]⟩
abbrev S12x24 : Shape := ⟨2, ![12, 24]⟩
abbrev S24 : Shape := ⟨1, ![24]⟩
abbrev S24x48 : Shape := ⟨2, ![24, 48]⟩
abbrev S48 : Shape := ⟨1, ![48]⟩
abbrev S48x32 : Shape := ⟨2, ![48, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S100000x12 : Shape := ⟨2, ![100000, 12]⟩
abbrev S_ : Shape := ⟨0, ![]⟩
abbrev S100000 : Shape := ⟨1, ![100000]⟩
abbrev S3200000x1 : Shape := ⟨2, ![3200000, 1]⟩
abbrev S3200000x12 : Shape := ⟨2, ![3200000, 12]⟩
abbrev S100000x1 : Shape := ⟨2, ![100000, 1]⟩
abbrev S1x12 : Shape := ⟨2, ![1, 12]⟩
abbrev S100000x24 : Shape := ⟨2, ![100000, 24]⟩
abbrev S3200000x24 : Shape := ⟨2, ![3200000, 24]⟩
abbrev S1x24 : Shape := ⟨2, ![1, 24]⟩
abbrev S100000x48 : Shape := ⟨2, ![100000, 48]⟩
abbrev S3200000x48 : Shape := ⟨2, ![3200000, 48]⟩
abbrev S1x48 : Shape := ⟨2, ![1, 48]⟩
abbrev S1x32 : Shape := ⟨2, ![1, 32]⟩
abbrev S1x16 : Shape := ⟨2, ![1, 16]⟩
abbrev S1x2 : Shape := ⟨2, ![1, 2]⟩

abbrev nBuf : Space → Nat
  | .hbm => 231
  | .vmem => 0
  | .smem => 0
  | _ => 0

abbrev hbmTy0_0 (i : Nat) : BufTy := match i % 128 with
  | 0 => ⟨S100000x4, .f32⟩
  | 1 => ⟨S3200000, .f32⟩
  | 2 => ⟨S2x3200000, .i32⟩
  | 3 => ⟨S4x12, .f32⟩
  | 4 => ⟨S12, .f32⟩
  | 5 => ⟨S12x24, .f32⟩
  | 6 => ⟨S24, .f32⟩
  | 7 => ⟨S24x48, .f32⟩
  | 8 => ⟨S48, .f32⟩
  | 9 => ⟨S48x32, .f32⟩
  | 10 => ⟨S32, .f32⟩
  | 11 => ⟨S32x16, .f32⟩
  | 12 => ⟨S16, .f32⟩
  | 13 => ⟨S16x2, .f32⟩
  | 14 => ⟨S2, .f32⟩
  | 15 => ⟨S1x3200000, .i32⟩
  | 16 => ⟨S3200000, .i32⟩
  | 17 => ⟨S1x3200000, .i32⟩
  | 18 => ⟨S3200000, .i32⟩
  | 19 => ⟨S100000x12, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S3200000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S3200000, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x12, .f32⟩
  | 57 => ⟨S3200000x1, .f32⟩
  | 58 => ⟨S3200000x12, .f32⟩
  | 59 => ⟨S3200000x12, .f32⟩
  | 60 => ⟨S_, .f32⟩
  | 61 => ⟨S100000x12, .f32⟩
  | 62 => ⟨S3200000x1, .i32⟩
  | 63 => ⟨S100000x12, .f32⟩
  | 64 => ⟨S_, .f32⟩
  | 65 => ⟨S100000, .f32⟩
  | 66 => ⟨S100000, .f32⟩
  | 67 => ⟨S100000x1, .f32⟩
  | 68 => ⟨S100000x12, .f32⟩
  | 69 => ⟨S100000x12, .f32⟩
  | 70 => ⟨S100000x12, .f32⟩
  | 71 => ⟨S1x12, .f32⟩
  | 72 => ⟨S100000x12, .f32⟩
  | 73 => ⟨S100000x12, .f32⟩
  | 74 => ⟨S_, .f32⟩
  | 75 => ⟨S100000x12, .f32⟩
  | 76 => ⟨S100000x12, .i1⟩
  | 77 => ⟨S_, .f32⟩
  | 78 => ⟨S100000x12, .f32⟩
  | 79 => ⟨S100000x12, .f32⟩
  | 80 => ⟨S100000x12, .f32⟩
  | 81 => ⟨S100000x24, .f32⟩
  | 82 => ⟨S_, .f32⟩
  | 83 => ⟨S100000, .f32⟩
  | 84 => ⟨S3200000x1, .i32⟩
  | 85 => ⟨S100000, .f32⟩
  | 86 => ⟨S_, .f32⟩
  | 87 => ⟨S100000, .f32⟩
  | 88 => ⟨S100000, .f32⟩
  | 89 => ⟨S100000, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000, .f32⟩
  | 99 => ⟨S3200000, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000, .f32⟩
  | 109 => ⟨S3200000, .f32⟩
  | 110 => ⟨S_, .i32⟩
  | 111 => ⟨S3200000, .i32⟩
  | 112 => ⟨S3200000, .i1⟩
  | 113 => ⟨S_, .i32⟩
  | 114 => ⟨S3200000, .i32⟩
  | 115 => ⟨S3200000, .i32⟩
  | 116 => ⟨S3200000, .i32⟩
  | 117 => ⟨S3200000x1, .i32⟩
  | 118 => ⟨S3200000x24, .f32⟩
  | 119 => ⟨S3200000x1, .f32⟩
  | 120 => ⟨S3200000x24, .f32⟩
  | 121 => ⟨S3200000x24, .f32⟩
  | 122 => ⟨S_, .f32⟩
  | 123 => ⟨S100000x24, .f32⟩
  | 124 => ⟨S3200000x1, .i32⟩
  | 125 => ⟨S100000x24, .f32⟩
  | 126 => ⟨S_, .f32⟩
  | 127 => ⟨S100000, .f32⟩
  | _ => ⟨S100000x4, .f32⟩

abbrev hbmTy0_1 (i : Nat) : BufTy := match i % 128 with
  | 0 => ⟨S100000, .f32⟩
  | 1 => ⟨S100000x1, .f32⟩
  | 2 => ⟨S100000x24, .f32⟩
  | 3 => ⟨S100000x24, .f32⟩
  | 4 => ⟨S100000x24, .f32⟩
  | 5 => ⟨S1x24, .f32⟩
  | 6 => ⟨S100000x24, .f32⟩
  | 7 => ⟨S100000x24, .f32⟩
  | 8 => ⟨S_, .f32⟩
  | 9 => ⟨S100000x24, .f32⟩
  | 10 => ⟨S100000x24, .i1⟩
  | 11 => ⟨S_, .f32⟩
  | 12 => ⟨S100000x24, .f32⟩
  | 13 => ⟨S100000x24, .f32⟩
  | 14 => ⟨S100000x24, .f32⟩
  | 15 => ⟨S100000x48, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S3200000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x48, .f32⟩
  | 53 => ⟨S3200000x1, .f32⟩
  | 54 => ⟨S3200000x48, .f32⟩
  | 55 => ⟨S3200000x48, .f32⟩
  | 56 => ⟨S_, .f32⟩
  | 57 => ⟨S100000x48, .f32⟩
  | 58 => ⟨S3200000x1, .i32⟩
  | 59 => ⟨S100000x48, .f32⟩
  | 60 => ⟨S_, .f32⟩
  | 61 => ⟨S100000, .f32⟩
  | 62 => ⟨S100000, .f32⟩
  | 63 => ⟨S100000x1, .f32⟩
  | 64 => ⟨S100000x48, .f32⟩
  | 65 => ⟨S100000x48, .f32⟩
  | 66 => ⟨S100000x48, .f32⟩
  | 67 => ⟨S1x48, .f32⟩
  | 68 => ⟨S100000x48, .f32⟩
  | 69 => ⟨S100000x48, .f32⟩
  | 70 => ⟨S_, .f32⟩
  | 71 => ⟨S100000x48, .f32⟩
  | 72 => ⟨S100000x48, .i1⟩
  | 73 => ⟨S_, .f32⟩
  | 74 => ⟨S100000x48, .f32⟩
  | 75 => ⟨S100000x48, .f32⟩
  | 76 => ⟨S100000x48, .f32⟩
  | 77 => ⟨S_, .f32⟩
  | 78 => ⟨S48, .f32⟩
  | 79 => ⟨S1x48, .f32⟩
  | 80 => ⟨S1x32, .f32⟩
  | 81 => ⟨S1x32, .f32⟩
  | 82 => ⟨S1x32, .f32⟩
  | 83 => ⟨S_, .f32⟩
  | 84 => ⟨S1x32, .f32⟩
  | 85 => ⟨S1x32, .i1⟩
  | 86 => ⟨S_, .f32⟩
  | 87 => ⟨S1x32, .f32⟩
  | 88 => ⟨S1x32, .f32⟩
  | 89 => ⟨S1x32, .f32⟩
  | 90 => ⟨S1x16, .f32⟩
  | 91 => ⟨S1x16, .f32⟩
  | 92 => ⟨S1x16, .f32⟩
  | 93 => ⟨S_, .f32⟩
  | 94 => ⟨S1x16, .f32⟩
  | 95 => ⟨S1x16, .i1⟩
  | 96 => ⟨S_, .f32⟩
  | 97 => ⟨S1x16, .f32⟩
  | 98 => ⟨S1x16, .f32⟩
  | 99 => ⟨S1x16, .f32⟩
  | 100 => ⟨S1x2, .f32⟩
  | 101 => ⟨S1x2, .f32⟩
  | 102 => ⟨S1x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_14 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_16 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_18 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_19 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_cst_21 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_22 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_23 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_c_25 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_26 : Ref sig .tc := ⟨.hbm, 162, rfl⟩
abbrev main_v119 : Ref sig .tc := ⟨.hbm, 163, rfl⟩
abbrev main_v120 : Ref sig .tc := ⟨.hbm, 164, rfl⟩
abbrev main_c_27 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_c_28 : Ref sig .tc := ⟨.hbm, 172, rfl⟩
abbrev main_v127 : Ref sig .tc := ⟨.hbm, 173, rfl⟩
abbrev main_v128 : Ref sig .tc := ⟨.hbm, 174, rfl⟩
abbrev main_c_29 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_30 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_31 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_32 : Ref sig .tc := ⟨.hbm, 198, rfl⟩
abbrev main_v149 : Ref sig .tc := ⟨.hbm, 199, rfl⟩
abbrev main_v150 : Ref sig .tc := ⟨.hbm, 200, rfl⟩
abbrev main_cst_33 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_34 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_35 : Ref sig .tc := ⟨.hbm, 211, rfl⟩
abbrev main_v159 : Ref sig .tc := ⟨.hbm, 212, rfl⟩
abbrev main_v160 : Ref sig .tc := ⟨.hbm, 213, rfl⟩
abbrev main_cst_36 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_cst_37 : Ref sig .tc := ⟨.hbm, 221, rfl⟩
abbrev main_v167 : Ref sig .tc := ⟨.hbm, 222, rfl⟩
abbrev main_v168 : Ref sig .tc := ⟨.hbm, 223, rfl⟩
abbrev main_cst_38 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x12_0_1 : S3200000x1.BroadcastsInDim S3200000x12 (![0, 1] : Fin 2 → Fin S3200000x12.rank)
  bcast_S_S100000x12 : S_.BroadcastsInDim S100000x12 (![] : Fin 0 → Fin S100000x12.rank)
  bcast_S100000_S100000x1_0 : S100000.BroadcastsInDim S100000x1 (![0] : Fin 1 → Fin S100000x1.rank)
  bcast_S100000x1_S100000x12_0_1 : S100000x1.BroadcastsInDim S100000x12 (![0, 1] : Fin 2 → Fin S100000x12.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  bcast_S3200000x1_S3200000x24_0_1 : S3200000x1.BroadcastsInDim S3200000x24 (![0, 1] : Fin 2 → Fin S3200000x24.rank)
  bcast_S_S100000x24 : S_.BroadcastsInDim S100000x24 (![] : Fin 0 → Fin S100000x24.rank)
  bcast_S100000x1_S100000x24_0_1 : S100000x1.BroadcastsInDim S100000x24 (![0, 1] : Fin 2 → Fin S100000x24.rank)
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  bcast_S3200000x1_S3200000x48_0_1 : S3200000x1.BroadcastsInDim S3200000x48 (![0, 1] : Fin 2 → Fin S3200000x48.rank)
  bcast_S_S100000x48 : S_.BroadcastsInDim S100000x48 (![] : Fin 0 → Fin S100000x48.rank)
  bcast_S100000x1_S100000x48_0_1 : S100000x1.BroadcastsInDim S100000x48 (![0, 1] : Fin 2 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  reducesTo_S100000x48_S48_d0 : S100000x48.ReducesTo [0] S48
  h_S_ : 0 < S_.numel
  shapeCasts_S48_S1x48 : S48.ShapeCasts S1x48
  bcast_S32_S1x32_1 : S32.BroadcastsInDim S1x32 (![1] : Fin 1 → Fin S1x32.rank)
  bcast_S_S1x32 : S_.BroadcastsInDim S1x32 (![] : Fin 0 → Fin S1x32.rank)
  bcast_S16_S1x16_1 : S16.BroadcastsInDim S1x16 (![1] : Fin 1 → Fin S1x16.rank)
  bcast_S_S1x16 : S_.BroadcastsInDim S1x16 (![] : Fin 0 → Fin S1x16.rank)
  bcast_S2_S1x2_1 : S2.BroadcastsInDim S1x2 (![1] : Fin 1 → Fin S1x2.rank)
  dot_S100000x4_S4x12_S100000x12_1_0_0_1_n_n_wf : DotDims.WF S100000x4 S4x12 S100000x12 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  dot_S100000x12_S12x24_S100000x24_1_0_0_1_n_n_wf : DotDims.WF S100000x12 S12x24 S100000x24 [1] [0] [0] [1] [] []
  gather_S100000x24_S3200000x1_S3200000x24_1_0_n_n_0_1_124_wf : GatherDims.WF S100000x24 S3200000x1 S3200000x24 [1] [0] [] [0] [] 1 ![1, 24]
  scatter_S100000x24_S3200000x1_S3200000x24_1_0_0_1_wf : ScatterDims.WF S100000x24 S3200000x1 S3200000x24 [1] [0] [0] 1
  dot_S100000x24_S24x48_S100000x48_1_0_0_1_n_n_wf : DotDims.WF S100000x24 S24x48 S100000x48 [1] [0] [0] [1] [] []
  gather_S100000x48_S3200000x1_S3200000x48_1_0_n_n_0_1_148_wf : GatherDims.WF S100000x48 S3200000x1 S3200000x48 [1] [0] [] [0] [] 1 ![1, 48]
  scatter_S100000x48_S3200000x1_S3200000x48_1_0_0_1_wf : ScatterDims.WF S100000x48 S3200000x1 S3200000x48 [1] [0] [0] 1
  dot_S1x48_S48x32_S1x32_1_0_0_1_n_n_wf : DotDims.WF S1x48 S48x32 S1x32 [1] [0] [0] [1] [] []
  dot_S1x32_S32x16_S1x16_1_0_0_1_n_n_wf : DotDims.WF S1x32 S32x16 S1x16 [1] [0] [0] [1] [] []
  dot_S1x16_S16x2_S1x2_1_0_0_1_n_n_wf : DotDims.WF S1x16 S16x2 S1x2 [1] [0] [0] [1] [] []

variable [Facts₀]

def dot_S100000x4_S4x12_S100000x12_1_0_0_1_n_n : DotDims S100000x4 S4x12 S100000x12 where
  lhsContracting := [1]
  rhsContracting := [0]
  lhsNonContracting := [0]
  rhsNonContracting := [1]
  lhsBatch := []
  rhsBatch := []
  wf := dot_S100000x4_S4x12_S100000x12_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def dot_S100000x12_S12x24_S100000x24_1_0_0_1_n_n : DotDims S100000x12 S12x24 S100000x24 where
  lhsContracting := [1]
  rhsContracting := [0]
  lhsNonContracting := [0]
  rhsNonContracting := [1]
  lhsBatch := []
  rhsBatch := []
  wf := dot_S100000x12_S12x24_S100000x24_1_0_0_1_n_n_wf
def gather_S100000x24_S3200000x1_S3200000x24_1_0_n_n_0_1_124 : GatherDims S100000x24 S3200000x1 S3200000x24 where
  offsetDims := [1]
  collapsedSliceDims := [0]
  operandBatchingDims := []
  startIndicesBatchingDims := []
  startIndexMap := [0]
  indexVectorDim := 1
  sliceSizes := ![1, 24]
  wf := gather_S100000x24_S3200000x1_S3200000x24_1_0_n_n_0_1_124_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S100000x24_S24x48_S100000x48_1_0_0_1_n_n : DotDims S100000x24 S24x48 S100000x48 where
  lhsContracting := [1]
  rhsContracting := [0]
  lhsNonContracting := [0]
  rhsNonContracting := [1]
  lhsBatch := []
  rhsBatch := []
  wf := dot_S100000x24_S24x48_S100000x48_1_0_0_1_n_n_wf
def gather_S100000x48_S3200000x1_S3200000x48_1_0_n_n_0_1_148 : GatherDims S100000x48 S3200000x1 S3200000x48 where
  offsetDims := [1]
  collapsedSliceDims := [0]
  operandBatchingDims := []
  startIndicesBatchingDims := []
  startIndexMap := [0]
  indexVectorDim := 1
  sliceSizes := ![1, 48]
  wf := gather_S100000x48_S3200000x1_S3200000x48_1_0_n_n_0_1_148_wf
def scatter_S100000x48_S3200000x1_S3200000x48_1_0_0_1 : ScatterDims S100000x48 S3200000x1 S3200000x48 where
  updateWindowDims := [1]
  insertedWindowDims := [0]
  scatterDimsToOperandDims := [0]
  indexVectorDim := 1
  wf := scatter_S100000x48_S3200000x1_S3200000x48_1_0_0_1_wf
def dot_S1x48_S48x32_S1x32_1_0_0_1_n_n : DotDims S1x48 S48x32 S1x32 where
  lhsContracting := [1]
  rhsContracting := [0]
  lhsNonContracting := [0]
  rhsNonContracting := [1]
  lhsBatch := []
  rhsBatch := []
  wf := dot_S1x48_S48x32_S1x32_1_0_0_1_n_n_wf
def dot_S1x32_S32x16_S1x16_1_0_0_1_n_n : DotDims S1x32 S32x16 S1x16 where
  lhsContracting := [1]
  rhsContracting := [0]
  lhsNonContracting := [0]
  rhsNonContracting := [1]
  lhsBatch := []
  rhsBatch := []
  wf := dot_S1x32_S32x16_S1x16_1_0_0_1_n_n_wf
def dot_S1x16_S16x2_S1x2_1_0_0_1_n_n : DotDims S1x16 S16x2 S1x2 where
  lhsContracting := [1]
  rhsContracting := [0]
  lhsNonContracting := [0]
  rhsNonContracting := [1]
  lhsBatch := []
  rhsBatch := []
  wf := dot_S1x16_S16x2_S1x2_1_0_0_1_n_n_wf

class Facts : Prop extends Facts₀ where

variable [Facts]
-- ==== Proof.KernelRun.lean ====
/-
  The idealized kernel's run with its result named.  @main is three launches among stretches of host operations;
  at the end every buffer the host can see holds the last boundary's contents, so the returned [1,2] array is what
  the fold of the stretches and the regions leaves in its buffer, and the argument arrays are as launched.
-/
import proofs.«146515_j84370337562865_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result buffer holding what the last
    boundary's contents give it and every argument array as launched. -/
theorem run_value : θ_run defs (onTc (τ := τ) (main (F := F))) ⟨m, fun _ => 0, ρ⟩ (fun r => ∀ c : Dev nD,
      r.2.mem ((c.tc : Thread nD τ).loc main_v103) = W11 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v103 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c)⟩)

end Cert.KernelIdeal.Gen

end
-- ==== Proof.KernelHost.lean ====
/-
  The host side of the idealized kernel, as pure functions of the argument arrays.

  From the edge list (a 2 × E array of node numbers) and the edge weights: the source and destination vectors; the
  degree of a node (one plus the sum of the weights of the edges that end at it); the edge coefficient
  rsqrt (deg (src e)) · w e · rsqrt (deg (dst e)); the self-loop coefficient 1 / deg i, laid out as a column.
  A layer's aggregated input: for node i the sum, over the edges that end at i, of the source's row scaled by the
  edge's coefficient, plus the node's own row scaled by its self-loop coefficient.  The head after the last layer:
  the column sums of the node matrix, then three small dense layers with the leaky rectifier between them.
-/
import proofs.«146515_j84370337562865_2_alg».proof.Proof.Gen.KernelIdeal.Frame
import Idealize.ShloMosaic.PureOps.Ideal

set_option maxRecDepth 16384

noncomputable section

namespace Cert.KernelIdeal.Pure

open Idealize.ShloMosaic Idealize.ShloMosaic.TcCoe
open Cert.KernelIdeal Cert.KernelIdeal.Gen

/-- Row 0 of the edge list: the sources. -/
def srcV (ei : IVec S2x3200000 32) : IVec S3200000 32 :=
  shapeCast S3200000 (extractStridedSlice S1x3200000 ![0, 0] ei slices_S2x3200000_S1x3200000_0_0) shapeCasts_S1x3200000_S3200000
/-- Row 1 of the edge list: the destinations. -/
def dstV (ei : IVec S2x3200000 32) : IVec S3200000 32 :=
  shapeCast S3200000 (extractStridedSlice S1x3200000 ![1, 0] ei slices_S2x3200000_S1x3200000_1_0) shapeCasts_S1x3200000_S3200000
/-- A negative node number counts from the end. -/
def wrap (s : IVec S3200000 32) : IVec S3200000 32 :=
  select (cmpi .slt s (broadcastInDim S3200000 ![] bcast_S_S3200000 (constantI S_ 32 0#32)))
    (addi s (broadcastInDim S3200000 ![] bcast_S_S3200000 (constantI S_ 32 100000#32))) s
/-- A length-E vector as an E × 1 column. -/
def col {α : Type} (s : S3200000.Idx → α) : S3200000x1.Idx → α :=
  broadcastInDim S3200000x1 ![0] bcast_S3200000_S3200000x1_0 s
/-- One plus the sum of the weights of the edges that end at each node. -/
def deg (ew : FVec Ideal S3200000 .f32) (d : IVec S3200000 32) : FVec Ideal S100000 .f32 :=
  addf (Host.scatterAdd scatter_S100000_S3200000x1_S3200000_n_0_0_1
          (broadcastInDim S100000 ![] bcast_S_S100000 (constant S_ .f32 0x00000000#32)) (col d) ew)
    (broadcastInDim S100000 ![] bcast_S_S100000 (constant S_ .f32 0x3F800000#32))
def dinv (ew : FVec Ideal S3200000 .f32) (d : IVec S3200000 32) : FVec Ideal S100000 .f32 := Host.rsqrt (deg ew d)
/-- The edge coefficient. -/
def norm (ew : FVec Ideal S3200000 .f32) (s d : IVec S3200000 32) : FVec Ideal S3200000 .f32 :=
  mulf (mulf (Host.gather gather_S100000_S3200000x1_S3200000_n_0_n_n_0_1_1 (dinv ew d) (col (wrap s))) ew)
    (Host.gather gather_S100000_S3200000x1_S3200000_n_0_n_n_0_1_1 (dinv ew d) (col (wrap d)))
/-- The self-loop coefficient. -/
def invdeg (ew : FVec Ideal S3200000 .f32) (d : IVec S3200000 32) : FVec Ideal S100000 .f32 :=
  Host.divf (broadcastInDim S100000 ![] bcast_S_S100000 (constant S_ .f32 0x3F800000#32)) (deg ew d)
def vcol (ew : FVec Ideal S3200000 .f32) (d : IVec S3200000 32) : FVec Ideal S100000x1 .f32 :=
  shapeCast S100000x1 (invdeg ew d) shapeCasts_S100000_S100000x1

/-- The first layer's aggregated input. -/
def pre4 (X : FVec Ideal S100000x4 .f32) (nrm : FVec Ideal S3200000 .f32) (vc : FVec Ideal S100000x1 .f32) (s d : IVec S3200000 32) :
    FVec Ideal S100000x4 .f32 :=
  addf (Host.scatterAdd scatter_S100000x4_S3200000x1_S3200000x4_1_0_0_1
          (broadcastInDim S100000x4 ![] bcast_S_S100000x4 (constant S_ .f32 0x00000000#32)) (col d)
          (mulf (Host.gather gather_S100000x4_S3200000x1_S3200000x4_1_0_n_n_0_1_14 X (col (wrap s)))
            (broadcastInDim S3200000x4 ![0, 1] bcast_S3200000x1_S3200000x4_0_1 (col nrm))))
    (mulf X (broadcastInDim S100000x4 ![0, 1] bcast_S100000x1_S100000x4_0_1 vc))
/-- The second layer's. -/
def pre12 (X : FVec Ideal S100000x12 .f32) (nrm : FVec Ideal S3200000 .f32) (vc : FVec Ideal S100000x1 .f32) (s d : IVec S3200000 32) :
    FVec Ideal S100000x12 .f32 :=
  addf (Host.scatterAdd scatter_S100000x12_S3200000x1_S3200000x12_1_0_0_1
          (broadcastInDim S100000x12 ![] bcast_S_S100000x12 (constant S_ .f32 0x00000000#32)) (col d)
          (mulf (Host.gather gather_S100000x12_S3200000x1_S3200000x12_1_0_n_n_0_1_112 X (col (wrap s)))
            (broadcastInDim S3200000x12 ![0, 1] bcast_S3200000x1_S3200000x12_0_1 (col nrm))))
    (mulf X (broadcastInDim S100000x12 ![0, 1] bcast_S100000x1_S100000x12_0_1 vc))
/-- The third layer's. -/
def pre24 (X : FVec Ideal S100000x24 .f32) (nrm : FVec Ideal S3200000 .f32) (vc : FVec Ideal S100000x1 .f32) (s d : IVec S3200000 32) :
    FVec Ideal S100000x24 .f32 :=
  addf (Host.scatterAdd scatter_S100000x24_S3200000x1_S3200000x24_1_0_0_1
          (broadcastInDim S100000x24 ![] bcast_S_S100000x24 (constant S_ .f32 0x00000000#32)) (col d)
          (mulf (Host.gather gather_S100000x24_S3200000x1_S3200000x24_1_0_n_n_0_1_124 X (col (wrap s)))
            (broadcastInDim S3200000x24 ![0, 1] bcast_S3200000x1_S3200000x24_0_1 (col nrm))))
    (mulf X (broadcastInDim S100000x24 ![0, 1] bcast_S100000x1_S100000x24_0_1 vc))

/-- The leaky rectifier on a 1 × 32 row, and on a 1 × 16 row. -/
def lk32 (z : FVec Ideal S1x32 .f32) : FVec Ideal S1x32 .f32 :=
  select (cmpf .oge z (broadcastInDim S1x32 ![] bcast_S_S1x32 (constant S_ .f32 0x00000000#32))) z
    (mulf (broadcastInDim S1x32 ![] bcast_S_S1x32 (constant S_ .f32 0x3DCCCCCD#32)) z)
def lk16 (z : FVec Ideal S1x16 .f32) : FVec Ideal S1x16 .f32 :=
  select (cmpf .oge z (broadcastInDim S1x16 ![] bcast_S_S1x16 (constant S_ .f32 0x00000000#32))) z
    (mulf (broadcastInDim S1x16 ![] bcast_S_S1x16 (constant S_ .f32 0x3DCCCCCD#32)) z)
/-- The head: three dense layers on the pooled row `g`, the biases given as rows. -/
def head (g : FVec Ideal S1x48 .f32) (w1 : FVec Ideal S48x32 .f32) (b1 : FVec Ideal S1x32 .f32) (w2 : FVec Ideal S32x16 .f32) (b2 : FVec Ideal S1x16 .f32)
    (w3 : FVec Ideal S16x2 .f32) (b3 : FVec Ideal S1x2 .f32) : FVec Ideal S1x2 .f32 :=
  addf (Host.dotGeneral dot_S1x16_S16x2_S1x2_1_0_0_1_n_n none
          (lk16 (addf (Host.dotGeneral dot_S1x32_S32x16_S1x16_1_0_0_1_n_n none
                  (lk32 (addf (Host.dotGeneral dot_S1x48_S48x32_S1x32_1_0_0_1_n_n none g w1) b1)) w2) b2)) w3) b3
/-- The column sums of the node matrix. -/
def pool (X : FVec Ideal S100000x48 .f32) : FVec Ideal S48 .f32 :=
  Host.reduceAdd X (constant S_ .f32 0x00000000#32) reducesTo_S100000x48_S48_d0 h_S_

end Cert.KernelIdeal.Pure

end
-- ==== Proof.LibTypedOps.lean ====
/-
  A host operation written over typed references is the plain operation.

  A module-local function's operations are written over references that carry the type of the tensor value they
  hold; such an operation applies its function after transporting the operands' contents, and before transporting
  the result's, along the equation between the carried type and the reference's own type. At a reference that
  carries its own type that equation is reflexivity, the transports are the identity, and the operation is the
  plain one at the same references with the same function. So a list of operations that mixes the two spellings
  can be respelt in plain operations one operation at a time, each step a statement about one small term; the
  fold of the respelt list over the launch contents then contains no transport at all. This holds over any
  signature and any value type.
-/
import Idealize.ShloMosaic.Lib.StableHlo

noncomputable section

namespace Cert.Lib.TypedOps

open Idealize.ShloMosaic Idealize.ShloMosaic.StableHlo

variable {τ : Topo} {sig : RefSig} {Val : EltTy → Type}

/-- At a reference carrying its own type the transport is the identity: the constant. -/
theorem tnullary_plain (y : Ref sig .tc) (h1 : y.space ≠ .host) (h2 : y.isScoped = false) (v : y.ty.Contents Val) :
    (TRef.nullary (⟨y, rfl, h1, h2⟩ : TRef sig y.ty) v : HloOp τ sig Val) = nullary y v ⟨h1, h2⟩ := rfl

/-- … the one-operand operation. -/
theorem tunary_plain (x y : Ref sig .tc) (hx1 : x.space ≠ .host) (hx2 : x.isScoped = false)
    (hy1 : y.space ≠ .host) (hy2 : y.isScoped = false) (f : x.ty.Contents Val → y.ty.Contents Val) :
    (TRef.unary (⟨x, rfl, hx1, hx2⟩ : TRef sig x.ty) (⟨y, rfl, hy1, hy2⟩ : TRef sig y.ty) f : HloOp τ sig Val)
      = unary x y f ⟨hx1, hx2⟩ ⟨hy1, hy2⟩ := rfl

/-- … the two-operand operation. -/
theorem tbinary_plain (a b y : Ref sig .tc) (ha1 : a.space ≠ .host) (ha2 : a.isScoped = false)
    (hb1 : b.space ≠ .host) (hb2 : b.isScoped = false) (hy1 : y.space ≠ .host) (hy2 : y.isScoped = false)
    (f : a.ty.Contents Val → b.ty.Contents Val → y.ty.Contents Val) :
    (TRef.binary (⟨a, rfl, ha1, ha2⟩ : TRef sig a.ty) (⟨b, rfl, hb1, hb2⟩ : TRef sig b.ty) (⟨y, rfl, hy1, hy2⟩ : TRef sig y.ty) f :
        HloOp τ sig Val)
      = binary a b y f ⟨ha1, ha2⟩ ⟨hb1, hb2⟩ ⟨hy1, hy2⟩ := rfl

/-- … the three-operand operation. -/
theorem tternary_plain (c a b y : Ref sig .tc) (hc1 : c.space ≠ .host) (hc2 : c.isScoped = false)
    (ha1 : a.space ≠ .host) (ha2 : a.isScoped = false) (hb1 : b.space ≠ .host) (hb2 : b.isScoped = false)
    (hy1 : y.space ≠ .host) (hy2 : y.isScoped = false)
    (f : c.ty.Contents Val → a.ty.Contents Val → b.ty.Contents Val → y.ty.Contents Val) :
    (TRef.ternary (⟨c, rfl, hc1, hc2⟩ : TRef sig c.ty) (⟨a, rfl, ha1, ha2⟩ : TRef sig a.ty) (⟨b, rfl, hb1, hb2⟩ : TRef sig b.ty)
        (⟨y, rfl, hy1, hy2⟩ : TRef sig y.ty) f : HloOp τ sig Val)
      = ternary c a b y f ⟨hc1, hc2⟩ ⟨ha1, ha2⟩ ⟨hb1, hb2⟩ ⟨hy1, hy2⟩ := rfl

end Cert.Lib.TypedOps

end
-- ==== Proof.KernelFold.lean ====
/-
  The buffers' contents after each stretch of host operations of the idealized kernel, from any contents before it.
-/
import proofs.«146515_j84370337562865_2_alg».proof.Proof.KernelHost
import proofs.«146515_j84370337562865_2_alg».proof.Proof.LibTypedOps
import Idealize.ShloMosaic.Lib.StableHlo.Run

set_option maxRecDepth 16384

noncomputable section

namespace Cert.KernelIdeal.Fold

open Idealize.ShloMosaic Idealize.ShloMosaic.TcCoe Idealize.ShloMosaic.StableHlo
open Cert.KernelIdeal Cert.KernelIdeal.Gen Cert.KernelIdeal.Pure

variable (W : Valuation τ sig (Elt Ideal))

/-! ## Before the first launch -/

set_option maxHeartbeats 4000000 in
theorem s0_src : after (hostOps0 (F := Ideal)) W (Proc.devRef .tc main_v1) = srcV (W (Proc.devRef .tc main_arg2)) := by
  after_results; rfl

set_option maxHeartbeats 4000000 in
theorem s0_dst : after (hostOps0 (F := Ideal)) W (Proc.devRef .tc main_v3) = dstV (W (Proc.devRef .tc main_arg2)) := by
  after_results; rfl

set_option maxHeartbeats 4000000 in
theorem s0_norm : after (hostOps0 (F := Ideal)) W (Proc.devRef .tc main_v25)
    = norm (W (Proc.devRef .tc main_arg1)) (srcV (W (Proc.devRef .tc main_arg2))) (dstV (W (Proc.devRef .tc main_arg2))) := by
  after_results; rfl

set_option maxHeartbeats 4000000 in
theorem s0_vcol : after (hostOps0 (F := Ideal)) W (Proc.devRef .tc main_v28)
    = vcol (W (Proc.devRef .tc main_arg1)) (dstV (W (Proc.devRef .tc main_arg2))) := by
  after_results; rfl

set_option maxHeartbeats 4000000 in
theorem s0_pre : after (hostOps0 (F := Ideal)) W (Proc.devRef .tc main_v44)
    = pre4 (W (Proc.devRef .tc main_arg0)) (norm (W (Proc.devRef .tc main_arg1)) (srcV (W (Proc.devRef .tc main_arg2))) (dstV (W (Proc.devRef .tc main_arg2))))
        (vcol (W (Proc.devRef .tc main_arg1)) (dstV (W (Proc.devRef .tc main_arg2))))
        (srcV (W (Proc.devRef .tc main_arg2))) (dstV (W (Proc.devRef .tc main_arg2))) := by
  after_results; rfl

set_option maxHeartbeats 4000000 in
theorem s0_bias : after (hostOps0 (F := Ideal)) W (Proc.devRef .tc main_v45)
    = shapeCast S1x12 (W (Proc.devRef .tc main_arg4)) shapeCasts_S12_S1x12 := by
  after_results; rfl

end Cert.KernelIdeal.Fold

end
-- ==== Proof.KernelFold2.lean ====
/-
  The buffers' contents after the stretches of host operations between the launches and after the last one, from any
  contents before them.
-/
import proofs.«146515_j84370337562865_2_alg».proof.Proof.KernelHost
import Idealize.ShloMosaic.Lib.StableHlo.Run

set_option maxRecDepth 16384

noncomputable section

namespace Cert.KernelIdeal.Fold

open Idealize.ShloMosaic Idealize.ShloMosaic.TcCoe Idealize.ShloMosaic.StableHlo
open Cert.KernelIdeal Cert.KernelIdeal.Gen Cert.KernelIdeal.Pure

variable (W : Valuation τ sig (Elt Ideal))

/-! ## Between the first and the second launch -/

set_option maxHeartbeats 4000000 in
theorem s1_pre : after (hostOps1 (F := Ideal)) W (Proc.devRef .tc main_v62)
    = pre12 (W (Proc.devRef .tc main_v46)) (W (Proc.devRef .tc main_v25)) (W (Proc.devRef .tc main_v28)) (W (Proc.devRef .tc main_v1)) (W (Proc.devRef .tc main_v3)) := by
  after_results; rfl

set_option maxHeartbeats 4000000 in
theorem s1_bias : after (hostOps1 (F := Ideal)) W (Proc.devRef .tc main_v63)
    = shapeCast S1x24 (W (Proc.devRef .tc main_arg6)) shapeCasts_S24_S1x24 := by
  after_results; rfl

/-! ## Between the second and the third launch -/

set_option maxHeartbeats 4000000 in
theorem s2_pre : after (hostOps2 (F := Ideal)) W (Proc.devRef .tc main_v80)
    = pre24 (W (Proc.devRef .tc main_v64)) (W (Proc.devRef .tc main_v25)) (W (Proc.devRef .tc main_v28)) (W (Proc.devRef .tc main_v1)) (W (Proc.devRef .tc main_v3)) := by
  after_results; rfl

set_option maxHeartbeats 4000000 in
theorem s2_bias : after (hostOps2 (F := Ideal)) W (Proc.devRef .tc main_v81)
    = shapeCast S1x48 (W (Proc.devRef .tc main_arg8)) shapeCasts_S48_S1x48 := by
  after_results; rfl

/-! ## After the last launch

The two selections of the leaky rectifier are calls of a module-local function, written over references that carry
their tensor type; at a reference that carries its own type such an operation is the plain one. -/

theorem where1 : (hostOps3_1 (F := Ideal))
    = [ternary main_v89 main_v87 main_v91 main_v92 select ⟨by decide, rfl⟩ ⟨by decide, rfl⟩ ⟨by decide, rfl⟩ ⟨by decide, rfl⟩] := rfl
theorem where2 : (hostOps3_3 (F := Ideal))
    = [ternary main_v97 main_v95 main_v99 main_v100 select ⟨by decide, rfl⟩ ⟨by decide, rfl⟩ ⟨by decide, rfl⟩ ⟨by decide, rfl⟩] := rfl

set_option maxHeartbeats 4000000 in
theorem s3_head : after (hostOps3_4 (F := Ideal)) (after hostOps3_3 (after hostOps3_2 (after hostOps3_1 (after hostOps3 W))))
      (Proc.devRef .tc main_v103)
    = head (broadcastInDim S1x48 ![1] bcast_S48_S1x48_1 (pool (W (Proc.devRef .tc main_v82)))) (W (Proc.devRef .tc main_arg9))
        (shapeCast S1x32 (W (Proc.devRef .tc main_arg10)) shapeCasts_S32_S1x32) (W (Proc.devRef .tc main_arg11))
        (shapeCast S1x16 (W (Proc.devRef .tc main_arg12)) shapeCasts_S16_S1x16) (W (Proc.devRef .tc main_arg13))
        (shapeCast S1x2 (W (Proc.devRef .tc main_arg14)) shapeCasts_S2_S1x2) := by
  rw [where1, where2]
  after_results
  rfl

end Cert.KernelIdeal.Fold

end
-- ==== Proof.LibGatherScatter.lean ====
/-
  Rows gathered and rows accumulated through a column of indices, read at an index.

  A column of `R` integer words, held as an `R × 1` array, names one row of an `N`-row array for each of `R` positions.
  Gathering rows through it reads, at position `e`, row `clamp(word e)` of the operand: the word is read as a signed
  integer and clamped into `[0, N − 1]`. Accumulating rows through it adds the update's row `e` into row `word e` of
  the operand when the word, read signed, lies in `[0, N)`, and drops it otherwise (no clamping). At the exact values the
  accumulated array holds, at `(n, q)`, the operand's entry plus the sum of the updates' entries `(e, q)` over the
  positions `e` whose word names row `n`. The same for a length-`N` vector gathered or accumulated through the column.
  For any extents; the printed records with these lists are these by reflexivity.
-/
import Idealize.ShloMosaic.PureOps.Ideal
import Idealize.ShloMosaic.Lib.ValueIdx
import Idealize.ShloMosaic.Lib.Pipeline.Value

noncomputable section

open scoped BigOperators

namespace Cert.Lib.GatherScatter

open Idealize.ShloMosaic Idealize.ShloMosaic.ValueIdx

variable {N C R w : Nat}

/-- The word the column holds for position `e`, read as a signed integer. -/
def colInt (idx : IVec ⟨2, ![R, 1]⟩ w) (e : Fin R) : Int := (idx (ix2 e (0 : Fin 1))).toInt

/-- The row a gather reads for position `e`: the word read signed and clamped into `[0, N − 1]`. -/
def gatherRow (hN : 0 < N) (idx : IVec ⟨2, ![R, 1]⟩ w) (e : Fin R) : Fin N :=
  ⟨min (colInt idx e).toNat (N - 1), by omega⟩

/-- The row an accumulation lands on for position `e`: the word read signed when it lies in `[0, N)`, none otherwise. -/
def scatterRow (N : Nat) (idx : IVec ⟨2, ![R, 1]⟩ w) (e : Fin R) : Option (Fin N) :=
  if h : 0 ≤ colInt idx e ∧ colInt idx e < (N : Int) then some ⟨(colInt idx e).toNat, by omega⟩ else none

/-- A position whose word names row `n` for the accumulation names the same row for a gather. -/
theorem gatherRow_of_scatterRow (hN : 0 < N) (idx : IVec ⟨2, ![R, 1]⟩ w) (e : Fin R) (n : Fin N)
    (h : scatterRow N idx e = some n) : gatherRow hN idx e = n := by
  unfold scatterRow at h
  split at h
  · rename_i hr
    have := Option.some.inj h
    subst this
    refine Fin.ext ?_
    show min (colInt idx e).toNat (N - 1) = (colInt idx e).toNat
    omega
  · exact absurd h (by simp)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- A length-`R` vector laid out as an `R × 1` column reads, at `(e, ·)`, the vector at `e`. -/
theorem column_apply {α : Type} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-! ## Gathering rows -/

/-- The dimension numbers of a row gather `[N, C]` through an `R × 1` column, result `[R, C]`. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(e, q)`: the operand at `(row e, q)`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowGatherDims N C R wf) x idx (ix2 e q) = x (ix2 (gatherRow hN idx e) q) := by
  unfold Host.gather
  congr 1
  funext a
  refine Fin.ext ?_
  match a with
  | ⟨0, _⟩ =>
    show (rowGatherDims N C R wf).start (ix2 e q) idx 0 + (rowGatherDims N C R wf).batchCoord (ix2 e q) 0
      + (rowGatherDims N C R wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 e q) ⟨List.idxOf (0 : Fin 2) (rowGatherDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C R wf).start (ix2 e q) idx 1 + (rowGatherDims N C R wf).batchCoord (ix2 e q) 1
      + (rowGatherDims N C R wf).offCoord (ix2 e q) 1 = q.val
    rw [GatherDims.batchCoord_eq_zero _ _ _ List.not_mem_nil]
    have hs : (rowGatherDims N C R wf).start (ix2 e q) idx 1 = 0 := by
      unfold GatherDims.start
      rw [dif_neg (show ¬ (1 : Fin 2) ∈ (rowGatherDims N C R wf).startIndexMap from
        fun h => absurd (show (1 : Fin 2) = 0 from List.mem_singleton.mp h) (by decide))]
    rw [hs]
    simp only [Nat.add_zero, Nat.zero_add]
    rfl

/-! ## Gathering entries of a vector -/

/-- The dimension numbers of a gather from a length-`N` vector through an `R × 1` column, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather at `e`: the operand at `row e`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (gatherRow hN idx e)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Accumulating rows -/

/-- The dimension numbers of a row accumulation into `[N, C]` through an `R × 1` column, updates `[R, C]`. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable (wf : ScatterDims.WF ⟨2, ![N, C]⟩ ⟨2, ![R, 1]⟩ ⟨2, ![R, C]⟩ [1] [0] [0] 1)

theorem rowScatter_start0 (idx : IVec ⟨2, ![R, 1]⟩ w) (e : Fin R) (q : Fin C) :
    (rowScatterDims N C R wf).start (ix2 e q) idx 0 = colInt idx e := by
  unfold ScatterDims.start
  rw [dif_pos (show (0 : Fin 2) ∈ (rowScatterDims N C R wf).scatterDimsToOperandDims from List.mem_singleton.mpr rfl)]
  have hsi : (rowScatterDims N C R wf).siIdx (ix2 e q) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_start1 (idx : IVec ⟨2, ![R, 1]⟩ w) (e : Fin R) (q : Fin C) :
    (rowScatterDims N C R wf).start (ix2 e q) idx 1 = 0 := by
  unfold ScatterDims.start
  rw [dif_neg (show ¬ (1 : Fin 2) ∈ (rowScatterDims N C R wf).scatterDimsToOperandDims from
    fun h => absurd (show (1 : Fin 2) = 0 from List.mem_singleton.mp h) (by decide))]

theorem rowScatter_window0 (e : Fin R) (q : Fin C) : (rowScatterDims N C R wf).window (ix2 e q) 0 = 0 := by
  unfold ScatterDims.window
  rw [dif_neg (show ¬ (0 : Fin 2) ∈ (rowScatterDims N C R wf).sKept from
    fun h => (mem_kept _ _).mp h (List.mem_singleton.mpr rfl))]

theorem rowScatter_window1 (e : Fin R) (q : Fin C) : (rowScatterDims N C R wf).window (ix2 e q) 1 = q.val := by
  unfold ScatterDims.window
  rw [dif_pos (show (1 : Fin 2) ∈ (rowScatterDims N C R wf).sKept from
    (mem_kept _ _).mpr fun h => absurd (show (1 : Fin 2) = 0 from List.mem_singleton.mp h) (by decide))]
  rfl

/-- Where the update's entry `(e, q)` lands: at `(row e, q)` when the word names a row, nowhere otherwise. -/
theorem rowScatter_resultIdx (idx : IVec ⟨2, ![R, 1]⟩ w) (e : Fin R) (q : Fin C) :
    (rowScatterDims N C R wf).resultIdx? (ix2 e q) idx = (scatterRow N idx e).map fun n => ix2 n q := by
  unfold ScatterDims.resultIdx? scatterRow
  by_cases h : 0 ≤ colInt idx e ∧ colInt idx e < (N : Int)
  · have hall : ∀ a, 0 ≤ (rowScatterDims N C R wf).start (ix2 e q) idx a + (rowScatterDims N C R wf).window (ix2 e q) a
        ∧ (rowScatterDims N C R wf).start (ix2 e q) idx a + (rowScatterDims N C R wf).window (ix2 e q) a
          < ((⟨2, ![N, C]⟩ : Shape).size a : Int) := by
      intro a
      match a with
      | ⟨0, _⟩ =>
        rw [show (⟨0, _⟩ : Fin 2) = 0 from rfl, rowScatter_start0, rowScatter_window0]
        show 0 ≤ colInt idx e + ((0 : Nat) : Int) ∧ colInt idx e + ((0 : Nat) : Int) < (N : Int)
        omega
      | ⟨1, _⟩ =>
        rw [show (⟨1, _⟩ : Fin 2) = 1 from rfl, rowScatter_start1, rowScatter_window1]
        show 0 ≤ (0 : Int) + (q.val : Int) ∧ (0 : Int) + (q.val : Int) < (C : Int)
        have := q.isLt
        omega
    rw [dif_pos hall, dif_pos h, Option.map_some]
    congr 1
    funext a
    refine Fin.ext ?_
    match a with
    | ⟨0, _⟩ =>
      show ((rowScatterDims N C R wf).start (ix2 e q) idx 0 + (rowScatterDims N C R wf).window (ix2 e q) 0).toNat = (colInt idx e).toNat
      rw [rowScatter_start0, rowScatter_window0]
      simp
    | ⟨1, _⟩ =>
      show ((rowScatterDims N C R wf).start (ix2 e q) idx 1 + (rowScatterDims N C R wf).window (ix2 e q) 1).toNat = q.val
      rw [rowScatter_start1, rowScatter_window1]
      simp
  · rw [dif_neg h, Option.map_none, dif_neg]
    intro hall
    apply h
    have h0 := hall 0
    rw [rowScatter_start0, rowScatter_window0] at h0
    have h0' : 0 ≤ colInt idx e + ((0 : Nat) : Int) ∧ colInt idx e + ((0 : Nat) : Int) < (N : Int) := h0
    omega

/-- THE ACCUMULATION AT `(n, q)`, at the exact values: the operand's entry plus the updates' entries `(e, q)` over
    the positions `e` whose word names row `n`. -/
theorem rowScatterAdd_apply {φ : FTy} (x : FVec Ideal ⟨2, ![N, C]⟩ φ) (idx : IVec ⟨2, ![R, 1]⟩ w)
    (upd : FVec Ideal ⟨2, ![R, C]⟩ φ) (n : Fin N) (q : Fin C) :
    Host.scatterAdd (rowScatterDims N C R wf) x idx upd (ix2 n q)
      = x (ix2 n q) + ∑ e ∈ Finset.univ.filter (fun e => scatterRow N idx e = some n), upd (ix2 e q) := by
  show Ideal.hostScatterAdd (rowScatterDims N C R wf) x idx upd (ix2 n q) = _
  unfold Ideal.hostScatterAdd
  congr 1
  rw [Finset.sum_filter, sum_idx2, Finset.sum_filter]
  refine Finset.sum_congr rfl fun e _ => ?_
  simp only [rowScatter_resultIdx]
  cases hsr : scatterRow N idx e with
  | none => simp
  | some n' =>
    simp only [Option.map_some, Option.some.injEq, ix2_inj]
    by_cases hn : n' = n
    · subst hn
      simp only [true_and, if_true]
      exact (Finset.sum_ite_eq' Finset.univ q fun c => upd (ix2 e c)).trans (if_pos (Finset.mem_univ q))
    · simp only [hn, false_and, if_false, Finset.sum_const_zero]

end RowScatter

/-! ## Accumulating entries of a vector -/

/-- The dimension numbers of an accumulation into a length-`N` vector through an `R × 1` column, updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

end Cert.Lib.GatherScatter

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LayerRead.lean ====
/-
  One graph-convolution layer read at an index, in the two orders the two programs compute it, over variable extents
  (N nodes, E edges, a input features, b output features).

  Notation: position e of the edge list names a source row `gatherRow hN src e` (its word read signed and clamped)
  and, when its destination word lies in range, a destination row `scatterRow N dst e`; `inEdges dst i` is the set of
  positions whose destination is node i.  nrm e is the edge's coefficient and v i the node's self-loop coefficient.

  * aggregate first: row i of the aggregated matrix is ∑_{e ∈ inEdges i} X (src e) · nrm e + X i · v i, and the dense
    transform follows: leaky (∑_k pre (i,k) · W (k,j) + bias j);
  * transform first: H = X · W, then ∑_{e ∈ inEdges i} H (src e) · nrm e + H i · v i + bias, then leaky.
-/
import Idealize.ShloMosaic.PureOps.Ideal
import Idealize.ShloMosaic.PureOps.Ideal.Laws
import Idealize.ShloMosaic.Lib.ValueIdx
import Idealize.ShloMosaic.Lib.Pipeline.Value
import proofs.«146515_j84370337562865_2_alg».proof.Proof.LibGatherScatter
import proofs.«146515_j84370337562865_2_alg».proof.Proof.LibPlainDot
import proofs.«146515_j84370337562865_2_alg».proof.Proof.LibKeepdims
import proofs.«146515_j84370337562865_2_alg».proof.Proof.LibRowBroadcasts

noncomputable section

namespace Cert.Gcn

open Idealize.ShloMosaic Idealize.ShloMosaic.ValueIdx Cert.Lib.GatherScatter
open scoped BigOperators

variable {N E a b w : Nat}

/-- The positions of the edge list whose destination word names node `i`. -/
def inEdges (dst : IVec ⟨2, ![E, 1]⟩ w) (i : Fin N) : Finset (Fin E) :=
  Finset.univ.filter fun e => scatterRow N dst e = some i

/-- The leaky rectifier on one extended real: the value itself when it is at least zero, a tenth of it (the f32
    nearest to 1/10, the same word in both programs) otherwise. -/
def leaky (z : EReal) : EReal :=
  Scalar.select (FloatOps.cmpf (F := Ideal) (φ := .f32) .oge z (Ideal.ofBits .f32 0x00000000#32)) z
    (Ideal.ofBits .f32 0x3DCCCCCD#32 * z)

/-- The zero splat reads zero everywhere. -/
theorem zeros_apply {s : Shape} (h : (⟨0, ![]⟩ : Shape).BroadcastsInDim s ![]) (i : s.Idx) :
    broadcastInDim s ![] h (constant (F := Ideal) ⟨0, ![]⟩ .f32 0x00000000#32) i = 0 := by
  rw [broadcastInDim_apply _ h _ i (fun ax => ax.elim0) (fun ax => ax.elim0), constant_apply, Ideal.ofBits_zero_f32]

/-- A length-`b` vector laid out as a `1 × b` row by a broadcast along dimension 1 reads the vector at the column. -/
theorem rowOf_apply {α : Type} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A per-position coefficient spread over the columns of an `E × c` matrix reads the coefficient of the row. -/
theorem spread_apply {α : Type} {c : Nat} (v : (⟨1, ![E]⟩ : Shape).Idx → α)
    (h1 : (⟨1, ![E]⟩ : Shape).BroadcastsInDim ⟨2, ![E, 1]⟩ ![0])
    (h2 : (⟨2, ![E, 1]⟩ : Shape).BroadcastsInDim ⟨2, ![E, c]⟩ ![0, 1]) (e : Fin E) (q : Fin c) :
    broadcastInDim ⟨2, ![E, c]⟩ ![0, 1] h2 (broadcastInDim ⟨2, ![E, 1]⟩ ![0] h1 v) (ix2 e q) = v (ix1 e) := by
  rw [Cert.Lib.Rows.dimCol_apply, column_apply]

/-! ## Aggregate first -/

/-- The aggregated matrix at `(i, k)`: the in-neighbours' entries scaled by their edges' coefficients, plus the
    node's own entry scaled by its self-loop coefficient (a length-`N` vector reshaped to a column). -/
theorem aggregate_apply (hN : 0 < N)
    (wfg : GatherDims.WF ⟨2, ![N, a]⟩ ⟨2, ![E, 1]⟩ ⟨2, ![E, a]⟩ [1] [0] [] [0] [] 1 ![1, a])
    (wfs : ScatterDims.WF ⟨2, ![N, a]⟩ ⟨2, ![E, 1]⟩ ⟨2, ![E, a]⟩ [1] [0] [0] 1)
    (h0 : (⟨0, ![]⟩ : Shape).BroadcastsInDim ⟨2, ![N, a]⟩ ![])
    (hn1 : (⟨1, ![E]⟩ : Shape).BroadcastsInDim ⟨2, ![E, 1]⟩ ![0])
    (hn2 : (⟨2, ![E, 1]⟩ : Shape).BroadcastsInDim ⟨2, ![E, a]⟩ ![0, 1])
    (hv2 : (⟨2, ![N, 1]⟩ : Shape).BroadcastsInDim ⟨2, ![N, a]⟩ ![0, 1])
    (X : FVec Ideal ⟨2, ![N, a]⟩ .f32) (src dst : IVec ⟨2, ![E, 1]⟩ w) (nrm : FVec Ideal ⟨1, ![E]⟩ .f32)
    (vcol : FVec Ideal ⟨2, ![N, 1]⟩ .f32) (i : Fin N) (k : Fin a) :
    addf (Host.scatterAdd (rowScatterDims N a E wfs)
            (broadcastInDim ⟨2, ![N, a]⟩ ![] h0 (constant (F := Ideal) ⟨0, ![]⟩ .f32 0x00000000#32)) dst
            (mulf (Host.gather (rowGatherDims N a E wfg) X src)
              (broadcastInDim ⟨2, ![E, a]⟩ ![0, 1] hn2 (broadcastInDim ⟨2, ![E, 1]⟩ ![0] hn1 nrm))))
         (mulf X (broadcastInDim ⟨2, ![N, a]⟩ ![0, 1] hv2 vcol)) (ix2 i k)
      = ((0 : EReal) + ∑ e ∈ inEdges dst i, X (ix2 (gatherRow hN src e) k) * nrm (ix1 e))
          + X (ix2 i k) * vcol (ix2 i (0 : Fin 1)) := by
  rw [addf_apply, mulf_apply, rowScatterAdd_apply, zeros_apply, Cert.Lib.Rows.dimCol_apply]
  unfold inEdges
  refine congrArg₂ _ (congrArg _ (Finset.sum_congr rfl fun e _ => ?_)) rfl
  rw [mulf_apply, rowGather_apply hN, spread_apply]

/-- The dense transform of the region's body at `(p, q)`, for a tile of `T` rows: leaky (∑_k x (p,k) · W (k,q) + bias (0,q)). -/
theorem transform_apply {T : Nat}
    (wfd : DotDims.WF ⟨2, ![T, a]⟩ ⟨2, ![a, b]⟩ ⟨2, ![T, b]⟩ [1] [0] [0] [1] [] [])
    (hx : (⟨2, ![T, a]⟩ : Shape).ShapeCasts ⟨2, ![T, a]⟩) (hb : (⟨2, ![1, b]⟩ : Shape).ShapeCasts ⟨2, ![1, b]⟩)
    (hbr : (⟨2, ![1, b]⟩ : Shape).Broadcasts ⟨2, ![T, b]⟩) (h1 h2 : FTy.bits .bf16 < FTy.bits .f32)
    (x : FVec Ideal ⟨2, ![T, a]⟩ .f32) (W : FVec Ideal ⟨2, ![a, b]⟩ .f32) (brow : FVec Ideal ⟨2, ![1, b]⟩ .f32)
    (p : Fin T) (q : Fin b) :
    select
        (cmpf .oge
          (addf (matmul (Cert.Lib.PlainDot.dims wfd) none (truncf .bf16 (shapeCast ⟨2, ![T, a]⟩ x hx) h1)
                  (truncf .bf16 W h2) (constant ⟨2, ![T, b]⟩ .f32 0x00000000#32))
                (broadcastTo ⟨2, ![T, b]⟩ (shapeCast ⟨2, ![1, b]⟩ brow hb) hbr))
          (broadcast ⟨2, ![T, b]⟩ (Scalar.ofBits (F := Ideal) .f32 0x00000000#32)))
        (addf (matmul (Cert.Lib.PlainDot.dims wfd) none (truncf .bf16 (shapeCast ⟨2, ![T, a]⟩ x hx) h1)
                  (truncf .bf16 W h2) (constant ⟨2, ![T, b]⟩ .f32 0x00000000#32))
                (broadcastTo ⟨2, ![T, b]⟩ (shapeCast ⟨2, ![1, b]⟩ brow hb) hbr))
        (mulf (broadcast ⟨2, ![T, b]⟩ (Scalar.ofBits (F := Ideal) .f32 0x3DCCCCCD#32))
          (addf (matmul (Cert.Lib.PlainDot.dims wfd) none (truncf .bf16 (shapeCast ⟨2, ![T, a]⟩ x hx) h1)
                  (truncf .bf16 W h2) (constant ⟨2, ![T, b]⟩ .f32 0x00000000#32))
                (broadcastTo ⟨2, ![T, b]⟩ (shapeCast ⟨2, ![1, b]⟩ brow hb) hbr))) (ix2 p q)
      = leaky ((∑ k : Fin a, x (ix2 p k) * W (ix2 k q)) + brow (ix2 (0 : Fin 1) q)) := by
  have hz : addf (matmul (Cert.Lib.PlainDot.dims wfd) none (truncf .bf16 (shapeCast ⟨2, ![T, a]⟩ x hx) h1)
                  (truncf .bf16 W h2) (constant ⟨2, ![T, b]⟩ .f32 0x00000000#32))
                (broadcastTo ⟨2, ![T, b]⟩ (shapeCast ⟨2, ![1, b]⟩ brow hb) hbr) (ix2 p q)
      = (∑ k : Fin a, x (ix2 p k) * W (ix2 k q)) + brow (ix2 (0 : Fin 1) q) := by
    rw [addf_apply, Cert.Lib.PlainDot.matmul_zero_apply, Cert.Lib.Rows.bcastRow_apply, shapeCast_self, shapeCast_self]
    rfl
  rw [select_apply, cmpf_apply, mulf_apply, hz]
  rfl

/-! ## Transform first -/

/-- The reference's pre-activation at `(i, j)`: the in-neighbours' transformed rows scaled by their edges'
    coefficients, plus the node's own transformed row scaled by its self-loop coefficient, plus the bias. -/
theorem transformed_aggregate_apply (hN : 0 < N)
    (wfd : DotDims.WF ⟨2, ![N, a]⟩ ⟨2, ![a, b]⟩ ⟨2, ![N, b]⟩ [1] [0] [0] [1] [] [])
    (wfg : GatherDims.WF ⟨2, ![N, b]⟩ ⟨2, ![E, 1]⟩ ⟨2, ![E, b]⟩ [1] [0] [] [0] [] 1 ![1, b])
    (wfs : ScatterDims.WF ⟨2, ![N, b]⟩ ⟨2, ![E, 1]⟩ ⟨2, ![E, b]⟩ [1] [0] [0] 1)
    (h0 : (⟨0, ![]⟩ : Shape).BroadcastsInDim ⟨2, ![N, b]⟩ ![])
    (hn1 : (⟨1, ![E]⟩ : Shape).BroadcastsInDim ⟨2, ![E, 1]⟩ ![0])
    (hn2 : (⟨2, ![E, 1]⟩ : Shape).BroadcastsInDim ⟨2, ![E, b]⟩ ![0, 1])
    (hv1 : (⟨1, ![N]⟩ : Shape).BroadcastsInDim ⟨2, ![N, 1]⟩ ![0])
    (hv2 : (⟨2, ![N, 1]⟩ : Shape).BroadcastsInDim ⟨2, ![N, b]⟩ ![0, 1])
    (hb1 : (⟨1, ![b]⟩ : Shape).BroadcastsInDim ⟨2, ![1, b]⟩ ![1])
    (hb2 : (⟨2, ![1, b]⟩ : Shape).BroadcastsInDim ⟨2, ![N, b]⟩ ![0, 1])
    (X : FVec Ideal ⟨2, ![N, a]⟩ .f32) (W : FVec Ideal ⟨2, ![a, b]⟩ .f32) (src dst : IVec ⟨2, ![E, 1]⟩ w)
    (nrm : FVec Ideal ⟨1, ![E]⟩ .f32) (v : FVec Ideal ⟨1, ![N]⟩ .f32) (bias : FVec Ideal ⟨1, ![b]⟩ .f32)
    (i : Fin N) (j : Fin b) :
    addf (addf (Host.scatterAdd (rowScatterDims N b E wfs)
                  (broadcastInDim ⟨2, ![N, b]⟩ ![] h0 (constant (F := Ideal) ⟨0, ![]⟩ .f32 0x00000000#32)) dst
                  (mulf (Host.gather (rowGatherDims N b E wfg) (Host.dotGeneral (Cert.Lib.PlainDot.dims wfd) none X W) src)
                    (broadcastInDim ⟨2, ![E, b]⟩ ![0, 1] hn2 (broadcastInDim ⟨2, ![E, 1]⟩ ![0] hn1 nrm))))
               (mulf (Host.dotGeneral (Cert.Lib.PlainDot.dims wfd) none X W)
                  (broadcastInDim ⟨2, ![N, b]⟩ ![0, 1] hv2 (broadcastInDim ⟨2, ![N, 1]⟩ ![0] hv1 v))))
         (broadcastInDim ⟨2, ![N, b]⟩ ![0, 1] hb2 (broadcastInDim ⟨2, ![1, b]⟩ ![1] hb1 bias)) (ix2 i j)
      = (((0 : EReal) + ∑ e ∈ inEdges dst i, (∑ k : Fin a, X (ix2 (gatherRow hN src e) k) * W (ix2 k j)) * nrm (ix1 e))
          + (∑ k : Fin a, X (ix2 i k) * W (ix2 k j)) * v (ix1 i)) + bias (ix1 j) := by
  rw [addf_apply, addf_apply, mulf_apply, rowScatterAdd_apply, zeros_apply, Cert.Lib.Rows.dimCol_apply, column_apply,
    Cert.Lib.Rows.dimRow_apply, rowOf_apply, Cert.Lib.PlainDot.dotGeneral_apply]
  unfold inEdges
  refine congrArg₂ _ (congrArg₂ _ (congrArg _ (Finset.sum_congr rfl fun e _ => ?_)) rfl) rfl
  rw [mulf_apply, rowGather_apply hN, spread_apply, Cert.Lib.PlainDot.dotGeneral_apply]

end Cert.Gcn

end
-- ==== Proof.Region0.lean ====
/-
  What the first launch leaves in its output array, as ONE function of the arrays it was entered with.

  The launch walks 20 grid points; point t stages rows 5000·t … 5000·t + 4999 of the aggregated matrix (all of its
  columns), the whole weight matrix and the whole bias row, and writes back the same rows of the output.  The body
  computes, at row p and column q of the tile, leaky (∑_k x (p,k) · W (k,q) + bias (0,q)); the tiles cover the rows,
  so the output array is the dense transform of the whole aggregated matrix, row by row.
-/
import proofs.«146515_j84370337562865_2_alg».proof.Proof.Gen.KernelIdeal.Frame
import proofs.«146515_j84370337562865_2_alg».proof.Proof.LayerRead
import Idealize.ShloMosaic.Lib.Pipeline.Value

set_option maxRecDepth 16384

noncomputable section

namespace Cert.KernelIdeal.Region0

open Idealize.ShloMosaic Idealize.ShloMosaic.TcCoe Idealize.ShloMosaic.ValueIdx Idealize.ShloMosaic.Pipeline
open Cert.KernelIdeal Cert.KernelIdeal.Gen Cert.Gcn
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The dense transform of a whole matrix: row i, column j is leaky (∑_k X (i,k) · W (k,j) + bias (0,j)). -/
def dense (X : S100000x4.Idx → EReal) (W : S4x12.Idx → EReal) (B : S1x12.Idx → EReal) : S100000x12.Idx → EReal :=
  fun i => leaky ((∑ k : Fin 4, X (ix2 (i 0) k) * W (ix2 k (i 1))) + B (ix2 (0 : Fin 1) (i 1)))

theorem dense_apply (X : S100000x4.Idx → EReal) (W : S4x12.Idx → EReal) (B : S1x12.Idx → EReal) (i : S100000x12.Idx) :
    dense X W B i = leaky ((∑ k : Fin 4, X (ix2 (i 0) k) * W (ix2 k (i 1))) + B (ix2 (0 : Fin 1) (i 1))) := rfl

/-- The body's stored value at row p, column q of the tile. -/
theorem body_apply (x0 : Vec Ideal S5000x4 .f32) (x1 : Vec Ideal S4x12 .f32) (x2 : Vec Ideal S1x12 .f32)
    (p : Fin 5000) (q : Fin 12) :
    k0_pay1 x0 x1 x2 (ix2 p q) = leaky ((∑ k : Fin 4, x0 (ix2 p k) * x1 (ix2 k q)) + x2 (ix2 (0 : Fin 1) q)) :=
  Cert.Gcn.transform_apply (T := 5000) (a := 4) (b := 12) dot_S5000x4_S4x12_S5000x12_1_0_0_1_n_n_wf
    shapeCasts_S5000x4_S5000x4 shapeCasts_S1x12_S1x12 broadcasts_S1x12_S5000x12 bitsLt_bf16_f32 bitsLt_bf16_f32 x0 x1 x2 p q

/-- The printed index maps over the grid: the input tile moves with the output tile along the rows, the weights and
    the bias stay, and the output's row block is the point's number. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every row block is some point's. -/
theorem index_onto : ∀ q0 : Fin 20, ∃ t : Fin cfg0.N, win0_3.index t = ![q0.val, 0] :=
  (by decide +kernel : ∀ q0 : Fin 20, ∃ t : Fin grid0.N, win0_3.index t = ![q0.val, 0])

/-- What point t writes back is block t of the dense transform of the arrays the launch was entered with. -/
theorem flushed_eq (c : Dev nD) (t : Fin cfg0.N) :
    (dat0 (F := Ideal) V c).flushed 3 t
      = ((cfg0.win 3).blk t).view.read (Elt Ideal) (dense (V c main_v44) (V c main_arg3) (V c main_v45)) := by
  show (cfg0.win 3).cut (grid0.coords t) ((dat0 (F := Ideal) V c).after 3 t) = _
  rw [after0_3]
  unfold out0_3
  rw [View.canon_unit_zero zero_offsets]
  simp only [View.ld_unit_zero (S := S5000x4) zero_offsets, View.ld_unit_zero (S := S4x12) zero_offsets,
    View.ld_unit_zero (S := S1x12) zero_offsets]
  obtain ⟨e0, e1, e2, e3, e4, e5, e6, e7⟩ := index_facts t
  funext j
  obtain ⟨p, q, rfl⟩ : ∃ (p : Fin 5000) (q : Fin 12), j = ix2 p q := ⟨j 0, j 1, eq_ix2 j⟩
  refine (body_apply (iblk0 V c 0 t) (iblk0 V c 1 t) (iblk0 V c 2 t) p q).trans ?_
  refine Eq.trans ?_ (dense_apply (V c main_v44) (V c main_arg3) (V c main_v45) (((cfg0.win 3).blk t).view.emb (ix2 p q))).symm
  refine congrArg leaky (congrArg₂ (· + ·) (Finset.sum_congr rfl fun k _ => congrArg₂ (· * ·) ?_ ?_) ?_)
  · show V c main_v44 (((cfg0.win 0).blk t).view.emb (ix2 p k)) = _
    refine congrArg (V c main_v44) (funext fun ax => Fin.ext ?_)
    match ax with
    | ⟨0, _⟩ => show win0_0.index t (0 : Fin 2) * 5000 + 1 * p.val = win0_3.index t (0 : Fin 2) * 5000 + 1 * p.val; omega
    | ⟨1, _⟩ => show win0_0.index t (1 : Fin 2) * 4 + 1 * k.val = k.val; omega
  · show V c main_arg3 (((cfg0.win 1).blk t).view.emb (ix2 k q)) = _
    refine congrArg (V c main_arg3) (funext fun ax => Fin.ext ?_)
    match ax with
    | ⟨0, _⟩ => show win0_1.index t (0 : Fin 2) * 4 + 1 * k.val = k.val; omega
    | ⟨1, _⟩ => show win0_1.index t (1 : Fin 2) * 12 + 1 * q.val = win0_3.index t (1 : Fin 2) * 12 + 1 * q.val; omega
  · show V c main_v45 (((cfg0.win 2).blk t).view.emb (ix2 (0 : Fin 1) q)) = _
    refine congrArg (V c main_v45) (funext fun ax => Fin.ext ?_)
    match ax with
    | ⟨0, _⟩ => show win0_2.index t (0 : Fin 2) * 1 + 1 * 0 = 0; omega
    | ⟨1, _⟩ => show win0_2.index t (1 : Fin 2) * 12 + 1 * q.val = win0_3.index t (1 : Fin 2) * 12 + 1 * q.val; omega

/-- An index of the output array is in point t's block iff each coordinate is in the block's range. -/
theorem mem_block (t : Fin cfg0.N) (i : S100000x12.Idx) :
    i ∈ ((cfg0.win 3).blk t).view.set ↔ ∀ ax : Fin 2, win0_3.index t ax * S5000x12.size ax ≤ (i ax).val
      ∧ (i ax).val < win0_3.index t ax * S5000x12.size ax + S5000x12.size ax := by
  show i ∈ ((View.whole main_v46).slice (win0_3.rect t)).set ↔ _
  rw [View.set_slice_whole, Rect.mem_set_unit]
  exact Iff.rfl

/-- The blocks cover the output array: row r lies in the block of point r / 5000. -/
theorem covered (i : S100000x12.Idx) :
    ∃ t : Fin cfg0.N, (cfg0.win 3).flush t = true ∧ i ∈ ((cfg0.win 3).blk t).view.set := by
  have hi0 : (i 0).val < 100000 := (i 0).isLt
  have hi1 : (i 1).val < 12 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro ax
  match ax with
  | ⟨0, _⟩ => show win0_3.index t (0 : Fin 2) * 5000 ≤ (i 0).val ∧ (i 0).val < win0_3.index t (0 : Fin 2) * 5000 + 5000; omega
  | ⟨1, _⟩ => show win0_3.index t (1 : Fin 2) * 12 ≤ (i 1).val ∧ (i 1).val < win0_3.index t (1 : Fin 2) * 12 + 12; omega

/-- The output array after the launch: the dense transform of the arrays the launch was entered with. -/
theorem output (c : Dev nD) :
    (dat0 (F := Ideal) V c).arrAt 3 cfg0.N = dense (V c main_v44) (V c main_arg3) (V c main_v45) :=
  (dat0 (F := Ideal) V c).arrAt_eq_of_cover 3 _ (fun t _ => flushed_eq V c t) covered

end Cert.KernelIdeal.Region0

end
-- ==== Proof.Region1.lean ====
/-
  What the second launch leaves in its output array, as ONE function of the arrays it was entered with.

  The launch walks 20 grid points; point t stages rows 5000·t … 5000·t + 4999 of the aggregated matrix (all of its
  columns), the whole weight matrix and the whole bias row, and writes back the same rows of the output.  The body
  computes, at row p and column q of the tile, leaky (∑_k x (p,k) · W (k,q) + bias (0,q)); the tiles cover the rows,
  so the output array is the dense transform of the whole aggregated matrix, row by row.
-/
import proofs.«146515_j84370337562865_2_alg».proof.Proof.Gen.KernelIdeal.Frame
import proofs.«146515_j84370337562865_2_alg».proof.Proof.LayerRead
import Idealize.ShloMosaic.Lib.Pipeline.Value

set_option maxRecDepth 16384

noncomputable section

namespace Cert.KernelIdeal.Region1

open Idealize.ShloMosaic Idealize.ShloMosaic.TcCoe Idealize.ShloMosaic.ValueIdx Idealize.ShloMosaic.Pipeline
open Cert.KernelIdeal Cert.KernelIdeal.Gen Cert.Gcn
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The dense transform of a whole matrix: row i, column j is leaky (∑_k X (i,k) · W (k,j) + bias (0,j)). -/
def dense (X : S100000x12.Idx → EReal) (W : S12x24.Idx → EReal) (B : S1x24.Idx → EReal) : S100000x24.Idx → EReal :=
  fun i => leaky ((∑ k : Fin 12, X (ix2 (i 0) k) * W (ix2 k (i 1))) + B (ix2 (0 : Fin 1) (i 1)))

theorem dense_apply (X : S100000x12.Idx → EReal) (W : S12x24.Idx → EReal) (B : S1x24.Idx → EReal) (i : S100000x24.Idx) :
    dense X W B i = leaky ((∑ k : Fin 12, X (ix2 (i 0) k) * W (ix2 k (i 1))) + B (ix2 (0 : Fin 1) (i 1))) := rfl

/-- The body's stored value at row p, column q of the tile. -/
theorem body_apply (x0 : Vec Ideal S5000x12 .f32) (x1 : Vec Ideal S12x24 .f32) (x2 : Vec Ideal S1x24 .f32)
    (p : Fin 5000) (q : Fin 24) :
    k1_pay1 x0 x1 x2 (ix2 p q) = leaky ((∑ k : Fin 12, x0 (ix2 p k) * x1 (ix2 k q)) + x2 (ix2 (0 : Fin 1) q)) :=
  Cert.Gcn.transform_apply (T := 5000) (a := 12) (b := 24) dot_S5000x12_S12x24_S5000x24_1_0_0_1_n_n_wf
    shapeCasts_S5000x12_S5000x12 shapeCasts_S1x24_S1x24 broadcasts_S1x24_S5000x24 bitsLt_bf16_f32 bitsLt_bf16_f32 x0 x1 x2 p q

/-- The printed index maps over the grid: the input tile moves with the output tile along the rows, the weights and
    the bias stay, and the output's row block is the point's number. -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every row block is some point's. -/
theorem index_onto : ∀ q0 : Fin 20, ∃ t : Fin cfg1.N, win1_3.index t = ![q0.val, 0] :=
  (by decide +kernel : ∀ q0 : Fin 20, ∃ t : Fin grid1.N, win1_3.index t = ![q0.val, 0])

/-- What point t writes back is block t of the dense transform of the arrays the launch was entered with. -/
theorem flushed_eq (c : Dev nD) (t : Fin cfg1.N) :
    (dat1 (F := Ideal) V c).flushed 3 t
      = ((cfg1.win 3).blk t).view.read (Elt Ideal) (dense (V c main_v62) (V c main_arg5) (V c main_v63)) := by
  show (cfg1.win 3).cut (grid1.coords t) ((dat1 (F := Ideal) V c).after 3 t) = _
  rw [after1_3]
  unfold out1_3
  rw [View.canon_unit_zero zero_offsets]
  simp only [View.ld_unit_zero (S := S5000x12) zero_offsets, View.ld_unit_zero (S := S12x24) zero_offsets,
    View.ld_unit_zero (S := S1x24) zero_offsets]
  obtain ⟨e0, e1, e2, e3, e4, e5, e6, e7⟩ := index_facts t
  funext j
  obtain ⟨p, q, rfl⟩ : ∃ (p : Fin 5000) (q : Fin 24), j = ix2 p q := ⟨j 0, j 1, eq_ix2 j⟩
  refine (body_apply (iblk1 V c 0 t) (iblk1 V c 1 t) (iblk1 V c 2 t) p q).trans ?_
  refine Eq.trans ?_ (dense_apply (V c main_v62) (V c main_arg5) (V c main_v63) (((cfg1.win 3).blk t).view.emb (ix2 p q))).symm
  refine congrArg leaky (congrArg₂ (· + ·) (Finset.sum_congr rfl fun k _ => congrArg₂ (· * ·) ?_ ?_) ?_)
  · show V c main_v62 (((cfg1.win 0).blk t).view.emb (ix2 p k)) = _
    refine congrArg (V c main_v62) (funext fun ax => Fin.ext ?_)
    match ax with
    | ⟨0, _⟩ => show win1_0.index t (0 : Fin 2) * 5000 + 1 * p.val = win1_3.index t (0 : Fin 2) * 5000 + 1 * p.val; omega
    | ⟨1, _⟩ => show win1_0.index t (1 : Fin 2) * 12 + 1 * k.val = k.val; omega
  · show V c main_arg5 (((cfg1.win 1).blk t).view.emb (ix2 k q)) = _
    refine congrArg (V c main_arg5) (funext fun ax => Fin.ext ?_)
    match ax with
    | ⟨0, _⟩ => show win1_1.index t (0 : Fin 2) * 12 + 1 * k.val = k.val; omega
    | ⟨1, _⟩ => show win1_1.index t (1 : Fin 2) * 24 + 1 * q.val = win1_3.index t (1 : Fin 2) * 24 + 1 * q.val; omega
  · show V c main_v63 (((cfg1.win 2).blk t).view.emb (ix2 (0 : Fin 1) q)) = _
    refine congrArg (V c main_v63) (funext fun ax => Fin.ext ?_)
    match ax with
    | ⟨0, _⟩ => show win1_2.index t (0 : Fin 2) * 1 + 1 * 0 = 0; omega
    | ⟨1, _⟩ => show win1_2.index t (1 : Fin 2) * 24 + 1 * q.val = win1_3.index t (1 : Fin 2) * 24 + 1 * q.val; omega

/-- An index of the output array is in point t's block iff each coordinate is in the block's range. -/
theorem mem_block (t : Fin cfg1.N) (i : S100000x24.Idx) :
    i ∈ ((cfg1.win 3).blk t).view.set ↔ ∀ ax : Fin 2, win1_3.index t ax * S5000x24.size ax ≤ (i ax).val
      ∧ (i ax).val < win1_3.index t ax * S5000x24.size ax + S5000x24.size ax := by
  show i ∈ ((View.whole main_v64).slice (win1_3.rect t)).set ↔ _
  rw [View.set_slice_whole, Rect.mem_set_unit]
  exact Iff.rfl

/-- The blocks cover the output array: row r lies in the block of point r / 5000. -/
theorem covered (i : S100000x24.Idx) :
    ∃ t : Fin cfg1.N, (cfg1.win 3).flush t = true ∧ i ∈ ((cfg1.win 3).blk t).view.set := by
  have hi0 : (i 0).val < 100000 := (i 0).isLt
  have hi1 : (i 1).val < 24 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro ax
  match ax with
  | ⟨0, _⟩ => show win1_3.index t (0 : Fin 2) * 5000 ≤ (i 0).val ∧ (i 0).val < win1_3.index t (0 : Fin 2) * 5000 + 5000; omega
  | ⟨1, _⟩ => show win1_3.index t (1 : Fin 2) * 24 ≤ (i 1).val ∧ (i 1).val < win1_3.index t (1 : Fin 2) * 24 + 24; omega

/-- The output array after the launch: the dense transform of the arrays the launch was entered with. -/
theorem output (c : Dev nD) :
    (dat1 (F := Ideal) V c).arrAt 3 cfg1.N = dense (V c main_v62) (V c main_arg5) (V c main_v63) :=
  (dat1 (F := Ideal) V c).arrAt_eq_of_cover 3 _ (fun t _ => flushed_eq V c t) covered

end Cert.KernelIdeal.Region1

end
-- ==== Proof.Region2.lean ====
/-
  What the third launch leaves in its output array, as ONE function of the arrays it was entered with.

  The launch walks 20 grid points; point t stages rows 5000·t … 5000·t + 4999 of the aggregated matrix (all of its
  columns), the whole weight matrix and the whole bias row, and writes back the same rows of the output.  The body
  computes, at row p and column q of the tile, leaky (∑_k x (p,k) · W (k,q) + bias (0,q)); the tiles cover the rows,
  so the output array is the dense transform of the whole aggregated matrix, row by row.
-/
import proofs.«146515_j84370337562865_2_alg».proof.Proof.Gen.KernelIdeal.Frame
import proofs.«146515_j84370337562865_2_alg».proof.Proof.LayerRead
import Idealize.ShloMosaic.Lib.Pipeline.Value

set_option maxRecDepth 16384

noncomputable section

namespace Cert.KernelIdeal.Region2

open Idealize.ShloMosaic Idealize.ShloMosaic.TcCoe Idealize.ShloMosaic.ValueIdx Idealize.ShloMosaic.Pipeline
open Cert.KernelIdeal Cert.KernelIdeal.Gen Cert.Gcn
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The dense transform of a whole matrix: row i, column j is leaky (∑_k X (i,k) · W (k,j) + bias (0,j)). -/
def dense (X : S100000x24.Idx → EReal) (W : S24x48.Idx → EReal) (B : S1x48.Idx → EReal) : S100000x48.Idx → EReal :=
  fun i => leaky ((∑ k : Fin 24, X (ix2 (i 0) k) * W (ix2 k (i 1))) + B (ix2 (0 : Fin 1) (i 1)))

theorem dense_apply (X : S100000x24.Idx → EReal) (W : S24x48.Idx → EReal) (B : S1x48.Idx → EReal) (i : S100000x48.Idx) :
    dense X W B i = leaky ((∑ k : Fin 24, X (ix2 (i 0) k) * W (ix2 k (i 1))) + B (ix2 (0 : Fin 1) (i 1))) := rfl

/-- The body's stored value at row p, column q of the tile. -/
theorem body_apply (x0 : Vec Ideal S5000x24 .f32) (x1 : Vec Ideal S24x48 .f32) (x2 : Vec Ideal S1x48 .f32)
    (p : Fin 5000) (q : Fin 48) :
    k2_pay1 x0 x1 x2 (ix2 p q) = leaky ((∑ k : Fin 24, x0 (ix2 p k) * x1 (ix2 k q)) + x2 (ix2 (0 : Fin 1) q)) :=
  Cert.Gcn.transform_apply (T := 5000) (a := 24) (b := 48) dot_S5000x24_S24x48_S5000x48_1_0_0_1_n_n_wf
    shapeCasts_S5000x24_S5000x24 shapeCasts_S1x48_S1x48 broadcasts_S1x48_S5000x48 bitsLt_bf16_f32 bitsLt_bf16_f32 x0 x1 x2 p q

/-- The printed index maps over the grid: the input tile moves with the output tile along the rows, the weights and
    the bias stay, and the output's row block is the point's number. -/
theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every row block is some point's. -/
theorem index_onto : ∀ q0 : Fin 20, ∃ t : Fin cfg2.N, win2_3.index t = ![q0.val, 0] :=
  (by decide +kernel : ∀ q0 : Fin 20, ∃ t : Fin grid2.N, win2_3.index t = ![q0.val, 0])

/-- What point t writes back is block t of the dense transform of the arrays the launch was entered with. -/
theorem flushed_eq (c : Dev nD) (t : Fin cfg2.N) :
    (dat2 (F := Ideal) V c).flushed 3 t
      = ((cfg2.win 3).blk t).view.read (Elt Ideal) (dense (V c main_v80) (V c main_arg7) (V c main_v81)) := by
  show (cfg2.win 3).cut (grid2.coords t) ((dat2 (F := Ideal) V c).after 3 t) = _
  rw [after2_3]
  unfold out2_3
  rw [View.canon_unit_zero zero_offsets]
  simp only [View.ld_unit_zero (S := S5000x24) zero_offsets, View.ld_unit_zero (S := S24x48) zero_offsets,
    View.ld_unit_zero (S := S1x48) zero_offsets]
  obtain ⟨e0, e1, e2, e3, e4, e5, e6, e7⟩ := index_facts t
  funext j
  obtain ⟨p, q, rfl⟩ : ∃ (p : Fin 5000) (q : Fin 48), j = ix2 p q := ⟨j 0, j 1, eq_ix2 j⟩
  refine (body_apply (iblk2 V c 0 t) (iblk2 V c 1 t) (iblk2 V c 2 t) p q).trans ?_
  refine Eq.trans ?_ (dense_apply (V c main_v80) (V c main_arg7) (V c main_v81) (((cfg2.win 3).blk t).view.emb (ix2 p q))).symm
  refine congrArg leaky (congrArg₂ (· + ·) (Finset.sum_congr rfl fun k _ => congrArg₂ (· * ·) ?_ ?_) ?_)
  · show V c main_v80 (((cfg2.win 0).blk t).view.emb (ix2 p k)) = _
    refine congrArg (V c main_v80) (funext fun ax => Fin.ext ?_)
    match ax with
    | ⟨0, _⟩ => show win2_0.index t (0 : Fin 2) * 5000 + 1 * p.val = win2_3.index t (0 : Fin 2) * 5000 + 1 * p.val; omega
    | ⟨1, _⟩ => show win2_0.index t (1 : Fin 2) * 24 + 1 * k.val = k.val; omega
  · show V c main_arg7 (((cfg2.win 1).blk t).view.emb (ix2 k q)) = _
    refine congrArg (V c main_arg7) (funext fun ax => Fin.ext ?_)
    match ax with
    | ⟨0, _⟩ => show win2_1.index t (0 : Fin 2) * 24 + 1 * k.val = k.val; omega
    | ⟨1, _⟩ => show win2_1.index t (1 : Fin 2) * 48 + 1 * q.val = win2_3.index t (1 : Fin 2) * 48 + 1 * q.val; omega
  · show V c main_v81 (((cfg2.win 2).blk t).view.emb (ix2 (0 : Fin 1) q)) = _
    refine congrArg (V c main_v81) (funext fun ax => Fin.ext ?_)
    match ax with
    | ⟨0, _⟩ => show win2_2.index t (0 : Fin 2) * 1 + 1 * 0 = 0; omega
    | ⟨1, _⟩ => show win2_2.index t (1 : Fin 2) * 48 + 1 * q.val = win2_3.index t (1 : Fin 2) * 48 + 1 * q.val; omega

/-- An index of the output array is in point t's block iff each coordinate is in the block's range. -/
theorem mem_block (t : Fin cfg2.N) (i : S100000x48.Idx) :
    i ∈ ((cfg2.win 3).blk t).view.set ↔ ∀ ax : Fin 2, win2_3.index t ax * S5000x48.size ax ≤ (i ax).val
      ∧ (i ax).val < win2_3.index t ax * S5000x48.size ax + S5000x48.size ax := by
  show i ∈ ((View.whole main_v82).slice (win2_3.rect t)).set ↔ _
  rw [View.set_slice_whole, Rect.mem_set_unit]
  exact Iff.rfl

/-- The blocks cover the output array: row r lies in the block of point r / 5000. -/
theorem covered (i : S100000x48.Idx) :
    ∃ t : Fin cfg2.N, (cfg2.win 3).flush t = true ∧ i ∈ ((cfg2.win 3).blk t).view.set := by
  have hi0 : (i 0).val < 100000 := (i 0).isLt
  have hi1 : (i 1).val < 48 := (i 1).isLt
  obtain ⟨t, ht⟩ := index_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro ax
  match ax with
  | ⟨0, _⟩ => show win2_3.index t (0 : Fin 2) * 5000 ≤ (i 0).val ∧ (i 0).val < win2_3.index t (0 : Fin 2) * 5000 + 5000; omega
  | ⟨1, _⟩ => show win2_3.index t (1 : Fin 2) * 48 ≤ (i 1).val ∧ (i 1).val < win2_3.index t (1 : Fin 2) * 48 + 48; omega

/-- The output array after the launch: the dense transform of the arrays the launch was entered with. -/
theorem output (c : Dev nD) :
    (dat2 (F := Ideal) V c).arrAt 3 cfg2.N = dense (V c main_v80) (V c main_arg7) (V c main_v81) :=
  (dat2 (F := Ideal) V c).arrAt_eq_of_cover 3 _ (fun t _ => flushed_eq V c t) covered

end Cert.KernelIdeal.Region2

end
-- ==== Proof.KernelLayers.lean ====
/-
  The node matrix after each layer of the idealized kernel: the host's aggregate of the previous matrix, then the
  launch's dense transform with the bias laid out as a row.
-/
import proofs.«146515_j84370337562865_2_alg».proof.Proof.KernelHost
import proofs.«146515_j84370337562865_2_alg».proof.Proof.Region0
import proofs.«146515_j84370337562865_2_alg».proof.Proof.Region1
import proofs.«146515_j84370337562865_2_alg».proof.Proof.Region2

set_option maxRecDepth 16384

noncomputable section

namespace Cert.KernelIdeal.Value

open Idealize.ShloMosaic Idealize.ShloMosaic.TcCoe
open Cert.KernelIdeal Cert.KernelIdeal.Gen Cert.KernelIdeal.Pure

/-- The node matrix after the first layer. -/
def x1 (X0 : FVec Ideal S100000x4 .f32) (ew : FVec Ideal S3200000 .f32) (ei : IVec S2x3200000 32)
    (w1 : FVec Ideal S4x12 .f32) (b1 : FVec Ideal S12 .f32) : FVec Ideal S100000x12 .f32 :=
  Region0.dense (pre4 X0 (norm ew (srcV ei) (dstV ei)) (vcol ew (dstV ei)) (srcV ei) (dstV ei)) w1
    (shapeCast S1x12 b1 shapeCasts_S12_S1x12)
/-- After the second. -/
def x2 (X1 : FVec Ideal S100000x12 .f32) (ew : FVec Ideal S3200000 .f32) (ei : IVec S2x3200000 32)
    (w2 : FVec Ideal S12x24 .f32) (b2 : FVec Ideal S24 .f32) : FVec Ideal S100000x24 .f32 :=
  Region1.dense (pre12 X1 (norm ew (srcV ei) (dstV ei)) (vcol ew (dstV ei)) (srcV ei) (dstV ei)) w2
    (shapeCast S1x24 b2 shapeCasts_S24_S1x24)
/-- After the third. -/
def x3 (X2 : FVec Ideal S100000x24 .f32) (ew : FVec Ideal S3200000 .f32) (ei : IVec S2x3200000 32)
    (w3 : FVec Ideal S24x48 .f32) (b3 : FVec Ideal S48 .f32) : FVec Ideal S100000x48 .f32 :=
  Region2.dense (pre24 X2 (norm ew (srcV ei) (dstV ei)) (vcol ew (dstV ei)) (srcV ei) (dstV ei)) w3
    (shapeCast S1x48 b3 shapeCasts_S48_S1x48)

end Cert.KernelIdeal.Value

end
-- ==== Proof.KernelValue.lean ====
/-
  The idealized kernel's result as one function of the argument arrays.

  Layer by layer: the host aggregates the node matrix (from the previous launch, or the node features), the launch
  applies the dense transform row tile by row tile, and after the third launch the host pools the rows and applies
  the head.  Buffers a stretch does not write, and a launch does not own, pass through unchanged.
-/
import proofs.«146515_j84370337562865_2_alg».proof.Proof.KernelFold
import proofs.«146515_j84370337562865_2_alg».proof.Proof.KernelFold2
import proofs.«146515_j84370337562865_2_alg».proof.Proof.KernelLayers

set_option maxRecDepth 16384

noncomputable section

namespace Cert.KernelIdeal.Value

open Idealize.ShloMosaic Idealize.ShloMosaic.TcCoe Idealize.ShloMosaic.StableHlo
open Cert.KernelIdeal Cert.KernelIdeal.Gen Cert.KernelIdeal.Pure Cert.KernelIdeal.Fold

variable (m : (ℓ : Loc nD τ sig) → Buf (Elt Ideal) ℓ) (ρ : Dev nD → PrngReg) (c : Dev nD)

local macro "thru" : tactic =>
  `(tactic| (refine StableHlo.after_of_forall_not_mem _ _ (List.forall_iff_forall_mem.mp ?_)
             simp only [hostOps0, hostOps1, hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## Through the first stretch -/

theorem w1_arg (b : Ref sig .tc) (hb : after (hostOps0 (F := Ideal)) (W0 m ρ c) (Proc.devRef .tc b) = W0 m ρ c (Proc.devRef .tc b)) :
    W1 m ρ c (Proc.devRef .tc b) = m ((c : Thread nD τ).loc b) := hb

theorem w1_arg3 : W1 m ρ c (Proc.devRef .tc main_arg3) = (m ((c : Thread nD τ).loc main_arg3)) := by show after _ _ _ = _; thru
theorem w1_arg5 : W1 m ρ c (Proc.devRef .tc main_arg5) = (m ((c : Thread nD τ).loc main_arg5)) := by show after _ _ _ = _; thru
theorem w1_arg6 : W1 m ρ c (Proc.devRef .tc main_arg6) = (m ((c : Thread nD τ).loc main_arg6)) := by show after _ _ _ = _; thru
theorem w1_arg7 : W1 m ρ c (Proc.devRef .tc main_arg7) = (m ((c : Thread nD τ).loc main_arg7)) := by show after _ _ _ = _; thru
theorem w1_arg8 : W1 m ρ c (Proc.devRef .tc main_arg8) = (m ((c : Thread nD τ).loc main_arg8)) := by show after _ _ _ = _; thru
theorem w1_arg9 : W1 m ρ c (Proc.devRef .tc main_arg9) = (m ((c : Thread nD τ).loc main_arg9)) := by show after _ _ _ = _; thru
theorem w1_arg10 : W1 m ρ c (Proc.devRef .tc main_arg10) = (m ((c : Thread nD τ).loc main_arg10)) := by show after _ _ _ = _; thru
theorem w1_arg11 : W1 m ρ c (Proc.devRef .tc main_arg11) = (m ((c : Thread nD τ).loc main_arg11)) := by show after _ _ _ = _; thru
theorem w1_arg12 : W1 m ρ c (Proc.devRef .tc main_arg12) = (m ((c : Thread nD τ).loc main_arg12)) := by show after _ _ _ = _; thru
theorem w1_arg13 : W1 m ρ c (Proc.devRef .tc main_arg13) = (m ((c : Thread nD τ).loc main_arg13)) := by show after _ _ _ = _; thru
theorem w1_arg14 : W1 m ρ c (Proc.devRef .tc main_arg14) = (m ((c : Thread nD τ).loc main_arg14)) := by show after _ _ _ = _; thru

theorem w1_src : W1 m ρ c (Proc.devRef .tc main_v1) = srcV (m ((c : Thread nD τ).loc main_arg2)) := s0_src (W0 m ρ c)
theorem w1_dst : W1 m ρ c (Proc.devRef .tc main_v3) = dstV (m ((c : Thread nD τ).loc main_arg2)) := s0_dst (W0 m ρ c)
theorem w1_norm : W1 m ρ c (Proc.devRef .tc main_v25)
    = norm (m ((c : Thread nD τ).loc main_arg1)) (srcV (m ((c : Thread nD τ).loc main_arg2))) (dstV (m ((c : Thread nD τ).loc main_arg2))) := s0_norm (W0 m ρ c)
theorem w1_vcol : W1 m ρ c (Proc.devRef .tc main_v28) = vcol (m ((c : Thread nD τ).loc main_arg1)) (dstV (m ((c : Thread nD τ).loc main_arg2))) := s0_vcol (W0 m ρ c)

/-- The first launch's output. -/
theorem w2_out : W2 m ρ c (Proc.devRef .tc main_v46)
    = x1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 3).trans ((Region0.output (V1 m ρ) c).trans ?_)
  have h44 : V1 m ρ c main_v44 = _ := s0_pre (W0 m ρ c)
  have h45 : V1 m ρ c main_v45 = _ := s0_bias (W0 m ρ c)
  have h3 : V1 m ρ c main_arg3 = _ := w1_arg3 m ρ c
  rw [h44, h45, h3]
  rfl

/-! ## Through the first launch and the second stretch -/

theorem w2_of_w1 (b : Ref sig .tc) (hb : ∀ w, Pipeline.arrRef spec0 w ≠ b) :
    W2 m ρ c (Proc.devRef .tc b) = W1 m ρ c (Proc.devRef .tc b) := W2_of_ne m ρ c b hb

theorem w3_thru (b : Ref sig .tc)
    (hb : after (hostOps1 (F := Ideal)) (W2 m ρ c) (Proc.devRef .tc b) = W2 m ρ c (Proc.devRef .tc b)) :
    W3 m ρ c (Proc.devRef .tc b) = W2 m ρ c (Proc.devRef .tc b) := hb

theorem w3_arg5 : W3 m ρ c (Proc.devRef .tc main_arg5) = (m ((c : Thread nD τ).loc main_arg5)) :=
  (by show after _ _ _ = _; thru : W3 m ρ c (Proc.devRef .tc main_arg5) = W2 m ρ c (Proc.devRef .tc main_arg5)).trans
    ((W2_of_ne m ρ c main_arg5 (by decide)).trans (w1_arg5 m ρ c))

/-- The second launch's output. -/
theorem w4_out : W4 m ρ c (Proc.devRef .tc main_v64)
    = x2 (x1 (m ((c : Thread nD τ).loc main_arg0)) (m ((c : Thread nD τ).loc main_arg1)) (m ((c : Thread nD τ).loc main_arg2)) (m ((c : Thread nD τ).loc main_arg3)) (m ((c : Thread nD τ).loc main_arg4)))
        (m ((c : Thread nD τ).loc main_arg1)) (m ((c : Thread nD τ).loc main_arg2)) (m ((c : Thread nD τ).loc main_arg5)) (m ((c : Thread nD τ).loc main_arg6)) := by
  refine (W4_arr m ρ c 3).trans ((Region1.output (V3 m ρ) c).trans ?_)
  have h62 : V3 m ρ c main_v62 = _ := s1_pre (W2 m ρ c)
  have h63 : V3 m ρ c main_v63 = _ := s1_bias (W2 m ρ c)
  have h5 : V3 m ρ c main_arg5 = _ := w3_arg5 m ρ c
  rw [h62, h63, h5, w2_out, W2_of_ne m ρ c main_v25 (by decide), W2_of_ne m ρ c main_v28 (by decide),
    W2_of_ne m ρ c main_v1 (by decide), W2_of_ne m ρ c main_v3 (by decide), W2_of_ne m ρ c main_arg6 (by decide),
    w1_norm, w1_vcol, w1_src, w1_dst, w1_arg6]
  rfl

/-! ## Through the second launch and the third stretch -/

theorem w4_keep (b : Ref sig .tc) (hb4 : ∀ w, Pipeline.arrRef spec1 w ≠ b) (hb2 : ∀ w, Pipeline.arrRef spec0 w ≠ b)
    (hb : after (hostOps1 (F := Ideal)) (W2 m ρ c) (Proc.devRef .tc b) = W2 m ρ c (Proc.devRef .tc b)) :
    W4 m ρ c (Proc.devRef .tc b) = W1 m ρ c (Proc.devRef .tc b) :=
  (W4_of_ne m ρ c b hb4).trans (hb.trans (W2_of_ne m ρ c b hb2))

theorem w4_norm : W4 m ρ c (Proc.devRef .tc main_v25) = norm (m ((c : Thread nD τ).loc main_arg1)) (srcV (m ((c : Thread nD τ).loc main_arg2))) (dstV (m ((c : Thread nD τ).loc main_arg2))) :=
  (w4_keep m ρ c main_v25 (by decide) (by decide) (by thru)).trans (w1_norm m ρ c)
theorem w4_vcol : W4 m ρ c (Proc.devRef .tc main_v28) = vcol (m ((c : Thread nD τ).loc main_arg1)) (dstV (m ((c : Thread nD τ).loc main_arg2))) :=
  (w4_keep m ρ c main_v28 (by decide) (by decide) (by thru)).trans (w1_vcol m ρ c)
theorem w4_src : W4 m ρ c (Proc.devRef .tc main_v1) = srcV (m ((c : Thread nD τ).loc main_arg2)) :=
  (w4_keep m ρ c main_v1 (by decide) (by decide) (by thru)).trans (w1_src m ρ c)
theorem w4_dst : W4 m ρ c (Proc.devRef .tc main_v3) = dstV (m ((c : Thread nD τ).loc main_arg2)) :=
  (w4_keep m ρ c main_v3 (by decide) (by decide) (by thru)).trans (w1_dst m ρ c)
theorem w4_arg7 : W4 m ρ c (Proc.devRef .tc main_arg7) = (m ((c : Thread nD τ).loc main_arg7)) :=
  (w4_keep m ρ c main_arg7 (by decide) (by decide) (by thru)).trans (w1_arg7 m ρ c)
theorem w4_arg8 : W4 m ρ c (Proc.devRef .tc main_arg8) = (m ((c : Thread nD τ).loc main_arg8)) :=
  (w4_keep m ρ c main_arg8 (by decide) (by decide) (by thru)).trans (w1_arg8 m ρ c)
theorem w4_arg9 : W4 m ρ c (Proc.devRef .tc main_arg9) = (m ((c : Thread nD τ).loc main_arg9)) :=
  (w4_keep m ρ c main_arg9 (by decide) (by decide) (by thru)).trans (w1_arg9 m ρ c)
theorem w4_arg10 : W4 m ρ c (Proc.devRef .tc main_arg10) = (m ((c : Thread nD τ).loc main_arg10)) :=
  (w4_keep m ρ c main_arg10 (by decide) (by decide) (by thru)).trans (w1_arg10 m ρ c)
theorem w4_arg11 : W4 m ρ c (Proc.devRef .tc main_arg11) = (m ((c : Thread nD τ).loc main_arg11)) :=
  (w4_keep m ρ c main_arg11 (by decide) (by decide) (by thru)).trans (w1_arg11 m ρ c)
theorem w4_arg12 : W4 m ρ c (Proc.devRef .tc main_arg12) = (m ((c : Thread nD τ).loc main_arg12)) :=
  (w4_keep m ρ c main_arg12 (by decide) (by decide) (by thru)).trans (w1_arg12 m ρ c)
theorem w4_arg13 : W4 m ρ c (Proc.devRef .tc main_arg13) = (m ((c : Thread nD τ).loc main_arg13)) :=
  (w4_keep m ρ c main_arg13 (by decide) (by decide) (by thru)).trans (w1_arg13 m ρ c)
theorem w4_arg14 : W4 m ρ c (Proc.devRef .tc main_arg14) = (m ((c : Thread nD τ).loc main_arg14)) :=
  (w4_keep m ρ c main_arg14 (by decide) (by decide) (by thru)).trans (w1_arg14 m ρ c)

theorem w5_arg7 : W5 m ρ c (Proc.devRef .tc main_arg7) = (m ((c : Thread nD τ).loc main_arg7)) :=
  (by show after _ _ _ = _; thru : W5 m ρ c (Proc.devRef .tc main_arg7) = W4 m ρ c (Proc.devRef .tc main_arg7)).trans (w4_arg7 m ρ c)

/-- The third launch's output. -/
theorem w6_out : W6 m ρ c (Proc.devRef .tc main_v82)
    = x3 (x2 (x1 (m ((c : Thread nD τ).loc main_arg0)) (m ((c : Thread nD τ).loc main_arg1)) (m ((c : Thread nD τ).loc main_arg2)) (m ((c : Thread nD τ).loc main_arg3)) (m ((c : Thread nD τ).loc main_arg4)))
          (m ((c : Thread nD τ).loc main_arg1)) (m ((c : Thread nD τ).loc main_arg2)) (m ((c : Thread nD τ).loc main_arg5)) (m ((c : Thread nD τ).loc main_arg6)))
        (m ((c : Thread nD τ).loc main_arg1)) (m ((c : Thread nD τ).loc main_arg2)) (m ((c : Thread nD τ).loc main_arg7)) (m ((c : Thread nD τ).loc main_arg8)) := by
  refine (W6_arr m ρ c 3).trans ((Region2.output (V5 m ρ) c).trans ?_)
  have h80 : V5 m ρ c main_v80 = _ := s2_pre (W4 m ρ c)
  have h81 : V5 m ρ c main_v81 = _ := s2_bias (W4 m ρ c)
  have h7 : V5 m ρ c main_arg7 = _ := w5_arg7 m ρ c
  rw [h80, h81, h7, w4_out, w4_norm, w4_vcol, w4_src, w4_dst, w4_arg8]
  rfl

/-! ## The head -/

theorem w6_arg9 : W6 m ρ c (Proc.devRef .tc main_arg9) = (m ((c : Thread nD τ).loc main_arg9)) :=
  (W6_of_ne m ρ c main_arg9 (by decide)).trans
    ((by show after _ _ _ = _; thru : W5 m ρ c (Proc.devRef .tc main_arg9) = W4 m ρ c (Proc.devRef .tc main_arg9)).trans (w4_arg9 m ρ c))
theorem w6_arg10 : W6 m ρ c (Proc.devRef .tc main_arg10) = (m ((c : Thread nD τ).loc main_arg10)) :=
  (W6_of_ne m ρ c main_arg10 (by decide)).trans
    ((by show after _ _ _ = _; thru : W5 m ρ c (Proc.devRef .tc main_arg10) = W4 m ρ c (Proc.devRef .tc main_arg10)).trans (w4_arg10 m ρ c))
theorem w6_arg11 : W6 m ρ c (Proc.devRef .tc main_arg11) = (m ((c : Thread nD τ).loc main_arg11)) :=
  (W6_of_ne m ρ c main_arg11 (by decide)).trans
    ((by show after _ _ _ = _; thru : W5 m ρ c (Proc.devRef .tc main_arg11) = W4 m ρ c (Proc.devRef .tc main_arg11)).trans (w4_arg11 m ρ c))
theorem w6_arg12 : W6 m ρ c (Proc.devRef .tc main_arg12) = (m ((c : Thread nD τ).loc main_arg12)) :=
  (W6_of_ne m ρ c main_arg12 (by decide)).trans
    ((by show after _ _ _ = _; thru : W5 m ρ c (Proc.devRef .tc main_arg12) = W4 m ρ c (Proc.devRef .tc main_arg12)).trans (w4_arg12 m ρ c))
theorem w6_arg13 : W6 m ρ c (Proc.devRef .tc main_arg13) = (m ((c : Thread nD τ).loc main_arg13)) :=
  (W6_of_ne m ρ c main_arg13 (by decide)).trans
    ((by show after _ _ _ = _; thru : W5 m ρ c (Proc.devRef .tc main_arg13) = W4 m ρ c (Proc.devRef .tc main_arg13)).trans (w4_arg13 m ρ c))
theorem w6_arg14 : W6 m ρ c (Proc.devRef .tc main_arg14) = (m ((c : Thread nD τ).loc main_arg14)) :=
  (W6_of_ne m ρ c main_arg14 (by decide)).trans
    ((by show after _ _ _ = _; thru : W5 m ρ c (Proc.devRef .tc main_arg14) = W4 m ρ c (Proc.devRef .tc main_arg14)).trans (w4_arg14 m ρ c))

/-- The kernel's result: the head of the pooled third-layer matrix. -/
theorem result : W11 m ρ c (Proc.devRef .tc main_v103)
    = head (broadcastInDim S1x48 ![1] bcast_S48_S1x48_1
          (pool (x3 (x2 (x1 (m ((c : Thread nD τ).loc main_arg0)) (m ((c : Thread nD τ).loc main_arg1)) (m ((c : Thread nD τ).loc main_arg2)) (m ((c : Thread nD τ).loc main_arg3)) (m ((c : Thread nD τ).loc main_arg4)))
            (m ((c : Thread nD τ).loc main_arg1)) (m ((c : Thread nD τ).loc main_arg2)) (m ((c : Thread nD τ).loc main_arg5)) (m ((c : Thread nD τ).loc main_arg6)))
            (m ((c : Thread nD τ).loc main_arg1)) (m ((c : Thread nD τ).loc main_arg2)) (m ((c : Thread nD τ).loc main_arg7)) (m ((c : Thread nD τ).loc main_arg8)))))
        (m ((c : Thread nD τ).loc main_arg9)) (shapeCast S1x32 (m ((c : Thread nD τ).loc main_arg10)) shapeCasts_S32_S1x32) (m ((c : Thread nD τ).loc main_arg11))
        (shapeCast S1x16 (m ((c : Thread nD τ).loc main_arg12)) shapeCasts_S16_S1x16) (m ((c : Thread nD τ).loc main_arg13))
        (shapeCast S1x2 (m ((c : Thread nD τ).loc main_arg14)) shapeCasts_S2_S1x2) := by
  have key := s3_head (W6 m ρ c)
  rw [w6_out, w6_arg9, w6_arg10, w6_arg11, w6_arg12, w6_arg13, w6_arg14] at key
  exact key

end Cert.KernelIdeal.Value

end
-- ==== Proof.RefStretches.lean ====
/-
  The idealized reference's operation list cut into stretches: for each of the three layers the pre-activation and
  then the leaky rectifier over it, and the head.  The selections of the rectifier are calls of a module-local
  function, written over references that carry their tensor type; at a reference that carries its own type such an
  operation is the plain one, which is how the stretches spell them.
-/
import proofs.«146515_j84370337562865_2_alg».proof.Proof.RefRunP

set_option maxRecDepth 16384

noncomputable section

namespace Cert.ReferenceIdeal.Fold

open Idealize.ShloMosaic Idealize.ShloMosaic.TcCoe Idealize.ShloMosaic.StableHlo
open Cert.ReferenceIdeal Cert.ReferenceIdeal.Gen

variable {F : FTy → Type} [FloatOps F]

/-- The first layer's pre-activation (and the slicing of the edge list). -/
abbrev opsA1 : List (HloOp τ sig (Elt F)) :=
  [ unary main_arg2 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg2 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg3 main_v4 ((fun l r => Host.dotGeneral dot_S100000x4_S4x12_S100000x12_1_0_0_1_n_n none l r) : (⟨S100000x4, .f32⟩ : BufTy).Contents (Elt F) → (⟨S4x12, .f32⟩ : BufTy).Contents (Elt F) → (⟨S100000x12, .f32⟩ : BufTy).Contents (Elt F)),
    nullary main_cst (constant S_ .f32 0x00000000#32),
    unary main_cst main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_arg1 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_0 (constant S_ .f32 0x3F800000#32),
    unary main_cst_0 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S3200000 ![] bcast_S_S3200000 : (⟨S_, .i32⟩ : BufTy).Contents (Elt F) → (⟨S3200000, .i32⟩ : BufTy).Contents (Elt F)),
    binary main_v1 main_v11 main_v12 (cmpi .slt : (⟨S3200000, .i32⟩ : BufTy).Contents (Elt F) → (⟨S3200000, .i32⟩ : BufTy).Contents (Elt F) → (⟨S3200000, .i1⟩ : BufTy).Contents (Elt F)),
    nullary main_c_1 (constantI S_ 32 100000#32),
    unary main_c_1 main_v13 (broadcastInDim S3200000 ![] bcast_S_S3200000 : (⟨S_, .i32⟩ : BufTy).Contents (Elt F) → (⟨S3200000, .i32⟩ : BufTy).Contents (Elt F)),
    binary main_v1 main_v13 main_v14 (addi : (⟨S3200000, .i32⟩ : BufTy).Contents (Elt F) → (⟨S3200000, .i32⟩ : BufTy).Contents (Elt F) → (⟨S3200000, .i32⟩ : BufTy).Contents (Elt F)),
    ternary main_v12 main_v14 main_v1 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v15 main_v16 (broadcastInDim S3200000x1 ![0] bcast_S3200000_S3200000x1_0 : (⟨S3200000, .i32⟩ : BufTy).Contents (Elt F) → (⟨S3200000x1, .i32⟩ : BufTy).Contents (Elt F)),
    binary main_v10 main_v16 main_v17 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v17 main_arg1 main_v18 (mulf : (⟨S3200000, .f32⟩ : BufTy).Contents (Elt F) → (⟨S3200000, .f32⟩ : BufTy).Contents (Elt F) → (⟨S3200000, .f32⟩ : BufTy).Contents (Elt F)),
    nullary main_c_2 (constantI S_ 32 0#32),
    unary main_c_2 main_v19 (broadcastInDim S3200000 ![] bcast_S_S3200000 : (⟨S_, .i32⟩ : BufTy).Contents (Elt F) → (⟨S3200000, .i32⟩ : BufTy).Contents (Elt F)),
    binary main_v3 main_v19 main_v20 (cmpi .slt : (⟨S3200000, .i32⟩ : BufTy).Contents (Elt F) → (⟨S3200000, .i32⟩ : BufTy).Contents (Elt F) → (⟨S3200000, .i1⟩ : BufTy).Contents (Elt F)),
    nullary main_c_3 (constantI S_ 32 100000#32),
    unary main_c_3 main_v21 (broadcastInDim S3200000 ![] bcast_S_S3200000 : (⟨S_, .i32⟩ : BufTy).Contents (Elt F) → (⟨S3200000, .i32⟩ : BufTy).Contents (Elt F)),
    binary main_v3 main_v21 main_v22 (addi : (⟨S3200000, .i32⟩ : BufTy).Contents (Elt F) → (⟨S3200000, .i32⟩ : BufTy).Contents (Elt F) → (⟨S3200000, .i32⟩ : BufTy).Contents (Elt F)),
    ternary main_v20 main_v22 main_v3 main_v23 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v23 main_v24 (broadcastInDim S3200000x1 ![0] bcast_S3200000_S3200000x1_0 : (⟨S3200000, .i32⟩ : BufTy).Contents (Elt F) → (⟨S3200000x1, .i32⟩ : BufTy).Contents (Elt F)),
    binary main_v10 main_v24 main_v25 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v18 main_v25 main_v26 (mulf : (⟨S3200000, .f32⟩ : BufTy).Contents (Elt F) → (⟨S3200000, .f32⟩ : BufTy).Contents (Elt F) → (⟨S3200000, .f32⟩ : BufTy).Contents (Elt F)),
    nullary main_c_4 (constantI S_ 32 0#32),
    unary main_c_4 main_v27 (broadcastInDim S3200000 ![] bcast_S_S3200000 : (⟨S_, .i32⟩ : BufTy).Contents (Elt F) → (⟨S3200000, .i32⟩ : BufTy).Contents (Elt F)),
    binary main_v1 main_v27 main_v28 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 100000#32),
    unary main_c_5 main_v29 (broadcastInDim S3200000 ![] bcast_S_S3200000 : (⟨S_, .i32⟩ : BufTy).Contents (Elt F) → (⟨S3200000, .i32⟩ : BufTy).Contents (Elt F)),
    binary main_v1 main_v29 main_v30 (addi : (⟨S3200000, .i32⟩ : BufTy).Contents (Elt F) → (⟨S3200000, .i32⟩ : BufTy).Contents (Elt F) → (⟨S3200000, .i32⟩ : BufTy).Contents (Elt F)),
    ternary main_v28 main_v30 main_v1 main_v31 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v31 main_v32 (broadcastInDim S3200000x1 ![0] bcast_S3200000_S3200000x1_0 : (⟨S3200000, .i32⟩ : BufTy).Contents (Elt F) → (⟨S3200000x1, .i32⟩ : BufTy).Contents (Elt F)),
    binary main_v4 main_v32 main_v33 ((fun x i => Host.gather gather_S100000x12_S3200000x1_S3200000x12_1_0_n_n_0_1_112 x i) : (⟨S100000x12, .f32⟩ : BufTy).Contents (Elt F) → (⟨S3200000x1, .i32⟩ : BufTy).Contents (Elt F) → (⟨S3200000x12, .f32⟩ : BufTy).Contents (Elt F)),
    unary main_v26 main_v34 (broadcastInDim S3200000x1 ![0] bcast_S3200000_S3200000x1_0 : (⟨S3200000, .f32⟩ : BufTy).Contents (Elt F) → (⟨S3200000x1, .f32⟩ : BufTy).Contents (Elt F)),
    unary main_v34 main_v35 (broadcastInDim S3200000x12 ![0, 1] bcast_S3200000x1_S3200000x12_0_1 : (⟨S3200000x1, .f32⟩ : BufTy).Contents (Elt F) → (⟨S3200000x12, .f32⟩ : BufTy).Contents (Elt F)),
    binary main_v33 main_v35 main_v36 (mulf : (⟨S3200000x12, .f32⟩ : BufTy).Contents (Elt F) → (⟨S3200000x12, .f32⟩ : BufTy).Contents (Elt F) → (⟨S3200000x12, .f32⟩ : BufTy).Contents (Elt F)),
    nullary main_cst_6 (constant S_ .f32 0x00000000#32),
    unary main_cst_6 main_v37 (broadcastInDim S100000x12 ![] bcast_S_S100000x12 : (⟨S_, .f32⟩ : BufTy).Contents (Elt F) → (⟨S100000x12, .f32⟩ : BufTy).Contents (Elt F)),
    unary main_v3 main_v38 (broadcastInDim S3200000x1 ![0] bcast_S3200000_S3200000x1_0 : (⟨S3200000, .i32⟩ : BufTy).Contents (Elt F) → (⟨S3200000x1, .i32⟩ : BufTy).Contents (Elt F)),
    ternary main_v37 main_v38 main_v36 main_v39 ((fun x i u => Host.scatterAdd scatter_S100000x12_S3200000x1_S3200000x12_1_0_0_1 x i u) : (⟨S100000x12, .f32⟩ : BufTy).Contents (Elt F) → (⟨S3200000x1, .i32⟩ : BufTy).Contents (Elt F) → (⟨S3200000x12, .f32⟩ : BufTy).Contents (Elt F) → (⟨S100000x12, .f32⟩ : BufTy).Contents (Elt F)),
    nullary main_cst_7 (constant S_ .f32 0x3F800000#32),
    unary main_cst_7 main_v40 (broadcastInDim S100000 ![] bcast_S_S100000 : (⟨S_, .f32⟩ : BufTy).Contents (Elt F) → (⟨S100000, .f32⟩ : BufTy).Contents (Elt F)),
    binary main_v40 main_v9 main_v41 (Host.divf : (⟨S100000, .f32⟩ : BufTy).Contents (Elt F) → (⟨S100000, .f32⟩ : BufTy).Contents (Elt F) → (⟨S100000, .f32⟩ : BufTy).Contents (Elt F)),
    unary main_v41 main_v42 (broadcastInDim S100000x1 ![0] bcast_S100000_S100000x1_0 : (⟨S100000, .f32⟩ : BufTy).Contents (Elt F) → (⟨S100000x1, .f32⟩ : BufTy).Contents (Elt F)),
    unary main_v42 main_v43 (broadcastInDim S100000x12 ![0, 1] bcast_S100000x1_S100000x12_0_1 : (⟨S100000x1, .f32⟩ : BufTy).Contents (Elt F) → (⟨S100000x12, .f32⟩ : BufTy).Contents (Elt F)),
    binary main_v4 main_v43 main_v44 (mulf : (⟨S100000x12, .f32⟩ : BufTy).Contents (Elt F) → (⟨S100000x12, .f32⟩ : BufTy).Contents (Elt F) → (⟨S100000x12, .f32⟩ : BufTy).Contents (Elt F)),
    binary main_v39 main_v44 main_v45 (addf : (⟨S100000x12, .f32⟩ : BufTy).Contents (Elt F) → (⟨S100000x12, .f32⟩ : BufTy).Contents (Elt F) → (⟨S100000x12, .f32⟩ : BufTy).Contents (Elt F)),
    unary main_arg4 main_v46 (broadcastInDim S1x12 ![1] bcast_S12_S1x12_1 : (⟨S12, .f32⟩ : BufTy).Contents (Elt F) → (⟨S1x12, .f32⟩ : BufTy).Contents (Elt F)),
    unary main_v46 main_v47 (broadcastInDim S100000x12 ![0, 1] bcast_S1x12_S100000x12_0_1 : (⟨S1x12, .f32⟩ : BufTy).Contents (Elt F) → (⟨S100000x12, .f32⟩ : BufTy).Contents (Elt F)),
    binary main_v45 main_v47 main_v48 (addf : (⟨S100000x12, .f32⟩ : BufTy).Contents (Elt F) → (⟨S100000x12, .f32⟩ : BufTy).Contents (Elt F) → (⟨S100000x12, .f32⟩ : BufTy).Contents (Elt F)) ]

/-- The first layer's rectifier. -/
abbrev opsA2 : List (HloOp τ sig (Elt F)) :=
  [ nullary main_cst_8 (constant S_ .f32 0x00000000#32),
    unary main_cst_8 main_v49 (broadcastInDim S100000x12 ![] bcast_S_S100000x12 : (⟨S_, .f32⟩ : BufTy).Contents (Elt F) → (⟨S100000x12, .f32⟩ : BufTy).Contents (Elt F)),
    binary main_v48 main_v49 main_v50 (cmpf .oge : (⟨S100000x12, .f32⟩ : BufTy).Contents (Elt F) → (⟨S100000x12, .f32⟩ : BufTy).Contents (Elt F) → (⟨S100000x12, .i1⟩ : BufTy).Contents (Elt F)),
    nullary main_cst_9 (constant S_ .f32 0x3DCCCCCD#32),
    unary main_cst_9 main_v51 (broadcastInDim S100000x12 ![] bcast_S_S100000x12 : (⟨S_, .f32⟩ : BufTy).Contents (Elt F) → (⟨S100000x12, .f32⟩ : BufTy).Contents (Elt F)),
    binary main_v51 main_v48 main_v52 (mulf : (⟨S100000x12, .f32⟩ : BufTy).Contents (Elt F) → (⟨S100000x12, .f32⟩ : BufTy).Contents (Elt F) → (⟨S100000x12, .f32⟩ : BufTy).Contents (Elt F)),
    ternary main_v50 main_v48 main_v52 main_v53 select ⟨by decide, rfl⟩ ⟨by decide, rfl⟩ ⟨by decide, rfl⟩ ⟨by decide, rfl⟩ ]

/-- The second layer's pre-activation. -/
abbrev opsB1 : List (HloOp τ sig (Elt F)) :=
  [ binary main_v53 main_arg5 main_v54 ((fun l r => Host.dotGeneral dot_S100000x12_S12x24_S100000x24_1_0_0_1_n_n none l r) : (⟨S100000x12, .f32⟩ : BufTy).Contents (Elt F) → (⟨S12x24, .f32⟩ : BufTy).Contents (Elt F) → (⟨S100000x24, .f32⟩ : BufTy).Contents (Elt F)),
    nullary main_cst_10 (constant S_ .f32 0x00000000#32),
    unary main_cst_10 main_v55 (broadcastInDim S100000 ![] bcast_S_S100000 : (⟨S_, .f32⟩ : BufTy).Contents (Elt F) → (⟨S100000, .f32⟩ : BufTy).Contents (Elt F)),
    unary main_v3 main_v56 (broadcastInDim S3200000x1 ![0] bcast_S3200000_S3200000x1_0 : (⟨S3200000, .i32⟩ : BufTy).Contents (Elt F) → (⟨S3200000x1, .i32⟩ : BufTy).Contents (Elt F)),
    ternary main_v55 main_v56 main_arg1 main_v57 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_11 (constant S_ .f32 0x3F800000#32),
    unary main_cst_11 main_v58 (broadcastInDim S100000 ![] bcast_S_S100000 : (⟨S_, .f32⟩ : BufTy).Contents (Elt F) → (⟨S100000, .f32⟩ : BufTy).Contents (Elt F)),
    binary main_v57 main_v58 main_v59 (addf : (⟨S100000, .f32⟩ : BufTy).Contents (Elt F) → (⟨S100000, .f32⟩ : BufTy).Contents (Elt F) → (⟨S100000, .f32⟩ : BufTy).Contents (Elt F)),
    unary main_v59 main_v60 (Host.rsqrt : (⟨S100000, .f32⟩ : BufTy).Contents (Elt F) → (⟨S100000, .f32⟩ : BufTy).Contents (Elt F)),
    nullary main_c_12 (constantI S_ 32 0#32),
    unary main_c_12 main_v61 (broadcastInDim S3200000 ![] bcast_S_S3200000 : (⟨S_, .i32⟩ : BufTy).Contents (Elt F) → (⟨S3200000, .i32⟩ : BufTy).Contents (Elt F)),
    binary main_v1 main_v61 main_v62 (cmpi .slt : (⟨S3200000, .i32⟩ : BufTy).Contents (Elt F) → (⟨S3200000, .i32⟩ : BufTy).Contents (Elt F) → (⟨S3200000, .i1⟩ : BufTy).Contents (Elt F)),
    nullary main_c_13 (constantI S_ 32 100000#32),
    unary main_c_13 main_v63 (broadcastInDim S3200000 ![] bcast_S_S3200000 : (⟨S_, .i32⟩ : BufTy).Contents (Elt F) → (⟨S3200000, .i32⟩ : BufTy).Contents (Elt F)),
    binary main_v1 main_v63 main_v64 (addi : (⟨S3200000, .i32⟩ : BufTy).Contents (Elt F) → (⟨S3200000, .i32⟩ : BufTy).Contents (Elt F) → (⟨S3200000, .i32⟩ : BufTy).Contents (Elt F)),
    ternary main_v62 main_v64 main_v1 main_v65 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v65 main_v66 (broadcastInDim S3200000x1 ![0] bcast_S3200000_S3200000x1_0 : (⟨S3200000, .i32⟩ : BufTy).Contents (Elt F) → (⟨S3200000x1, .i32⟩ : BufTy).Contents (Elt F)),
    binary main_v60 main_v66 main_v67 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v67 main_arg1 main_v68 (mulf : (⟨S3200000, .f32⟩ : BufTy).Contents (Elt F) → (⟨S3200000, .f32⟩ : BufTy).Contents (Elt F) → (⟨S3200000, .f32⟩ : BufTy).Contents (Elt F)),
    nullary main_c_14 (constantI S_ 32 0#32),
    unary main_c_14 main_v69 (broadcastInDim S3200000 ![] bcast_S_S3200000 : (⟨S_, .i32⟩ : BufTy).Contents (Elt F) → (⟨S3200000, .i32⟩ : BufTy).Contents (Elt F)),
    binary main_v3 main_v69 main_v70 (cmpi .slt : (⟨S3200000, .i32⟩ : BufTy).Contents (Elt F) → (⟨S3200000, .i32⟩ : BufTy).Contents (Elt F) → (⟨S3200000, .i1⟩ : BufTy).Contents (Elt F)),
    nullary main_c_15 (constantI S_ 32 100000#32),
    unary main_c_15 main_v71 (broadcastInDim S3200000 ![] bcast_S_S3200000 : (⟨S_, .i32⟩ : BufTy).Contents (Elt F) → (⟨S3200000, .i32⟩ : BufTy).Contents (Elt F)),
    binary main_v3 main_v71 main_v72 (addi : (⟨S3200000, .i32⟩ : BufTy).Contents (Elt F) → (⟨S3200000, .i32⟩ : BufTy).Contents (Elt F) → (⟨S3200000, .i32⟩ : BufTy).Contents (Elt F)),
    ternary main_v70 main_v72 main_v3 main_v73 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v73 main_v74 (broadcastInDim S3200000x1 ![0] bcast_S3200000_S3200000x1_0 : (⟨S3200000, .i32⟩ : BufTy).Contents (Elt F) → (⟨S3200000x1, .i32⟩ : BufTy).Contents (Elt F)),
    binary main_v60 main_v74 main_v75 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v68 main_v75 main_v76 (mulf : (⟨S3200000, .f32⟩ : BufTy).Contents (Elt F) → (⟨S3200000, .f32⟩ : BufTy).Contents (Elt F) → (⟨S3200000, .f32⟩ : BufTy).Contents (Elt F)),
    nullary main_c_16 (constantI S_ 32 0#32),
    unary main_c_16 main_v77 (broadcastInDim S3200000 ![] bcast_S_S3200000 : (⟨S_, .i32⟩ : BufTy).Contents (Elt F) → (⟨S3200000, .i32⟩ : BufTy).Contents (Elt F)),
    binary main_v1 main_v77 main_v78 (cmpi .slt : (⟨S3200000, .i32⟩ : BufTy).Contents (Elt F) → (⟨S3200000, .i32⟩ : BufTy).Contents (Elt F) → (⟨S3200000, .i1⟩ : BufTy).Contents (Elt F)),
    nullary main_c_17 (constantI S_ 32 100000#32),
    unary main_c_17 main_v79 (broadcastInDim S3200000 ![] bcast_S_S3200000 : (⟨S_, .i32⟩ : BufTy).Contents (Elt F) → (⟨S3200000, .i32⟩ : BufTy).Contents (Elt F)),
    binary main_v1 main_v79 main_v80 (addi : (⟨S3200000, .i32⟩ : BufTy).Contents (Elt F) → (⟨S3200000, .i32⟩ : BufTy).Contents (Elt F) → (⟨S3200000, .i32⟩ : BufTy).Contents (Elt F)),
    ternary main_v78 main_v80 main_v1 main_v81 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v81 main_v82 (broadcastInDim S3200000x1 ![0] bcast_S3200000_S3200000x1_0 : (⟨S3200000, .i32⟩ : BufTy).Contents (Elt F) → (⟨S3200000x1, .i32⟩ : BufTy).Contents (Elt F)),
    binary main_v54 main_v82 main_v83 ((fun x i => Host.gather gather_S100000x24_S3200000x1_S3200000x24_1_0_n_n_0_1_124 x i) : (⟨S100000x24, .f32⟩ : BufTy).Contents (Elt F) → (⟨S3200000x1, .i32⟩ : BufTy).Contents (Elt F) → (⟨S3200000x24, .f32⟩ : BufTy).Contents (Elt F)),
    unary main_v76 main_v84 (broadcastInDim S3200000x1 ![0] bcast_S3200000_S3200000x1_0 : (⟨S3200000, .f32⟩ : BufTy).Contents (Elt F) → (⟨S3200000x1, .f32⟩ : BufTy).Contents (Elt F)),
    unary main_v84 main_v85 (broadcastInDim S3200000x24 ![0, 1] bcast_S3200000x1_S3200000x24_0_1 : (⟨S3200000x1, .f32⟩ : BufTy).Contents (Elt F) → (⟨S3200000x24, .f32⟩ : BufTy).Contents (Elt F)),
    binary main_v83 main_v85 main_v86 (mulf : (⟨S3200000x24, .f32⟩ : BufTy).Contents (Elt F) → (⟨S3200000x24, .f32⟩ : BufTy).Contents (Elt F) → (⟨S3200000x24, .f32⟩ : BufTy).Contents (Elt F)),
    nullary main_cst_18 (constant S_ .f32 0x00000000#32),
    unary main_cst_18 main_v87 (broadcastInDim S100000x24 ![] bcast_S_S100000x24 : (⟨S_, .f32⟩ : BufTy).Contents (Elt F) → (⟨S100000x24, .f32⟩ : BufTy).Contents (Elt F)),
    unary main_v3 main_v88 (broadcastInDim S3200000x1 ![0] bcast_S3200000_S3200000x1_0 : (⟨S3200000, .i32⟩ : BufTy).Contents (Elt F) → (⟨S3200000x1, .i32⟩ : BufTy).Contents (Elt F)),
    ternary main_v87 main_v88 main_v86 main_v89 ((fun x i u => Host.scatterAdd scatter_S100000x24_S3200000x1_S3200000x24_1_0_0_1 x i u) : (⟨S100000x24, .f32⟩ : BufTy).Contents (Elt F) → (⟨S3200000x1, .i32⟩ : BufTy).Contents (Elt F) → (⟨S3200000x24, .f32⟩ : BufTy).Contents (Elt F) → (⟨S100000x24, .f32⟩ : BufTy).Contents (Elt F)),
    nullary main_cst_19 (constant S_ .f32 0x3F800000#32),
    unary main_cst_19 main_v90 (broadcastInDim S100000 ![] bcast_S_S100000 : (⟨S_, .f32⟩ : BufTy).Contents (Elt F) → (⟨S100000, .f32⟩ : BufTy).Contents (Elt F)),
    binary main_v90 main_v59 main_v91 (Host.divf : (⟨S100000, .f32⟩ : BufTy).Contents (Elt F) → (⟨S100000, .f32⟩ : BufTy).Contents (Elt F) → (⟨S100000, .f32⟩ : BufTy).Contents (Elt F)),
    unary main_v91 main_v92 (broadcastInDim S100000x1 ![0] bcast_S100000_S100000x1_0 : (⟨S100000, .f32⟩ : BufTy).Contents (Elt F) → (⟨S100000x1, .f32⟩ : BufTy).Contents (Elt F)),
    unary main_v92 main_v93 (broadcastInDim S100000x24 ![0, 1] bcast_S100000x1_S100000x24_0_1 : (⟨S100000x1, .f32⟩ : BufTy).Contents (Elt F) → (⟨S100000x24, .f32⟩ : BufTy).Contents (Elt F)),
    binary main_v54 main_v93 main_v94 (mulf : (⟨S100000x24, .f32⟩ : BufTy).Contents (Elt F) → (⟨S100000x24, .f32⟩ : BufTy).Contents (Elt F) → (⟨S100000x24, .f32⟩ : BufTy).Contents (Elt F)),
    binary main_v89 main_v94 main_v95 (addf : (⟨S100000x24, .f32⟩ : BufTy).Contents (Elt F) → (⟨S100000x24, .f32⟩ : BufTy).Contents (Elt F) → (⟨S100000x24, .f32⟩ : BufTy).Contents (Elt F)),
    unary main_arg6 main_v96 (broadcastInDim S1x24 ![1] bcast_S24_S1x24_1 : (⟨S24, .f32⟩ : BufTy).Contents (Elt F) → (⟨S1x24, .f32⟩ : BufTy).Contents (Elt F)),
    unary main_v96 main_v97 (broadcastInDim S100000x24 ![0, 1] bcast_S1x24_S100000x24_0_1 : (⟨S1x24, .f32⟩ : BufTy).Contents (Elt F) → (⟨S100000x24, .f32⟩ : BufTy).Contents (Elt F)),
    binary main_v95 main_v97 main_v98 (addf : (⟨S100000x24, .f32⟩ : BufTy).Contents (Elt F) → (⟨S100000x24, .f32⟩ : BufTy).Contents (Elt F) → (⟨S100000x24, .f32⟩ : BufTy).Contents (Elt F)) ]

/-- The second layer's rectifier. -/
abbrev opsB2 : List (HloOp τ sig (Elt F)) :=
  [ nullary main_cst_20 (constant S_ .f32 0x00000000#32),
    unary main_cst_20 main_v99 (broadcastInDim S100000x24 ![] bcast_S_S100000x24 : (⟨S_, .f32⟩ : BufTy).Contents (Elt F) → (⟨S100000x24, .f32⟩ : BufTy).Contents (Elt F)),
    binary main_v98 main_v99 main_v100 (cmpf .oge : (⟨S100000x24, .f32⟩ : BufTy).Contents (Elt F) → (⟨S100000x24, .f32⟩ : BufTy).Contents (Elt F) → (⟨S100000x24, .i1⟩ : BufTy).Contents (Elt F)),
    nullary main_cst_21 (constant S_ .f32 0x3DCCCCCD#32),
    unary main_cst_21 main_v101 (broadcastInDim S100000x24 ![] bcast_S_S100000x24 : (⟨S_, .f32⟩ : BufTy).Contents (Elt F) → (⟨S100000x24, .f32⟩ : BufTy).Contents (Elt F)),
    binary main_v101 main_v98 main_v102 (mulf : (⟨S100000x24, .f32⟩ : BufTy).Contents (Elt F) → (⟨S100000x24, .f32⟩ : BufTy).Contents (Elt F) → (⟨S100000x24, .f32⟩ : BufTy).Contents (Elt F)),
    ternary main_v100 main_v98 main_v102 main_v103 select ⟨by decide, rfl⟩ ⟨by decide, rfl⟩ ⟨by decide, rfl⟩ ⟨by decide, rfl⟩ ]

/-- The third layer's pre-activation. -/
abbrev opsC1 : List (HloOp τ sig (Elt F)) :=
  [ binary main_v103 main_arg7 main_v104 ((fun l r => Host.dotGeneral dot_S100000x24_S24x48_S100000x48_1_0_0_1_n_n none l r) : (⟨S100000x24, .f32⟩ : BufTy).Contents (Elt F) → (⟨S24x48, .f32⟩ : BufTy).Contents (Elt F) → (⟨S100000x48, .f32⟩ : BufTy).Contents (Elt F)),
    nullary main_cst_22 (constant S_ .f32 0x00000000#32),
    unary main_cst_22 main_v105 (broadcastInDim S100000 ![] bcast_S_S100000 : (⟨S_, .f32⟩ : BufTy).Contents (Elt F) → (⟨S100000, .f32⟩ : BufTy).Contents (Elt F)),
    unary main_v3 main_v106 (broadcastInDim S3200000x1 ![0] bcast_S3200000_S3200000x1_0 : (⟨S3200000, .i32⟩ : BufTy).Contents (Elt F) → (⟨S3200000x1, .i32⟩ : BufTy).Contents (Elt F)),
    ternary main_v105 main_v106 main_arg1 main_v107 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_23 (constant S_ .f32 0x3F800000#32),
    unary main_cst_23 main_v108 (broadcastInDim S100000 ![] bcast_S_S100000 : (⟨S_, .f32⟩ : BufTy).Contents (Elt F) → (⟨S100000, .f32⟩ : BufTy).Contents (Elt F)),
    binary main_v107 main_v108 main_v109 (addf : (⟨S100000, .f32⟩ : BufTy).Contents (Elt F) → (⟨S100000, .f32⟩ : BufTy).Contents (Elt F) → (⟨S100000, .f32⟩ : BufTy).Contents (Elt F)),
    unary main_v109 main_v110 (Host.rsqrt : (⟨S100000, .f32⟩ : BufTy).Contents (Elt F) → (⟨S100000, .f32⟩ : BufTy).Contents (Elt F)),
    nullary main_c_24 (constantI S_ 32 0#32),
    unary main_c_24 main_v111 (broadcastInDim S3200000 ![] bcast_S_S3200000 : (⟨S_, .i32⟩ : BufTy).Contents (Elt F) → (⟨S3200000, .i32⟩ : BufTy).Contents (Elt F)),
    binary main_v1 main_v111 main_v112 (cmpi .slt : (⟨S3200000, .i32⟩ : BufTy).Contents (Elt F) → (⟨S3200000, .i32⟩ : BufTy).Contents (Elt F) → (⟨S3200000, .i1⟩ : BufTy).Contents (Elt F)),
    nullary main_c_25 (constantI S_ 32 100000#32),
    unary main_c_25 main_v113 (broadcastInDim S3200000 ![] bcast_S_S3200000 : (⟨S_, .i32⟩ : BufTy).Contents (Elt F) → (⟨S3200000, .i32⟩ : BufTy).Contents (Elt F)),
    binary main_v1 main_v113 main_v114 (addi : (⟨S3200000, .i32⟩ : BufTy).Contents (Elt F) → (⟨S3200000, .i32⟩ : BufTy).Contents (Elt F) → (⟨S3200000, .i32⟩ : BufTy).Contents (Elt F)),
    ternary main_v112 main_v114 main_v1 main_v115 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v115 main_v116 (broadcastInDim S3200000x1 ![0] bcast_S3200000_S3200000x1_0 : (⟨S3200000, .i32⟩ : BufTy).Contents (Elt F) → (⟨S3200000x1, .i32⟩ : BufTy).Contents (Elt F)),
    binary main_v110 main_v116 main_v117 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v117 main_arg1 main_v118 (mulf : (⟨S3200000, .f32⟩ : BufTy).Contents (Elt F) → (⟨S3200000, .f32⟩ : BufTy).Contents (Elt F) → (⟨S3200000, .f32⟩ : BufTy).Contents (Elt F)),
    nullary main_c_26 (constantI S_ 32 0#32),
    unary main_c_26 main_v119 (broadcastInDim S3200000 ![] bcast_S_S3200000 : (⟨S_, .i32⟩ : BufTy).Contents (Elt F) → (⟨S3200000, .i32⟩ : BufTy).Contents (Elt F)),
    binary main_v3 main_v119 main_v120 (cmpi .slt : (⟨S3200000, .i32⟩ : BufTy).Contents (Elt F) → (⟨S3200000, .i32⟩ : BufTy).Contents (Elt F) → (⟨S3200000, .i1⟩ : BufTy).Contents (Elt F)),
    nullary main_c_27 (constantI S_ 32 100000#32),
    unary main_c_27 main_v121 (broadcastInDim S3200000 ![] bcast_S_S3200000 : (⟨S_, .i32⟩ : BufTy).Contents (Elt F) → (⟨S3200000, .i32⟩ : BufTy).Contents (Elt F)),
    binary main_v3 main_v121 main_v122 (addi : (⟨S3200000, .i32⟩ : BufTy).Contents (Elt F) → (⟨S3200000, .i32⟩ : BufTy).Contents (Elt F) → (⟨S3200000, .i32⟩ : BufTy).Contents (Elt F)),
    ternary main_v120 main_v122 main_v3 main_v123 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v123 main_v124 (broadcastInDim S3200000x1 ![0] bcast_S3200000_S3200000x1_0 : (⟨S3200000, .i32⟩ : BufTy).Contents (Elt F) → (⟨S3200000x1, .i32⟩ : BufTy).Contents (Elt F)),
    binary main_v110 main_v124 main_v125 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v118 main_v125 main_v126 (mulf : (⟨S3200000, .f32⟩ : BufTy).Contents (Elt F) → (⟨S3200000, .f32⟩ : BufTy).Contents (Elt F) → (⟨S3200000, .f32⟩ : BufTy).Contents (Elt F)),
    nullary main_c_28 (constantI S_ 32 0#32),
    unary main_c_28 main_v127 (broadcastInDim S3200000 ![] bcast_S_S3200000 : (⟨S_, .i32⟩ : BufTy).Contents (Elt F) → (⟨S3200000, .i32⟩ : BufTy).Contents (Elt F)),
    binary main_v1 main_v127 main_v128 (cmpi .slt : (⟨S3200000, .i32⟩ : BufTy).Contents (Elt F) → (⟨S3200000, .i32⟩ : BufTy).Contents (Elt F) → (⟨S3200000, .i1⟩ : BufTy).Contents (Elt F)),
    nullary main_c_29 (constantI S_ 32 100000#32),
    unary main_c_29 main_v129 (broadcastInDim S3200000 ![] bcast_S_S3200000 : (⟨S_, .i32⟩ : BufTy).Contents (Elt F) → (⟨S3200000, .i32⟩ : BufTy).Contents (Elt F)),
    binary main_v1 main_v129 main_v130 (addi : (⟨S3200000, .i32⟩ : BufTy).Contents (Elt F) → (⟨S3200000, .i32⟩ : BufTy).Contents (Elt F) → (⟨S3200000, .i32⟩ : BufTy).Contents (Elt F)),
    ternary main_v128 main_v130 main_v1 main_v131 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v131 main_v132 (broadcastInDim S3200000x1 ![0] bcast_S3200000_S3200000x1_0 : (⟨S3200000, .i32⟩ : BufTy).Contents (Elt F) → (⟨S3200000x1, .i32⟩ : BufTy).Contents (Elt F)),
    binary main_v104 main_v132 main_v133 ((fun x i => Host.gather gather_S100000x48_S3200000x1_S3200000x48_1_0_n_n_0_1_148 x i) : (⟨S100000x48, .f32⟩ : BufTy).Contents (Elt F) → (⟨S3200000x1, .i32⟩ : BufTy).Contents (Elt F) → (⟨S3200000x48, .f32⟩ : BufTy).Contents (Elt F)),
    unary main_v126 main_v134 (broadcastInDim S3200000x1 ![0] bcast_S3200000_S3200000x1_0 : (⟨S3200000, .f32⟩ : BufTy).Contents (Elt F) → (⟨S3200000x1, .f32⟩ : BufTy).Contents (Elt F)),
    unary main_v134 main_v135 (broadcastInDim S3200000x48 ![0, 1] bcast_S3200000x1_S3200000x48_0_1 : (⟨S3200000x1, .f32⟩ : BufTy).Contents (Elt F) → (⟨S3200000x48, .f32⟩ : BufTy).Contents (Elt F)),
    binary main_v133 main_v135 main_v136 (mulf : (⟨S3200000x48, .f32⟩ : BufTy).Contents (Elt F) → (⟨S3200000x48, .f32⟩ : BufTy).Contents (Elt F) → (⟨S3200000x48, .f32⟩ : BufTy).Contents (Elt F)),
    nullary main_cst_30 (constant S_ .f32 0x00000000#32),
    unary main_cst_30 main_v137 (broadcastInDim S100000x48 ![] bcast_S_S100000x48 : (⟨S_, .f32⟩ : BufTy).Contents (Elt F) → (⟨S100000x48, .f32⟩ : BufTy).Contents (Elt F)),
    unary main_v3 main_v138 (broadcastInDim S3200000x1 ![0] bcast_S3200000_S3200000x1_0 : (⟨S3200000, .i32⟩ : BufTy).Contents (Elt F) → (⟨S3200000x1, .i32⟩ : BufTy).Contents (Elt F)),
    ternary main_v137 main_v138 main_v136 main_v139 ((fun x i u => Host.scatterAdd scatter_S100000x48_S3200000x1_S3200000x48_1_0_0_1 x i u) : (⟨S100000x48, .f32⟩ : BufTy).Contents (Elt F) → (⟨S3200000x1, .i32⟩ : BufTy).Contents (Elt F) → (⟨S3200000x48, .f32⟩ : BufTy).Contents (Elt F) → (⟨S100000x48, .f32⟩ : BufTy).Contents (Elt F)),
    nullary main_cst_31 (constant S_ .f32 0x3F800000#32),
    unary main_cst_31 main_v140 (broadcastInDim S100000 ![] bcast_S_S100000 : (⟨S_, .f32⟩ : BufTy).Contents (Elt F) → (⟨S100000, .f32⟩ : BufTy).Contents (Elt F)),
    binary main_v140 main_v109 main_v141 (Host.divf : (⟨S100000, .f32⟩ : BufTy).Contents (Elt F) → (⟨S100000, .f32⟩ : BufTy).Contents (Elt F) → (⟨S100000, .f32⟩ : BufTy).Contents (Elt F)),
    unary main_v141 main_v142 (broadcastInDim S100000x1 ![0] bcast_S100000_S100000x1_0 : (⟨S100000, .f32⟩ : BufTy).Contents (Elt F) → (⟨S100000x1, .f32⟩ : BufTy).Contents (Elt F)),
    unary main_v142 main_v143 (broadcastInDim S100000x48 ![0, 1] bcast_S100000x1_S100000x48_0_1 : (⟨S100000x1, .f32⟩ : BufTy).Contents (Elt F) → (⟨S100000x48, .f32⟩ : BufTy).Contents (Elt F)),
    binary main_v104 main_v143 main_v144 (mulf : (⟨S100000x48, .f32⟩ : BufTy).Contents (Elt F) → (⟨S100000x48, .f32⟩ : BufTy).Contents (Elt F) → (⟨S100000x48, .f32⟩ : BufTy).Contents (Elt F)),
    binary main_v139 main_v144 main_v145 (addf : (⟨S100000x48, .f32⟩ : BufTy).Contents (Elt F) → (⟨S100000x48, .f32⟩ : BufTy).Contents (Elt F) → (⟨S100000x48, .f32⟩ : BufTy).Contents (Elt F)),
    unary main_arg8 main_v146 (broadcastInDim S1x48 ![1] bcast_S48_S1x48_1 : (⟨S48, .f32⟩ : BufTy).Contents (Elt F) → (⟨S1x48, .f32⟩ : BufTy).Contents (Elt F)),
    unary main_v146 main_v147 (broadcastInDim S100000x48 ![0, 1] bcast_S1x48_S100000x48_0_1 : (⟨S1x48, .f32⟩ : BufTy).Contents (Elt F) → (⟨S100000x48, .f32⟩ : BufTy).Contents (Elt F)),
    binary main_v145 main_v147 main_v148 (addf : (⟨S100000x48, .f32⟩ : BufTy).Contents (Elt F) → (⟨S100000x48, .f32⟩ : BufTy).Contents (Elt F) → (⟨S100000x48, .f32⟩ : BufTy).Contents (Elt F)) ]

/-- The third layer's rectifier. -/
abbrev opsC2 : List (HloOp τ sig (Elt F)) :=
  [ nullary main_cst_32 (constant S_ .f32 0x00000000#32),
    unary main_cst_32 main_v149 (broadcastInDim S100000x48 ![] bcast_S_S100000x48 : (⟨S_, .f32⟩ : BufTy).Contents (Elt F) → (⟨S100000x48, .f32⟩ : BufTy).Contents (Elt F)),
    binary main_v148 main_v149 main_v150 (cmpf .oge : (⟨S100000x48, .f32⟩ : BufTy).Contents (Elt F) → (⟨S100000x48, .f32⟩ : BufTy).Contents (Elt F) → (⟨S100000x48, .i1⟩ : BufTy).Contents (Elt F)),
    nullary main_cst_33 (constant S_ .f32 0x3DCCCCCD#32),
    unary main_cst_33 main_v151 (broadcastInDim S100000x48 ![] bcast_S_S100000x48 : (⟨S_, .f32⟩ : BufTy).Contents (Elt F) → (⟨S100000x48, .f32⟩ : BufTy).Contents (Elt F)),
    binary main_v151 main_v148 main_v152 (mulf : (⟨S100000x48, .f32⟩ : BufTy).Contents (Elt F) → (⟨S100000x48, .f32⟩ : BufTy).Contents (Elt F) → (⟨S100000x48, .f32⟩ : BufTy).Contents (Elt F)),
    ternary main_v150 main_v148 main_v152 main_v153 select ⟨by decide, rfl⟩ ⟨by decide, rfl⟩ ⟨by decide, rfl⟩ ⟨by decide, rfl⟩ ]

/-- The head. -/
abbrev opsD : List (HloOp τ sig (Elt F)) :=
  [ nullary main_cst_34 (constant S_ .f32 0x00000000#32),
    binary main_v153 main_cst_34 main_v154 ((fun x v => Host.reduceAdd x v reducesTo_S100000x48_S48_d0 h_S_) : (⟨S100000x48, .f32⟩ : BufTy).Contents (Elt F) → (⟨S_, .f32⟩ : BufTy).Contents (Elt F) → (⟨S48, .f32⟩ : BufTy).Contents (Elt F)),
    reshape main_v154 main_v155 rfl shapeCasts_S48_S1x48,
    binary main_v155 main_arg9 main_v156 ((fun l r => Host.dotGeneral dot_S1x48_S48x32_S1x32_1_0_0_1_n_n none l r) : (⟨S1x48, .f32⟩ : BufTy).Contents (Elt F) → (⟨S48x32, .f32⟩ : BufTy).Contents (Elt F) → (⟨S1x32, .f32⟩ : BufTy).Contents (Elt F)),
    unary main_arg10 main_v157 (broadcastInDim S1x32 ![1] bcast_S32_S1x32_1 : (⟨S32, .f32⟩ : BufTy).Contents (Elt F) → (⟨S1x32, .f32⟩ : BufTy).Contents (Elt F)),
    binary main_v156 main_v157 main_v158 (addf : (⟨S1x32, .f32⟩ : BufTy).Contents (Elt F) → (⟨S1x32, .f32⟩ : BufTy).Contents (Elt F) → (⟨S1x32, .f32⟩ : BufTy).Contents (Elt F)),
    nullary main_cst_35 (constant S_ .f32 0x00000000#32),
    unary main_cst_35 main_v159 (broadcastInDim S1x32 ![] bcast_S_S1x32 : (⟨S_, .f32⟩ : BufTy).Contents (Elt F) → (⟨S1x32, .f32⟩ : BufTy).Contents (Elt F)),
    binary main_v158 main_v159 main_v160 (cmpf .oge : (⟨S1x32, .f32⟩ : BufTy).Contents (Elt F) → (⟨S1x32, .f32⟩ : BufTy).Contents (Elt F) → (⟨S1x32, .i1⟩ : BufTy).Contents (Elt F)),
    nullary main_cst_36 (constant S_ .f32 0x3DCCCCCD#32),
    unary main_cst_36 main_v161 (broadcastInDim S1x32 ![] bcast_S_S1x32 : (⟨S_, .f32⟩ : BufTy).Contents (Elt F) → (⟨S1x32, .f32⟩ : BufTy).Contents (Elt F)),
    binary main_v161 main_v158 main_v162 (mulf : (⟨S1x32, .f32⟩ : BufTy).Contents (Elt F) → (⟨S1x32, .f32⟩ : BufTy).Contents (Elt F) → (⟨S1x32, .f32⟩ : BufTy).Contents (Elt F)),
    ternary main_v160 main_v158 main_v162 main_v163 select ⟨by decide, rfl⟩ ⟨by decide, rfl⟩ ⟨by decide, rfl⟩ ⟨by decide, rfl⟩,
    binary main_v163 main_arg11 main_v164 ((fun l r => Host.dotGeneral dot_S1x32_S32x16_S1x16_1_0_0_1_n_n none l r) : (⟨S1x32, .f32⟩ : BufTy).Contents (Elt F) → (⟨S32x16, .f32⟩ : BufTy).Contents (Elt F) → (⟨S1x16, .f32⟩ : BufTy).Contents (Elt F)),
    unary main_arg12 main_v165 (broadcastInDim S1x16 ![1] bcast_S16_S1x16_1 : (⟨S16, .f32⟩ : BufTy).Contents (Elt F) → (⟨S1x16, .f32⟩ : BufTy).Contents (Elt F)),
    binary main_v164 main_v165 main_v166 (addf : (⟨S1x16, .f32⟩ : BufTy).Contents (Elt F) → (⟨S1x16, .f32⟩ : BufTy).Contents (Elt F) → (⟨S1x16, .f32⟩ : BufTy).Contents (Elt F)),
    nullary main_cst_37 (constant S_ .f32 0x00000000#32),
    unary main_cst_37 main_v167 (broadcastInDim S1x16 ![] bcast_S_S1x16 : (⟨S_, .f32⟩ : BufTy).Contents (Elt F) → (⟨S1x16, .f32⟩ : BufTy).Contents (Elt F)),
    binary main_v166 main_v167 main_v168 (cmpf .oge : (⟨S1x16, .f32⟩ : BufTy).Contents (Elt F) → (⟨S1x16, .f32⟩ : BufTy).Contents (Elt F) → (⟨S1x16, .i1⟩ : BufTy).Contents (Elt F)),
    nullary main_cst_38 (constant S_ .f32 0x3DCCCCCD#32),
    unary main_cst_38 main_v169 (broadcastInDim S1x16 ![] bcast_S_S1x16 : (⟨S_, .f32⟩ : BufTy).Contents (Elt F) → (⟨S1x16, .f32⟩ : BufTy).Contents (Elt F)),
    binary main_v169 main_v166 main_v170 (mulf : (⟨S1x16, .f32⟩ : BufTy).Contents (Elt F) → (⟨S1x16, .f32⟩ : BufTy).Contents (Elt F) → (⟨S1x16, .f32⟩ : BufTy).Contents (Elt F)),
    ternary main_v168 main_v166 main_v170 main_v171 select ⟨by decide, rfl⟩ ⟨by decide, rfl⟩ ⟨by decide, rfl⟩ ⟨by decide, rfl⟩,
    binary main_v171 main_arg13 main_v172 ((fun l r => Host.dotGeneral dot_S1x16_S16x2_S1x2_1_0_0_1_n_n none l r) : (⟨S1x16, .f32⟩ : BufTy).Contents (Elt F) → (⟨S16x2, .f32⟩ : BufTy).Contents (Elt F) → (⟨S1x2, .f32⟩ : BufTy).Contents (Elt F)),
    unary main_arg14 main_v173 (broadcastInDim S1x2 ![1] bcast_S2_S1x2_1 : (⟨S2, .f32⟩ : BufTy).Contents (Elt F) → (⟨S1x2, .f32⟩ : BufTy).Contents (Elt F)),
    binary main_v172 main_v173 main_v174 (addf : (⟨S1x2, .f32⟩ : BufTy).Contents (Elt F) → (⟨S1x2, .f32⟩ : BufTy).Contents (Elt F) → (⟨S1x2, .f32⟩ : BufTy).Contents (Elt F)) ]

set_option maxRecDepth 16384 in
set_option maxHeartbeats 4000000 in
/-- @main's operations are the stretches in order. -/
theorem ops_split : (Cert.ReferenceIdeal.RunP.ops : List (HloOp τ sig (Elt F)))
    = opsA1 ++ (opsA2 ++ (opsB1 ++ (opsB2 ++ (opsC1 ++ (opsC2 ++ opsD))))) := rfl

end Cert.ReferenceIdeal.Fold

end
-- ==== Proof.RefHost.lean ====
/-
  The host operations of the idealized reference, as pure functions of the argument arrays: the source and
  destination vectors, the degrees and the two kinds of coefficient, a layer that transforms first (its
  pre-activation, and the leaky rectifier over it), the column sums, and the head.
-/
import proofs.«146515_j84370337562865_2_alg».proof.Proof.Gen.ReferenceIdeal
import Idealize.ShloMosaic.PureOps.Ideal

set_option maxRecDepth 16384

noncomputable section

namespace Cert.ReferenceIdeal.Fold

open Idealize.ShloMosaic Idealize.ShloMosaic.TcCoe
open Cert.ReferenceIdeal Cert.ReferenceIdeal.Gen

namespace Pure

/-- Row 0 of the edge list: the sources. -/
def srcV (ei : IVec S2x3200000 32) : IVec S3200000 32 :=
  shapeCast S3200000 (extractStridedSlice S1x3200000 ![0, 0] ei slices_S2x3200000_S1x3200000_0_0) shapeCasts_S1x3200000_S3200000
/-- Row 1 of the edge list: the destinations. -/
def dstV (ei : IVec S2x3200000 32) : IVec S3200000 32 :=
  shapeCast S3200000 (extractStridedSlice S1x3200000 ![1, 0] ei slices_S2x3200000_S1x3200000_1_0) shapeCasts_S1x3200000_S3200000
/-- A negative node number counts from the end. -/
def wrap (s : IVec S3200000 32) : IVec S3200000 32 :=
  select (cmpi .slt s (broadcastInDim S3200000 ![] bcast_S_S3200000 (constantI S_ 32 0#32)))
    (addi s (broadcastInDim S3200000 ![] bcast_S_S3200000 (constantI S_ 32 100000#32))) s
/-- A length-E vector as an E × 1 column. -/
def col {α : Type} (s : S3200000.Idx → α) : S3200000x1.Idx → α :=
  broadcastInDim S3200000x1 ![0] bcast_S3200000_S3200000x1_0 s
/-- One plus the sum of the weights of the edges that end at each node. -/
def deg (ew : FVec Ideal S3200000 .f32) (d : IVec S3200000 32) : FVec Ideal S100000 .f32 :=
  addf (Host.scatterAdd scatter_S100000_S3200000x1_S3200000_n_0_0_1
          (broadcastInDim S100000 ![] bcast_S_S100000 (constant S_ .f32 0x00000000#32)) (col d) ew)
    (broadcastInDim S100000 ![] bcast_S_S100000 (constant S_ .f32 0x3F800000#32))
def dinv (ew : FVec Ideal S3200000 .f32) (d : IVec S3200000 32) : FVec Ideal S100000 .f32 := Host.rsqrt (deg ew d)
/-- The edge coefficient. -/
def norm (ew : FVec Ideal S3200000 .f32) (s d : IVec S3200000 32) : FVec Ideal S3200000 .f32 :=
  mulf (mulf (Host.gather gather_S100000_S3200000x1_S3200000_n_0_n_n_0_1_1 (dinv ew d) (col (wrap s))) ew)
    (Host.gather gather_S100000_S3200000x1_S3200000_n_0_n_n_0_1_1 (dinv ew d) (col (wrap d)))
/-- The self-loop coefficient. -/
def invdeg (ew : FVec Ideal S3200000 .f32) (d : IVec S3200000 32) : FVec Ideal S100000 .f32 :=
  Host.divf (broadcastInDim S100000 ![] bcast_S_S100000 (constant S_ .f32 0x3F800000#32)) (deg ew d)

/-- The pre-activation of a layer that transforms first (4 → 12 features): the in-neighbours' transformed rows scaled by
    their edges' coefficients, plus the node's own transformed row scaled by its self-loop coefficient, plus the bias. -/
def rpre12 (H : FVec Ideal S100000x12 .f32) (nrm : FVec Ideal S3200000 .f32) (iv : FVec Ideal S100000 .f32)
    (s d : IVec S3200000 32) (bias : FVec Ideal S12 .f32) : FVec Ideal S100000x12 .f32 :=
  addf (addf (Host.scatterAdd scatter_S100000x12_S3200000x1_S3200000x12_1_0_0_1
                (broadcastInDim S100000x12 ![] bcast_S_S100000x12 (constant S_ .f32 0x00000000#32)) (col d)
                (mulf (Host.gather gather_S100000x12_S3200000x1_S3200000x12_1_0_n_n_0_1_112 H (col (wrap s)))
                  (broadcastInDim S3200000x12 ![0, 1] bcast_S3200000x1_S3200000x12_0_1 (col nrm))))
             (mulf H (broadcastInDim S100000x12 ![0, 1] bcast_S100000x1_S100000x12_0_1
                        (broadcastInDim S100000x1 ![0] bcast_S100000_S100000x1_0 iv))))
       (broadcastInDim S100000x12 ![0, 1] bcast_S1x12_S100000x12_0_1 (broadcastInDim S1x12 ![1] bcast_S12_S1x12_1 bias))
/-- The leaky rectifier on an N × 12 matrix. -/
def rlk12 (z : FVec Ideal S100000x12 .f32) : FVec Ideal S100000x12 .f32 :=
  select (cmpf .oge z (broadcastInDim S100000x12 ![] bcast_S_S100000x12 (constant S_ .f32 0x00000000#32))) z
    (mulf (broadcastInDim S100000x12 ![] bcast_S_S100000x12 (constant S_ .f32 0x3DCCCCCD#32)) z)

/-- The pre-activation of a layer that transforms first (12 → 24 features): the in-neighbours' transformed rows scaled by
    their edges' coefficients, plus the node's own transformed row scaled by its self-loop coefficient, plus the bias. -/
def rpre24 (H : FVec Ideal S100000x24 .f32) (nrm : FVec Ideal S3200000 .f32) (iv : FVec Ideal S100000 .f32)
    (s d : IVec S3200000 32) (bias : FVec Ideal S24 .f32) : FVec Ideal S100000x24 .f32 :=
  addf (addf (Host.scatterAdd scatter_S100000x24_S3200000x1_S3200000x24_1_0_0_1
                (broadcastInDim S100000x24 ![] bcast_S_S100000x24 (constant S_ .f32 0x00000000#32)) (col d)
                (mulf (Host.gather gather_S100000x24_S3200000x1_S3200000x24_1_0_n_n_0_1_124 H (col (wrap s)))
                  (broadcastInDim S3200000x24 ![0, 1] bcast_S3200000x1_S3200000x24_0_1 (col nrm))))
             (mulf H (broadcastInDim S100000x24 ![0, 1] bcast_S100000x1_S100000x24_0_1
                        (broadcastInDim S100000x1 ![0] bcast_S100000_S100000x1_0 iv))))
       (broadcastInDim S100000x24 ![0, 1] bcast_S1x24_S100000x24_0_1 (broadcastInDim S1x24 ![1] bcast_S24_S1x24_1 bias))
/-- The leaky rectifier on an N × 24 matrix. -/
def rlk24 (z : FVec Ideal S100000x24 .f32) : FVec Ideal S100000x24 .f32 :=
  select (cmpf .oge z (broadcastInDim S100000x24 ![] bcast_S_S100000x24 (constant S_ .f32 0x00000000#32))) z
    (mulf (broadcastInDim S100000x24 ![] bcast_S_S100000x24 (constant S_ .f32 0x3DCCCCCD#32)) z)

/-- The pre-activation of a layer that transforms first (24 → 48 features): the in-neighbours' transformed rows scaled by
    their edges' coefficients, plus the node's own transformed row scaled by its self-loop coefficient, plus the bias. -/
def rpre48 (H : FVec Ideal S100000x48 .f32) (nrm : FVec Ideal S3200000 .f32) (iv : FVec Ideal S100000 .f32)
    (s d : IVec S3200000 32) (bias : FVec Ideal S48 .f32) : FVec Ideal S100000x48 .f32 :=
  addf (addf (Host.scatterAdd scatter_S100000x48_S3200000x1_S3200000x48_1_0_0_1
                (broadcastInDim S100000x48 ![] bcast_S_S100000x48 (constant S_ .f32 0x00000000#32)) (col d)
                (mulf (Host.gather gather_S100000x48_S3200000x1_S3200000x48_1_0_n_n_0_1_148 H (col (wrap s)))
                  (broadcastInDim S3200000x48 ![0, 1] bcast_S3200000x1_S3200000x48_0_1 (col nrm))))
             (mulf H (broadcastInDim S100000x48 ![0, 1] bcast_S100000x1_S100000x48_0_1
                        (broadcastInDim S100000x1 ![0] bcast_S100000_S100000x1_0 iv))))
       (broadcastInDim S100000x48 ![0, 1] bcast_S1x48_S100000x48_0_1 (broadcastInDim S1x48 ![1] bcast_S48_S1x48_1 bias))
/-- The leaky rectifier on an N × 48 matrix. -/
def rlk48 (z : FVec Ideal S100000x48 .f32) : FVec Ideal S100000x48 .f32 :=
  select (cmpf .oge z (broadcastInDim S100000x48 ![] bcast_S_S100000x48 (constant S_ .f32 0x00000000#32))) z
    (mulf (broadcastInDim S100000x48 ![] bcast_S_S100000x48 (constant S_ .f32 0x3DCCCCCD#32)) z)

/-- The leaky rectifier on a 1 × 32 row, and on a 1 × 16 row. -/
def lk32 (z : FVec Ideal S1x32 .f32) : FVec Ideal S1x32 .f32 :=
  select (cmpf .oge z (broadcastInDim S1x32 ![] bcast_S_S1x32 (constant S_ .f32 0x00000000#32))) z
    (mulf (broadcastInDim S1x32 ![] bcast_S_S1x32 (constant S_ .f32 0x3DCCCCCD#32)) z)
def lk16 (z : FVec Ideal S1x16 .f32) : FVec Ideal S1x16 .f32 :=
  select (cmpf .oge z (broadcastInDim S1x16 ![] bcast_S_S1x16 (constant S_ .f32 0x00000000#32))) z
    (mulf (broadcastInDim S1x16 ![] bcast_S_S1x16 (constant S_ .f32 0x3DCCCCCD#32)) z)
/-- The head: three dense layers on the pooled row `g`, the biases given as rows. -/
def head (g : FVec Ideal S1x48 .f32) (w1 : FVec Ideal S48x32 .f32) (b1 : FVec Ideal S1x32 .f32) (w2 : FVec Ideal S32x16 .f32)
    (b2 : FVec Ideal S1x16 .f32) (w3 : FVec Ideal S16x2 .f32) (b3 : FVec Ideal S1x2 .f32) : FVec Ideal S1x2 .f32 :=
  addf (Host.dotGeneral dot_S1x16_S16x2_S1x2_1_0_0_1_n_n none
          (lk16 (addf (Host.dotGeneral dot_S1x32_S32x16_S1x16_1_0_0_1_n_n none
                  (lk32 (addf (Host.dotGeneral dot_S1x48_S48x32_S1x32_1_0_0_1_n_n none g w1) b1)) w2) b2)) w3) b3
/-- The column sums of the node matrix. -/
def pool (X : FVec Ideal S100000x48 .f32) : FVec Ideal S48 .f32 :=
  Host.reduceAdd X (constant S_ .f32 0x00000000#32) reducesTo_S100000x48_S48_d0 h_S_

end Pure

end Cert.ReferenceIdeal.Fold

namespace Cert.ReferenceIdeal.Value

open Idealize.ShloMosaic Idealize.ShloMosaic.TcCoe
open Cert.ReferenceIdeal Cert.ReferenceIdeal.Gen Cert.ReferenceIdeal.Fold.Pure

/-- The node matrix after the first layer. -/
def y1 (X0 : FVec Ideal S100000x4 .f32) (ew : FVec Ideal S3200000 .f32) (ei : IVec S2x3200000 32)
    (w1 : FVec Ideal S4x12 .f32) (b1 : FVec Ideal S12 .f32) : FVec Ideal S100000x12 .f32 :=
  rlk12 (rpre12 (Host.dotGeneral dot_S100000x4_S4x12_S100000x12_1_0_0_1_n_n none X0 w1)
    (norm ew (srcV ei) (dstV ei)) (invdeg ew (dstV ei)) (srcV ei) (dstV ei) b1)
/-- After the second. -/
def y2 (X1 : FVec Ideal S100000x12 .f32) (ew : FVec Ideal S3200000 .f32) (ei : IVec S2x3200000 32)
    (w2 : FVec Ideal S12x24 .f32) (b2 : FVec Ideal S24 .f32) : FVec Ideal S100000x24 .f32 :=
  rlk24 (rpre24 (Host.dotGeneral dot_S100000x12_S12x24_S100000x24_1_0_0_1_n_n none X1 w2)
    (norm ew (srcV ei) (dstV ei)) (invdeg ew (dstV ei)) (srcV ei) (dstV ei) b2)
/-- After the third. -/
def y3 (X2 : FVec Ideal S100000x24 .f32) (ew : FVec Ideal S3200000 .f32) (ei : IVec S2x3200000 32)
    (w3 : FVec Ideal S24x48 .f32) (b3 : FVec Ideal S48 .f32) : FVec Ideal S100000x48 .f32 :=
  rlk48 (rpre48 (Host.dotGeneral dot_S100000x24_S24x48_S100000x48_1_0_0_1_n_n none X2 w3)
    (norm ew (srcV ei) (dstV ei)) (invdeg ew (dstV ei)) (srcV ei) (dstV ei) b3)

end Cert.ReferenceIdeal.Value

end
-- ==== Proof.RefFoldAB.lean ====
/-
  The first two layers of the idealized reference, each read in two stretches from any contents before them.
-/
import proofs.«146515_j84370337562865_2_alg».proof.Proof.RefStretches
import proofs.«146515_j84370337562865_2_alg».proof.Proof.RefHost
import Idealize.ShloMosaic.Lib.StableHlo.Run
import Idealize.ShloMosaic.PureOps.Ideal

set_option maxRecDepth 16384

noncomputable section

namespace Cert.ReferenceIdeal.Fold

open Idealize.ShloMosaic Idealize.ShloMosaic.TcCoe Idealize.ShloMosaic.StableHlo
open Cert.ReferenceIdeal Cert.ReferenceIdeal.Gen Cert.ReferenceIdeal.Fold.Pure

variable (W : Valuation τ sig (Elt Ideal))

/-! ## The first layer -/

set_option maxHeartbeats 8000000 in
theorem a_src : after (opsA1 (F := Ideal)) W (Proc.devRef .tc main_v1)
    = srcV (W (Proc.devRef .tc main_arg2)) := by
  after_results; rfl

set_option maxHeartbeats 8000000 in
theorem a_dst : after (opsA1 (F := Ideal)) W (Proc.devRef .tc main_v3)
    = dstV (W (Proc.devRef .tc main_arg2)) := by
  after_results; rfl

set_option maxHeartbeats 8000000 in
theorem a_pre : after (opsA1 (F := Ideal)) W (Proc.devRef .tc main_v48)
    = rpre12 (Host.dotGeneral (φ₁ := .f32) (φ₂ := .f32) dot_S100000x4_S4x12_S100000x12_1_0_0_1_n_n none (W (Proc.devRef .tc main_arg0)) (W (Proc.devRef .tc main_arg3)))
        (norm (W (Proc.devRef .tc main_arg1)) (srcV (W (Proc.devRef .tc main_arg2))) (dstV (W (Proc.devRef .tc main_arg2)))) (invdeg (W (Proc.devRef .tc main_arg1)) (dstV (W (Proc.devRef .tc main_arg2))))
        (srcV (W (Proc.devRef .tc main_arg2))) (dstV (W (Proc.devRef .tc main_arg2))) (W (Proc.devRef .tc main_arg4)) := by
  after_results; rfl

set_option maxHeartbeats 8000000 in
theorem a_lk : after (opsA2 (F := Ideal)) W (Proc.devRef .tc main_v53)
    = rlk12 (W (Proc.devRef .tc main_v48)) := by
  after_results; rfl

/-! ## The second layer -/

set_option maxHeartbeats 8000000 in
theorem b_lk : after (opsB2 (F := Ideal)) W (Proc.devRef .tc main_v103)
    = rlk24 (W (Proc.devRef .tc main_v98)) := by
  after_results; rfl

end Cert.ReferenceIdeal.Fold

end
-- ==== Proof.RefFoldB.lean ====
/-
  The second layer's pre-activation of the idealized reference, read from any contents before it.
-/
import proofs.«146515_j84370337562865_2_alg».proof.Proof.RefStretches
import proofs.«146515_j84370337562865_2_alg».proof.Proof.RefHost
import Idealize.ShloMosaic.Lib.StableHlo.Run
import Idealize.ShloMosaic.PureOps.Ideal

set_option maxRecDepth 16384

noncomputable section

namespace Cert.ReferenceIdeal.Fold

open Idealize.ShloMosaic Idealize.ShloMosaic.TcCoe Idealize.ShloMosaic.StableHlo
open Cert.ReferenceIdeal Cert.ReferenceIdeal.Gen Cert.ReferenceIdeal.Fold.Pure

variable (W : Valuation τ sig (Elt Ideal))

set_option maxHeartbeats 8000000 in
theorem b_pre : after (opsB1 (F := Ideal)) W (Proc.devRef .tc main_v98)
    = rpre24 (Host.dotGeneral (φ₁ := .f32) (φ₂ := .f32) dot_S100000x12_S12x24_S100000x24_1_0_0_1_n_n none (W (Proc.devRef .tc main_v53)) (W (Proc.devRef .tc main_arg5)))
        (norm (W (Proc.devRef .tc main_arg1)) (W (Proc.devRef .tc main_v1)) (W (Proc.devRef .tc main_v3))) (invdeg (W (Proc.devRef .tc main_arg1)) (W (Proc.devRef .tc main_v3)))
        (W (Proc.devRef .tc main_v1)) (W (Proc.devRef .tc main_v3)) (W (Proc.devRef .tc main_arg6)) := by
  after_results; rfl

end Cert.ReferenceIdeal.Fold

end
-- ==== Proof.RefFoldCD.lean ====
/-
  The third layer and the head of the idealized reference, read from any contents before them.
-/
import proofs.«146515_j84370337562865_2_alg».proof.Proof.RefStretches
import proofs.«146515_j84370337562865_2_alg».proof.Proof.RefHost
import Idealize.ShloMosaic.Lib.StableHlo.Run
import Idealize.ShloMosaic.PureOps.Ideal

set_option maxRecDepth 16384

noncomputable section

namespace Cert.ReferenceIdeal.Fold

open Idealize.ShloMosaic Idealize.ShloMosaic.TcCoe Idealize.ShloMosaic.StableHlo
open Cert.ReferenceIdeal Cert.ReferenceIdeal.Gen Cert.ReferenceIdeal.Fold.Pure

variable (W : Valuation τ sig (Elt Ideal))

/-! ## The third layer -/

set_option maxHeartbeats 8000000 in
theorem c_pre : after (opsC1 (F := Ideal)) W (Proc.devRef .tc main_v148)
    = rpre48 (Host.dotGeneral (φ₁ := .f32) (φ₂ := .f32) dot_S100000x24_S24x48_S100000x48_1_0_0_1_n_n none (W (Proc.devRef .tc main_v103)) (W (Proc.devRef .tc main_arg7)))
        (norm (W (Proc.devRef .tc main_arg1)) (W (Proc.devRef .tc main_v1)) (W (Proc.devRef .tc main_v3))) (invdeg (W (Proc.devRef .tc main_arg1)) (W (Proc.devRef .tc main_v3)))
        (W (Proc.devRef .tc main_v1)) (W (Proc.devRef .tc main_v3)) (W (Proc.devRef .tc main_arg8)) := by
  after_results; rfl

set_option maxHeartbeats 8000000 in
theorem c_lk : after (opsC2 (F := Ideal)) W (Proc.devRef .tc main_v153)
    = rlk48 (W (Proc.devRef .tc main_v148)) := by
  after_results; rfl

/-! ## The head -/

set_option maxHeartbeats 8000000 in
theorem d_out : after (opsD (F := Ideal)) W (Proc.devRef .tc main_v174)
    = head (shapeCast S1x48 (pool (W (Proc.devRef .tc main_v153))) shapeCasts_S48_S1x48) (W (Proc.devRef .tc main_arg9))
        (broadcastInDim S1x32 ![1] bcast_S32_S1x32_1 (W (Proc.devRef .tc main_arg10))) (W (Proc.devRef .tc main_arg11))
        (broadcastInDim S1x16 ![1] bcast_S16_S1x16_1 (W (Proc.devRef .tc main_arg12))) (W (Proc.devRef .tc main_arg13))
        (broadcastInDim S1x2 ![1] bcast_S2_S1x2_1 (W (Proc.devRef .tc main_arg14))) := by
  after_results; rfl

end Cert.ReferenceIdeal.Fold

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefValue.lean ====
/-
  The idealized reference's result as one function of the argument arrays: three transform-first layers, the pooled
  row, the head.  The stretches of its operation list are read one after the other; a buffer a stretch does not
  write passes through it unchanged.
-/
import proofs.«146515_j84370337562865_2_alg».proof.Proof.RefFoldAB
import proofs.«146515_j84370337562865_2_alg».proof.Proof.RefFoldB
import proofs.«146515_j84370337562865_2_alg».proof.Proof.RefFoldCD
import proofs.«146515_j84370337562865_2_alg».proof.Proof.LibAfterAppend

set_option maxRecDepth 16384

noncomputable section

namespace Cert.ReferenceIdeal.Value

open Idealize.ShloMosaic Idealize.ShloMosaic.TcCoe Idealize.ShloMosaic.StableHlo
open Cert.ReferenceIdeal Cert.ReferenceIdeal.Gen Cert.ReferenceIdeal.Fold Cert.ReferenceIdeal.Fold.Pure

variable (m : (ℓ : Loc nD τ sig) → Buf (Elt Ideal) ℓ) (c : Dev nD)

local macro "thru" : tactic =>
  `(tactic| (refine StableHlo.after_of_forall_not_mem _ _ (List.forall_iff_forall_mem.mp ?_)
             simp only [opsA1, opsA2, opsB1, opsB2, opsC1, opsC2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- The contents after each stretch. -/
abbrev V1 : Valuation τ sig (Elt Ideal) := after (opsA1 (F := Ideal)) (launchContents m c)
abbrev V2 : Valuation τ sig (Elt Ideal) := after (opsA2 (F := Ideal)) (V1 m c)
abbrev V3 : Valuation τ sig (Elt Ideal) := after (opsB1 (F := Ideal)) (V2 m c)
abbrev V4 : Valuation τ sig (Elt Ideal) := after (opsB2 (F := Ideal)) (V3 m c)
abbrev V5 : Valuation τ sig (Elt Ideal) := after (opsC1 (F := Ideal)) (V4 m c)
abbrev V6 : Valuation τ sig (Elt Ideal) := after (opsC2 (F := Ideal)) (V5 m c)

/-! ## What passes through -/

theorem s1_v1 : V1 m c (Proc.devRef .tc main_v1) = srcV (m ((c.tc : Thread nD τ).loc main_arg2)) := a_src (launchContents m c)
theorem s1_v3 : V1 m c (Proc.devRef .tc main_v3) = dstV (m ((c.tc : Thread nD τ).loc main_arg2)) := a_dst (launchContents m c)
theorem s1_arg1 : V1 m c (Proc.devRef .tc main_arg1) = (m ((c.tc : Thread nD τ).loc main_arg1)) := by
  show after _ _ _ = _; thru
theorem s2_arg1 : V2 m c (Proc.devRef .tc main_arg1) = (m ((c.tc : Thread nD τ).loc main_arg1)) :=
  (by show after _ _ _ = _; thru : V2 m c (Proc.devRef .tc main_arg1) = V1 m c (Proc.devRef .tc main_arg1)).trans (s1_arg1 m c)
theorem s3_arg1 : V3 m c (Proc.devRef .tc main_arg1) = (m ((c.tc : Thread nD τ).loc main_arg1)) :=
  (by show after _ _ _ = _; thru : V3 m c (Proc.devRef .tc main_arg1) = V2 m c (Proc.devRef .tc main_arg1)).trans (s2_arg1 m c)
theorem s4_arg1 : V4 m c (Proc.devRef .tc main_arg1) = (m ((c.tc : Thread nD τ).loc main_arg1)) :=
  (by show after _ _ _ = _; thru : V4 m c (Proc.devRef .tc main_arg1) = V3 m c (Proc.devRef .tc main_arg1)).trans (s3_arg1 m c)
theorem s2_v1 : V2 m c (Proc.devRef .tc main_v1) = srcV (m ((c.tc : Thread nD τ).loc main_arg2)) :=
  (by show after _ _ _ = _; thru : V2 m c (Proc.devRef .tc main_v1) = V1 m c (Proc.devRef .tc main_v1)).trans (s1_v1 m c)
theorem s3_v1 : V3 m c (Proc.devRef .tc main_v1) = srcV (m ((c.tc : Thread nD τ).loc main_arg2)) :=
  (by show after _ _ _ = _; thru : V3 m c (Proc.devRef .tc main_v1) = V2 m c (Proc.devRef .tc main_v1)).trans (s2_v1 m c)
theorem s4_v1 : V4 m c (Proc.devRef .tc main_v1) = srcV (m ((c.tc : Thread nD τ).loc main_arg2)) :=
  (by show after _ _ _ = _; thru : V4 m c (Proc.devRef .tc main_v1) = V3 m c (Proc.devRef .tc main_v1)).trans (s3_v1 m c)
theorem s2_v3 : V2 m c (Proc.devRef .tc main_v3) = dstV (m ((c.tc : Thread nD τ).loc main_arg2)) :=
  (by show after _ _ _ = _; thru : V2 m c (Proc.devRef .tc main_v3) = V1 m c (Proc.devRef .tc main_v3)).trans (s1_v3 m c)
theorem s3_v3 : V3 m c (Proc.devRef .tc main_v3) = dstV (m ((c.tc : Thread nD τ).loc main_arg2)) :=
  (by show after _ _ _ = _; thru : V3 m c (Proc.devRef .tc main_v3) = V2 m c (Proc.devRef .tc main_v3)).trans (s2_v3 m c)
theorem s4_v3 : V4 m c (Proc.devRef .tc main_v3) = dstV (m ((c.tc : Thread nD τ).loc main_arg2)) :=
  (by show after _ _ _ = _; thru : V4 m c (Proc.devRef .tc main_v3) = V3 m c (Proc.devRef .tc main_v3)).trans (s3_v3 m c)
theorem s1_arg5 : V1 m c (Proc.devRef .tc main_arg5) = (m ((c.tc : Thread nD τ).loc main_arg5)) := by
  show after _ _ _ = _; thru
theorem s2_arg5 : V2 m c (Proc.devRef .tc main_arg5) = (m ((c.tc : Thread nD τ).loc main_arg5)) :=
  (by show after _ _ _ = _; thru : V2 m c (Proc.devRef .tc main_arg5) = V1 m c (Proc.devRef .tc main_arg5)).trans (s1_arg5 m c)
theorem s1_arg6 : V1 m c (Proc.devRef .tc main_arg6) = (m ((c.tc : Thread nD τ).loc main_arg6)) := by
  show after _ _ _ = _; thru
theorem s2_arg6 : V2 m c (Proc.devRef .tc main_arg6) = (m ((c.tc : Thread nD τ).loc main_arg6)) :=
  (by show after _ _ _ = _; thru : V2 m c (Proc.devRef .tc main_arg6) = V1 m c (Proc.devRef .tc main_arg6)).trans (s1_arg6 m c)
theorem s1_arg7 : V1 m c (Proc.devRef .tc main_arg7) = (m ((c.tc : Thread nD τ).loc main_arg7)) := by
  show after _ _ _ = _; thru
theorem s2_arg7 : V2 m c (Proc.devRef .tc main_arg7) = (m ((c.tc : Thread nD τ).loc main_arg7)) :=
  (by show after _ _ _ = _; thru : V2 m c (Proc.devRef .tc main_arg7) = V1 m c (Proc.devRef .tc main_arg7)).trans (s1_arg7 m c)
theorem s3_arg7 : V3 m c (Proc.devRef .tc main_arg7) = (m ((c.tc : Thread nD τ).loc main_arg7)) :=
  (by show after _ _ _ = _; thru : V3 m c (Proc.devRef .tc main_arg7) = V2 m c (Proc.devRef .tc main_arg7)).trans (s2_arg7 m c)
theorem s4_arg7 : V4 m c (Proc.devRef .tc main_arg7) = (m ((c.tc : Thread nD τ).loc main_arg7)) :=
  (by show after _ _ _ = _; thru : V4 m c (Proc.devRef .tc main_arg7) = V3 m c (Proc.devRef .tc main_arg7)).trans (s3_arg7 m c)
theorem s1_arg8 : V1 m c (Proc.devRef .tc main_arg8) = (m ((c.tc : Thread nD τ).loc main_arg8)) := by
  show after _ _ _ = _; thru
theorem s2_arg8 : V2 m c (Proc.devRef .tc main_arg8) = (m ((c.tc : Thread nD τ).loc main_arg8)) :=
  (by show after _ _ _ = _; thru : V2 m c (Proc.devRef .tc main_arg8) = V1 m c (Proc.devRef .tc main_arg8)).trans (s1_arg8 m c)
theorem s3_arg8 : V3 m c (Proc.devRef .tc main_arg8) = (m ((c.tc : Thread nD τ).loc main_arg8)) :=
  (by show after _ _ _ = _; thru : V3 m c (Proc.devRef .tc main_arg8) = V2 m c (Proc.devRef .tc main_arg8)).trans (s2_arg8 m c)
theorem s4_arg8 : V4 m c (Proc.devRef .tc main_arg8) = (m ((c.tc : Thread nD τ).loc main_arg8)) :=
  (by show after _ _ _ = _; thru : V4 m c (Proc.devRef .tc main_arg8) = V3 m c (Proc.devRef .tc main_arg8)).trans (s3_arg8 m c)
theorem s1_arg9 : V1 m c (Proc.devRef .tc main_arg9) = (m ((c.tc : Thread nD τ).loc main_arg9)) := by
  show after _ _ _ = _; thru
theorem s2_arg9 : V2 m c (Proc.devRef .tc main_arg9) = (m ((c.tc : Thread nD τ).loc main_arg9)) :=
  (by show after _ _ _ = _; thru : V2 m c (Proc.devRef .tc main_arg9) = V1 m c (Proc.devRef .tc main_arg9)).trans (s1_arg9 m c)
theorem s3_arg9 : V3 m c (Proc.devRef .tc main_arg9) = (m ((c.tc : Thread nD τ).loc main_arg9)) :=
  (by show after _ _ _ = _; thru : V3 m c (Proc.devRef .tc main_arg9) = V2 m c (Proc.devRef .tc main_arg9)).trans (s2_arg9 m c)
theorem s4_arg9 : V4 m c (Proc.devRef .tc main_arg9) = (m ((c.tc : Thread nD τ).loc main_arg9)) :=
  (by show after _ _ _ = _; thru : V4 m c (Proc.devRef .tc main_arg9) = V3 m c (Proc.devRef .tc main_arg9)).trans (s3_arg9 m c)
theorem s5_arg9 : V5 m c (Proc.devRef .tc main_arg9) = (m ((c.tc : Thread nD τ).loc main_arg9)) :=
  (by show after _ _ _ = _; thru : V5 m c (Proc.devRef .tc main_arg9) = V4 m c (Proc.devRef .tc main_arg9)).trans (s4_arg9 m c)
theorem s6_arg9 : V6 m c (Proc.devRef .tc main_arg9) = (m ((c.tc : Thread nD τ).loc main_arg9)) :=
  (by show after _ _ _ = _; thru : V6 m c (Proc.devRef .tc main_arg9) = V5 m c (Proc.devRef .tc main_arg9)).trans (s5_arg9 m c)
theorem s1_arg10 : V1 m c (Proc.devRef .tc main_arg10) = (m ((c.tc : Thread nD τ).loc main_arg10)) := by
  show after _ _ _ = _; thru
theorem s2_arg10 : V2 m c (Proc.devRef .tc main_arg10) = (m ((c.tc : Thread nD τ).loc main_arg10)) :=
  (by show after _ _ _ = _; thru : V2 m c (Proc.devRef .tc main_arg10) = V1 m c (Proc.devRef .tc main_arg10)).trans (s1_arg10 m c)
theorem s3_arg10 : V3 m c (Proc.devRef .tc main_arg10) = (m ((c.tc : Thread nD τ).loc main_arg10)) :=
  (by show after _ _ _ = _; thru : V3 m c (Proc.devRef .tc main_arg10) = V2 m c (Proc.devRef .tc main_arg10)).trans (s2_arg10 m c)
theorem s4_arg10 : V4 m c (Proc.devRef .tc main_arg10) = (m ((c.tc : Thread nD τ).loc main_arg10)) :=
  (by show after _ _ _ = _; thru : V4 m c (Proc.devRef .tc main_arg10) = V3 m c (Proc.devRef .tc main_arg10)).trans (s3_arg10 m c)
theorem s5_arg10 : V5 m c (Proc.devRef .tc main_arg10) = (m ((c.tc : Thread nD τ).loc main_arg10)) :=
  (by show after _ _ _ = _; thru : V5 m c (Proc.devRef .tc main_arg10) = V4 m c (Proc.devRef .tc main_arg10)).trans (s4_arg10 m c)
theorem s6_arg10 : V6 m c (Proc.devRef .tc main_arg10) = (m ((c.tc : Thread nD τ).loc main_arg10)) :=
  (by show after _ _ _ = _; thru : V6 m c (Proc.devRef .tc main_arg10) = V5 m c (Proc.devRef .tc main_arg10)).trans (s5_arg10 m c)
theorem s1_arg11 : V1 m c (Proc.devRef .tc main_arg11) = (m ((c.tc : Thread nD τ).loc main_arg11)) := by
  show after _ _ _ = _; thru
theorem s2_arg11 : V2 m c (Proc.devRef .tc main_arg11) = (m ((c.tc : Thread nD τ).loc main_arg11)) :=
  (by show after _ _ _ = _; thru : V2 m c (Proc.devRef .tc main_arg11) = V1 m c (Proc.devRef .tc main_arg11)).trans (s1_arg11 m c)
theorem s3_arg11 : V3 m c (Proc.devRef .tc main_arg11) = (m ((c.tc : Thread nD τ).loc main_arg11)) :=
  (by show after _ _ _ = _; thru : V3 m c (Proc.devRef .tc main_arg11) = V2 m c (Proc.devRef .tc main_arg11)).trans (s2_arg11 m c)
theorem s4_arg11 : V4 m c (Proc.devRef .tc main_arg11) = (m ((c.tc : Thread nD τ).loc main_arg11)) :=
  (by show after _ _ _ = _; thru : V4 m c (Proc.devRef .tc main_arg11) = V3 m c (Proc.devRef .tc main_arg11)).trans (s3_arg11 m c)
theorem s5_arg11 : V5 m c (Proc.devRef .tc main_arg11) = (m ((c.tc : Thread nD τ).loc main_arg11)) :=
  (by show after _ _ _ = _; thru : V5 m c (Proc.devRef .tc main_arg11) = V4 m c (Proc.devRef .tc main_arg11)).trans (s4_arg11 m c)
theorem s6_arg11 : V6 m c (Proc.devRef .tc main_arg11) = (m ((c.tc : Thread nD τ).loc main_arg11)) :=
  (by show after _ _ _ = _; thru : V6 m c (Proc.devRef .tc main_arg11) = V5 m c (Proc.devRef .tc main_arg11)).trans (s5_arg11 m c)
theorem s1_arg12 : V1 m c (Proc.devRef .tc main_arg12) = (m ((c.tc : Thread nD τ).loc main_arg12)) := by
  show after _ _ _ = _; thru
theorem s2_arg12 : V2 m c (Proc.devRef .tc main_arg12) = (m ((c.tc : Thread nD τ).loc main_arg12)) :=
  (by show after _ _ _ = _; thru : V2 m c (Proc.devRef .tc main_arg12) = V1 m c (Proc.devRef .tc main_arg12)).trans (s1_arg12 m c)
theorem s3_arg12 : V3 m c (Proc.devRef .tc main_arg12) = (m ((c.tc : Thread nD τ).loc main_arg12)) :=
  (by show after _ _ _ = _; thru : V3 m c (Proc.devRef .tc main_arg12) = V2 m c (Proc.devRef .tc main_arg12)).trans (s2_arg12 m c)
theorem s4_arg12 : V4 m c (Proc.devRef .tc main_arg12) = (m ((c.tc : Thread nD τ).loc main_arg12)) :=
  (by show after _ _ _ = _; thru : V4 m c (Proc.devRef .tc main_arg12) = V3 m c (Proc.devRef .tc main_arg12)).trans (s3_arg12 m c)
theorem s5_arg12 : V5 m c (Proc.devRef .tc main_arg12) = (m ((c.tc : Thread nD τ).loc main_arg12)) :=
  (by show after _ _ _ = _; thru : V5 m c (Proc.devRef .tc main_arg12) = V4 m c (Proc.devRef .tc main_arg12)).trans (s4_arg12 m c)
theorem s6_arg12 : V6 m c (Proc.devRef .tc main_arg12) = (m ((c.tc : Thread nD τ).loc main_arg12)) :=
  (by show after _ _ _ = _; thru : V6 m c (Proc.devRef .tc main_arg12) = V5 m c (Proc.devRef .tc main_arg12)).trans (s5_arg12 m c)
theorem s1_arg13 : V1 m c (Proc.devRef .tc main_arg13) = (m ((c.tc : Thread nD τ).loc main_arg13)) := by
  show after _ _ _ = _; thru
theorem s2_arg13 : V2 m c (Proc.devRef .tc main_arg13) = (m ((c.tc : Thread nD τ).loc main_arg13)) :=
  (by show after _ _ _ = _; thru : V2 m c (Proc.devRef .tc main_arg13) = V1 m c (Proc.devRef .tc main_arg13)).trans (s1_arg13 m c)
theorem s3_arg13 : V3 m c (Proc.devRef .tc main_arg13) = (m ((c.tc : Thread nD τ).loc main_arg13)) :=
  (by show after _ _ _ = _; thru : V3 m c (Proc.devRef .tc main_arg13) = V2 m c (Proc.devRef .tc main_arg13)).trans (s2_arg13 m c)
theorem s4_arg13 : V4 m c (Proc.devRef .tc main_arg13) = (m ((c.tc : Thread nD τ).loc main_arg13)) :=
  (by show after _ _ _ = _; thru : V4 m c (Proc.devRef .tc main_arg13) = V3 m c (Proc.devRef .tc main_arg13)).trans (s3_arg13 m c)
theorem s5_arg13 : V5 m c (Proc.devRef .tc main_arg13) = (m ((c.tc : Thread nD τ).loc main_arg13)) :=
  (by show after _ _ _ = _; thru : V5 m c (Proc.devRef .tc main_arg13) = V4 m c (Proc.devRef .tc main_arg13)).trans (s4_arg13 m c)
theorem s6_arg13 : V6 m c (Proc.devRef .tc main_arg13) = (m ((c.tc : Thread nD τ).loc main_arg13)) :=
  (by show after _ _ _ = _; thru : V6 m c (Proc.devRef .tc main_arg13) = V5 m c (Proc.devRef .tc main_arg13)).trans (s5_arg13 m c)
theorem s1_arg14 : V1 m c (Proc.devRef .tc main_arg14) = (m ((c.tc : Thread nD τ).loc main_arg14)) := by
  show after _ _ _ = _; thru
theorem s2_arg14 : V2 m c (Proc.devRef .tc main_arg14) = (m ((c.tc : Thread nD τ).loc main_arg14)) :=
  (by show after _ _ _ = _; thru : V2 m c (Proc.devRef .tc main_arg14) = V1 m c (Proc.devRef .tc main_arg14)).trans (s1_arg14 m c)
theorem s3_arg14 : V3 m c (Proc.devRef .tc main_arg14) = (m ((c.tc : Thread nD τ).loc main_arg14)) :=
  (by show after _ _ _ = _; thru : V3 m c (Proc.devRef .tc main_arg14) = V2 m c (Proc.devRef .tc main_arg14)).trans (s2_arg14 m c)
theorem s4_arg14 : V4 m c (Proc.devRef .tc main_arg14) = (m ((c.tc : Thread nD τ).loc main_arg14)) :=
  (by show after _ _ _ = _; thru : V4 m c (Proc.devRef .tc main_arg14) = V3 m c (Proc.devRef .tc main_arg14)).trans (s3_arg14 m c)
theorem s5_arg14 : V5 m c (Proc.devRef .tc main_arg14) = (m ((c.tc : Thread nD τ).loc main_arg14)) :=
  (by show after _ _ _ = _; thru : V5 m c (Proc.devRef .tc main_arg14) = V4 m c (Proc.devRef .tc main_arg14)).trans (s4_arg14 m c)
theorem s6_arg14 : V6 m c (Proc.devRef .tc main_arg14) = (m ((c.tc : Thread nD τ).loc main_arg14)) :=
  (by show after _ _ _ = _; thru : V6 m c (Proc.devRef .tc main_arg14) = V5 m c (Proc.devRef .tc main_arg14)).trans (s5_arg14 m c)

/-! ## The layers -/

theorem s1_pre : V1 m c (Proc.devRef .tc main_v48)
    = rpre12 (Host.dotGeneral (φ₁ := .f32) (φ₂ := .f32) dot_S100000x4_S4x12_S100000x12_1_0_0_1_n_n none (m ((c.tc : Thread nD τ).loc main_arg0)) (m ((c.tc : Thread nD τ).loc main_arg3)))
        (norm (m ((c.tc : Thread nD τ).loc main_arg1)) (srcV (m ((c.tc : Thread nD τ).loc main_arg2))) (dstV (m ((c.tc : Thread nD τ).loc main_arg2)))) (invdeg (m ((c.tc : Thread nD τ).loc main_arg1)) (dstV (m ((c.tc : Thread nD τ).loc main_arg2))))
        (srcV (m ((c.tc : Thread nD τ).loc main_arg2))) (dstV (m ((c.tc : Thread nD τ).loc main_arg2))) (m ((c.tc : Thread nD τ).loc main_arg4)) := a_pre (launchContents m c)

theorem s2_out : V2 m c (Proc.devRef .tc main_v53) = y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (a_lk (V1 m c)).trans (congrArg rlk12 (s1_pre m c))

theorem s3_pre : V3 m c (Proc.devRef .tc main_v98)
    = rpre24 (Host.dotGeneral (φ₁ := .f32) (φ₂ := .f32) dot_S100000x12_S12x24_S100000x24_1_0_0_1_n_n none (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)))
        (norm (m ((c.tc : Thread nD τ).loc main_arg1)) (srcV (m ((c.tc : Thread nD τ).loc main_arg2))) (dstV (m ((c.tc : Thread nD τ).loc main_arg2)))) (invdeg (m ((c.tc : Thread nD τ).loc main_arg1)) (dstV (m ((c.tc : Thread nD τ).loc main_arg2))))
        (srcV (m ((c.tc : Thread nD τ).loc main_arg2))) (dstV (m ((c.tc : Thread nD τ).loc main_arg2))) (m ((c.tc : Thread nD τ).loc main_arg6)) := by
  have key := b_pre (V2 m c)
  rw [s2_out, s2_arg1, s2_v1, s2_v3, s2_arg5, s2_arg6] at key
  exact key

theorem s4_out : V4 m c (Proc.devRef .tc main_v103) = y2 (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6)) :=
  (b_lk (V3 m c)).trans (congrArg rlk24 (s3_pre m c))

theorem s5_pre : V5 m c (Proc.devRef .tc main_v148)
    = rpre48 (Host.dotGeneral (φ₁ := .f32) (φ₂ := .f32) dot_S100000x24_S24x48_S100000x48_1_0_0_1_n_n none (y2 (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg7)))
        (norm (m ((c.tc : Thread nD τ).loc main_arg1)) (srcV (m ((c.tc : Thread nD τ).loc main_arg2))) (dstV (m ((c.tc : Thread nD τ).loc main_arg2)))) (invdeg (m ((c.tc : Thread nD τ).loc main_arg1)) (dstV (m ((c.tc : Thread nD τ).loc main_arg2))))
        (srcV (m ((c.tc : Thread nD τ).loc main_arg2))) (dstV (m ((c.tc : Thread nD τ).loc main_arg2))) (m ((c.tc : Thread nD τ).loc main_arg8)) := by
  have key := c_pre (V4 m c)
  rw [s4_out, s4_arg1, s4_v1, s4_v3, s4_arg7, s4_arg8] at key
  exact key

theorem s6_out : V6 m c (Proc.devRef .tc main_v153) = y3 (y2 (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8)) :=
  (c_lk (V5 m c)).trans (congrArg rlk48 (s5_pre m c))

/-- The reference's result: the head of the pooled third-layer matrix. -/
theorem result : after (Cert.ReferenceIdeal.RunP.ops (F := Ideal)) (launchContents m c) (Proc.devRef .tc main_v174)
    = head (shapeCast S1x48 (pool (y3 (y2 (y1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8)))) shapeCasts_S48_S1x48)
        (m ((c.tc : Thread nD τ).loc main_arg9)) (broadcastInDim S1x32 ![1] bcast_S32_S1x32_1 (m ((c.tc : Thread nD τ).loc main_arg10))) (m ((c.tc : Thread nD τ).loc main_arg11))
        (broadcastInDim S1x16 ![1] bcast_S16_S1x16_1 (m ((c.tc : Thread nD τ).loc main_arg12))) (m ((c.tc : Thread nD τ).loc main_arg13))
        (broadcastInDim S1x2 ![1] bcast_S2_S1x2_1 (m ((c.tc : Thread nD τ).loc main_arg14))) := by
  rw [ops_split, Cert.Lib.AfterAppend.after_append, Cert.Lib.AfterAppend.after_append, Cert.Lib.AfterAppend.after_append,
    Cert.Lib.AfterAppend.after_append, Cert.Lib.AfterAppend.after_append, Cert.Lib.AfterAppend.after_append]
  have key := d_out (V6 m c)
  rw [s6_out, s6_arg9, s6_arg10, s6_arg11, s6_arg12, s6_arg13, s6_arg14] at key
  exact key

end Cert.ReferenceIdeal.Value

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.LayerLaw.lean ====
/-
  The algebra behind the graph-convolution layer, on the extended reals.

  A layer combines, for every node i, the rows of its in-neighbours (a sum over the edges e that end at i of the
  row of the source g e scaled by the edge's coefficient n e) with its own row scaled by v i, and multiplies by a
  weight matrix.  Summing rows and scaling them commute with the product by the matrix, so the product may be taken
  before or after the aggregation — for REAL entries.  On the extended reals distributivity fails at the infinities,
  so the law is stated for entries that are real numbers, and the coefficients are shown to be real: the inverse
  square root and the reciprocal of a POSITIVE extended real (the infinity included) are real.
-/
import Idealize.ShloMosaic.PureOps.Ideal
import proofs.«146515_j84370337562865_2_alg».proof.Proof.LibERealSums

noncomputable section

namespace Cert.Gcn

open Idealize.ShloMosaic
open scoped BigOperators

/-- The extended real is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The inverse square root of a positive extended real is real: a positive real has a positive root, and the
    infinity goes to zero. -/
theorem isReal_rsqrt {x : EReal} (hx : 0 < x) : IsReal (Ideal.rsqrt x) := by
  induction x using EReal.rec with
  | bot => exact absurd hx (not_lt_bot)
  | top => exact ⟨0, rfl⟩
  | coe r =>
    have hr : 0 < r := by exact_mod_cast hx
    refine ⟨(Real.sqrt r)⁻¹, ?_⟩
    show (if r < 0 then (⊥ : EReal) else if r = 0 then ⊤ else ((Real.sqrt r)⁻¹ : ℝ)) = _
    rw [if_neg (not_lt.mpr hr.le), if_neg hr.ne']

/-- The reciprocal of a positive extended real is real: the infinity goes to zero. -/
theorem isReal_one_div {x : EReal} (hx : 0 < x) : IsReal (Ideal.div 1 x) := by
  unfold Ideal.div
  rw [if_neg hx.ne', one_mul]
  induction x using EReal.rec with
  | bot => exact absurd hx (not_lt_bot)
  | top => exact ⟨0, EReal.inv_top⟩
  | coe r => exact ⟨r⁻¹, (EReal.coe_inv r).symm⟩

/-- Aggregating the rows and then multiplying by a column of weights is multiplying first and aggregating the
    products: for real entries both are the same double sum. -/
theorem agg_then_mul {ι ε κ : Type*} [Fintype κ] (S : Finset ε) (X : ι → κ → EReal) (g : ε → ι) (n : ε → EReal)
    (i : ι) (v : EReal) (w : κ → EReal)
    (hX : ∀ p k, IsReal (X p k)) (hn : ∀ e, IsReal (n e)) (hv : IsReal v) (hw : ∀ k, IsReal (w k)) :
    ∑ k, (((0 : EReal) + ∑ e ∈ S, X (g e) k * n e) + X i k * v) * w k
      = ((0 : EReal) + ∑ e ∈ S, (∑ k, X (g e) k * w k) * n e) + (∑ k, X i k * w k) * v := by
  choose X' hX' using hX
  choose n' hn' using hn
  obtain ⟨v', rfl⟩ := hv
  choose w' hw' using hw
  simp only [hX', hn', hw', zero_add, ← EReal.coe_mul, Cert.Lib.ERealSums.coe_sum_real, ← EReal.coe_add]
  refine congrArg _ ?_
  simp only [add_mul, Finset.sum_add_distrib, Finset.sum_mul]
  rw [Finset.sum_comm]
  refine congrArg₂ _ (Finset.sum_congr rfl fun e _ => Finset.sum_congr rfl fun k _ => by ring)
    (Finset.sum_congr rfl fun k _ => by ring)

end Cert.Gcn

end
-- ==== Proof.PreFacts.lean ====
/-
  What the precondition says about the arguments.

  The precondition is a conjunction of fifteen scalar truth values: for each float argument, that every entry's
  absolute value is below +∞ — so the entry is a real number — and, last, that every node's degree (one plus the
  sum of the weights of the edges that end at it) is above zero.  Needed below: the node features, the edge
  weights, the three layers' weight matrices and the first two layers' biases are real, and the degrees positive.
-/
import proofs.«146515_j84370337562865_2_alg».proof.Pre_finite_inputs
import proofs.«146515_j84370337562865_2_alg».proof.Proof.Gen.Pre_finite_inputs
import proofs.«146515_j84370337562865_2_alg».proof.Proof.LayerLaw
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Pre_finite_inputs.Decode

open Idealize.ShloMosaic Idealize.ShloMosaic.ValueIdx Cert.Pre_finite_inputs Cert.Pre_finite_inputs.Gen Cert.Gcn

instance : Subsingleton S_.Idx := ⟨fun a b => funext fun d => d.elim0⟩

theorem top_word : Ideal.ofBits .f32 0x7F800000#32 = ⊤ := by simp [Ideal.ofBits, Ideal.ieee]

theorem lt_of_cmp_olt {a b : EReal} (h : Ideal.cmp .olt a b = 1#1) : a < b := by
  have h2 : BitVec.ofBool (decide (a < b)) = 1#1 := h
  by_contra hc
  rw [decide_eq_false hc] at h2
  exact absurd h2 (by decide)

theorem lt_of_cmp_ogt {a b : EReal} (h : Ideal.cmp .ogt a b = 1#1) : b < a := by
  have h2 : BitVec.ofBool (decide (b < a)) = 1#1 := h
  by_contra hc
  rw [decide_eq_false hc] at h2
  exact absurd h2 (by decide)

/-- An extended real whose absolute value is below +∞ is a real number. -/
theorem real_of_abs_lt (x : EReal)
    (h : Ideal.cmp .olt (max x (-x)) (Ideal.ofBits .f32 0x7F800000#32) = 1#1) : IsReal x := by
  rw [top_word] at h
  have h' := lt_of_cmp_olt h
  induction x using EReal.rec with
  | bot => simp at h'
  | top => simp at h'
  | coe r => exact ⟨r, rfl⟩

/-- The degrees as the precondition spells them. -/
def degP (x1 : FVec Ideal S3200000 .f32) (x2 : IVec S2x3200000 32) : FVec Ideal S100000 .f32 :=
  addf (Host.scatterAdd scatter_S100000_S3200000x1_S3200000_n_0_0_1
          (broadcastInDim S100000 ![] bcast_S_S100000 (constant S_ .f32 0x00000000#32))
          (broadcastInDim S3200000x1 ![0] bcast_S3200000_S3200000x1_0
            (shapeCast S3200000 (extractStridedSlice S1x3200000 ![1, 0] x2 slices_S2x3200000_S1x3200000_1_0)
              shapeCasts_S1x3200000_S3200000)) x1)
    (broadcastInDim S100000 ![] bcast_S_S100000 (constant S_ .f32 0x3F800000#32))

set_option maxRecDepth 100000 in
set_option maxHeartbeats 4000000 in
/-- The precondition's consequences for the arguments the layers read. -/
theorem facts (x0 : FVec Ideal S100000x4 .f32) (x1 : FVec Ideal S3200000 .f32) (x2 : IVec S2x3200000 32)
    (x3 : FVec Ideal S4x12 .f32) (x4 : FVec Ideal S12 .f32) (x5 : FVec Ideal S12x24 .f32) (x6 : FVec Ideal S24 .f32)
    (x7 : FVec Ideal S24x48 .f32) (x8 : FVec Ideal S48 .f32) (x9 : FVec Ideal S48x32 .f32) (x10 : FVec Ideal S32 .f32)
    (x11 : FVec Ideal S32x16 .f32) (x12 : FVec Ideal S16 .f32) (x13 : FVec Ideal S16x2 .f32) (x14 : FVec Ideal S2 .f32)
    (h : fn (F := Ideal) x0 x1 x2 x3 x4 x5 x6 x7 x8 x9 x10 x11 x12 x13 x14 = fun _ => 1#1) :
    (∀ i, IsReal (x0 i)) ∧ (∀ i, IsReal (x1 i)) ∧ (∀ i, IsReal (x3 i)) ∧ (∀ i, IsReal (x4 i)) ∧ (∀ i, IsReal (x5 i)) ∧ (∀ i, IsReal (x6 i)) ∧ (∀ i, IsReal (x7 i))
      ∧ (∀ i, (0 : EReal) < degP x1 x2 i) := by
  have e := congrFun h ix0
  simp only [fn, fn_part1, fn_part2, fn_part3, fn_part4, andi, IntOp.andi_eq_one] at e
  obtain ⟨⟨⟨⟨⟨⟨⟨⟨⟨⟨⟨⟨⟨⟨d0, d1⟩, d2⟩, d3⟩, d4⟩, d5⟩, d6⟩, -⟩, -⟩, -⟩, -⟩, -⟩, -⟩, -⟩, d14⟩ := e
  refine ⟨fun i => real_of_abs_lt _ (Host.reduce_andi_all _ _ _ _ ix0 d0 i),
    fun i => real_of_abs_lt _ (Host.reduce_andi_all _ _ _ _ ix0 d1 i),
    fun i => real_of_abs_lt _ (Host.reduce_andi_all _ _ _ _ ix0 d2 i),
    fun i => real_of_abs_lt _ (Host.reduce_andi_all _ _ _ _ ix0 d3 i),
    fun i => real_of_abs_lt _ (Host.reduce_andi_all _ _ _ _ ix0 d4 i),
    fun i => real_of_abs_lt _ (Host.reduce_andi_all _ _ _ _ ix0 d5 i),
    fun i => real_of_abs_lt _ (Host.reduce_andi_all _ _ _ _ ix0 d6 i), fun i => ?_⟩
  have h1 := Host.reduce_andi_all _ _ _ _ ix0 d14 i
  rw [cmpf_apply, Ideal.cmpf_def] at h1
  have h2 := lt_of_cmp_ogt h1
  rw [broadcastInDim_apply _ _ _ i (fun ax => ax.elim0) (fun ax => ax.elim0), constant_apply, Ideal.ofBits_zero_f32] at h2
  unfold degP
  exact h2

end Cert.Pre_finite_inputs.Decode

end
-- ==== Proof.LayerBridge.lean ====
/-
  The two orders of a graph-convolution layer agree, entry by entry, when the entries are real.

  With the aggregated matrix pre (i,k) = ∑_{e ∈ inEdges i} X (src e, k) · nrm e + X (i,k) · v i, the kernel's entry is
  leaky (∑_k pre (i,k) · W (k,j) + bias j); with H = X · W the reference's is
  leaky (∑_{e ∈ inEdges i} H (src e, j) · nrm e + H (i,j) · v i + bias j).  For real X, nrm, v and W the two arguments of
  the rectifier are the same double sum.  The common value is real when the bias is real too, which carries the
  hypothesis to the next layer.
-/
import proofs.«146515_j84370337562865_2_alg».proof.Proof.LayerLaw
import proofs.«146515_j84370337562865_2_alg».proof.Proof.LayerRead

noncomputable section

namespace Cert.Gcn

open Idealize.ShloMosaic Idealize.ShloMosaic.ValueIdx Cert.Lib.GatherScatter
open scoped BigOperators

variable {N E a b w : Nat}

/-- A splat of an f32 word reads the word's value everywhere. -/
theorem splat_apply {s : Shape} (h : (⟨0, ![]⟩ : Shape).BroadcastsInDim s ![]) (word : BitVec 32) (i : s.Idx) :
    broadcastInDim s ![] h (constant (F := Ideal) ⟨0, ![]⟩ .f32 word) i = Ideal.ofBits .f32 word := by
  rw [broadcastInDim_apply _ h _ i (fun ax => ax.elim0) (fun ax => ax.elim0), constant_apply]

/-- The leaky rectifier of a matrix, read at an index, is the rectifier of the entry. -/
theorem leaky_apply {s : Shape} (h : (⟨0, ![]⟩ : Shape).BroadcastsInDim s ![]) (z : FVec Ideal s .f32) (i : s.Idx) :
    select (cmpf .oge z (broadcastInDim s ![] h (constant (F := Ideal) ⟨0, ![]⟩ .f32 0x00000000#32))) z
        (mulf (broadcastInDim s ![] h (constant (F := Ideal) ⟨0, ![]⟩ .f32 0x3DCCCCCD#32)) z) i
      = leaky (z i) := by
  rw [select_apply, cmpf_apply, mulf_apply, splat_apply, splat_apply]
  rfl

/-- The word 0x3DCCCCCD denotes a real number (a normal binade: neither an infinity nor a NaN pattern). -/
theorem tenth_real : IsReal (Ideal.ofBits .f32 0x3DCCCCCD#32) := by
  show IsReal (Ideal.ieee 8 23 (0x3DCCCCCD#32 : BitVec 32))
  unfold Ideal.ieee
  dsimp only
  rw [if_neg (by decide), if_neg (by decide)]
  exact ⟨_, rfl⟩

/-- The leaky rectifier of a real is real. -/
theorem leaky_real {z : EReal} (hz : IsReal z) : IsReal (leaky z) := by
  unfold leaky Scalar.select
  split
  · exact hz
  · exact tenth_real.mul hz

section Layer
variable (hN : 0 < N) (src dst : IVec ⟨2, ![E, 1]⟩ w) (X : (⟨2, ![N, a]⟩ : Shape).Idx → EReal)
  (Wt : (⟨2, ![a, b]⟩ : Shape).Idx → EReal) (nrm : (⟨1, ![E]⟩ : Shape).Idx → EReal) (v : (⟨1, ![N]⟩ : Shape).Idx → EReal)
  (bias : (⟨1, ![b]⟩ : Shape).Idx → EReal)

/-- Aggregate-then-transform equals transform-then-aggregate at `(i, j)`. -/
theorem layer_orders (hX : ∀ i, IsReal (X i)) (hn : ∀ e, IsReal (nrm e)) (hv : ∀ i, IsReal (v i)) (hW : ∀ i, IsReal (Wt i))
    (i : Fin N) (j : Fin b) :
    leaky ((∑ k : Fin a, (((0 : EReal) + ∑ e ∈ inEdges dst i, X (ix2 (gatherRow hN src e) k) * nrm (ix1 e))
              + X (ix2 i k) * v (ix1 i)) * Wt (ix2 k j)) + bias (ix1 j))
      = leaky ((((0 : EReal) + ∑ e ∈ inEdges dst i, (∑ k : Fin a, X (ix2 (gatherRow hN src e) k) * Wt (ix2 k j)) * nrm (ix1 e))
              + (∑ k : Fin a, X (ix2 i k) * Wt (ix2 k j)) * v (ix1 i)) + bias (ix1 j)) :=
  congrArg leaky (congrArg (· + bias (ix1 j))
    (agg_then_mul (inEdges dst i) (fun p k => X (ix2 p k)) (gatherRow hN src) (fun e => nrm (ix1 e)) i (v (ix1 i))
      (fun k => Wt (ix2 k j)) (fun p k => hX _) (fun e => hn _) (hv _) (fun k => hW _)))

/-- The layer's entry is real when the bias is real too. -/
theorem layer_real (hX : ∀ i, IsReal (X i)) (hn : ∀ e, IsReal (nrm e)) (hv : ∀ i, IsReal (v i)) (hW : ∀ i, IsReal (Wt i))
    (hb : ∀ i, IsReal (bias i)) (i : Fin N) (j : Fin b) :
    IsReal (leaky ((((0 : EReal) + ∑ e ∈ inEdges dst i, (∑ k : Fin a, X (ix2 (gatherRow hN src e) k) * Wt (ix2 k j)) * nrm (ix1 e))
              + (∑ k : Fin a, X (ix2 i k) * Wt (ix2 k j)) * v (ix1 i)) + bias (ix1 j))) :=
  leaky_real (((IsReal.zero.add (IsReal.sum _ _ fun e _ => (IsReal.sum _ _ fun k _ => (hX _).mul (hW _)).mul (hn _))).add
    ((IsReal.sum _ _ fun k _ => (hX _).mul (hW _)).mul (hv _))).add (hb _))

end Layer

end Cert.Gcn

end
-- ==== Proof.BridgeCommon.lean ====
/-
  What the two idealized programs share, and what the precondition gives about it.

  Both programs compute the degrees, the edge coefficients and the self-loop coefficients by the same operations, so
  the two spellings are one function.  With positive degrees the inverse square roots and the reciprocals are real,
  so with real edge weights every edge coefficient is real.  The two heads differ only in how a vector is laid out as
  a row (a reshape against a broadcast along the row axis), which is the same array.
-/
import proofs.«146515_j84370337562865_2_alg».proof.Proof.KernelLayers
import proofs.«146515_j84370337562865_2_alg».proof.Proof.RefHost
import proofs.«146515_j84370337562865_2_alg».proof.Proof.LayerBridge
import proofs.«146515_j84370337562865_2_alg».proof.Proof.LibRowBroadcasts

set_option maxRecDepth 16384

noncomputable section

namespace Cert.Bridge

open Idealize.ShloMosaic Idealize.ShloMosaic.ValueIdx Cert.Gcn Cert.Lib.GatherScatter
open scoped BigOperators

abbrev EVec := FVec Ideal (⟨1, ![3200000]⟩ : Shape) .f32
abbrev EIdx := IVec (⟨1, ![3200000]⟩ : Shape) 32
abbrev EList := IVec (⟨2, ![2, 3200000]⟩ : Shape) 32

/-! ## The coefficients are real -/

/-- The word 0x3F800000 denotes a real number (a normal binade). -/
theorem one_word_real : IsReal (Ideal.ofBits .f32 0x3F800000#32) := by
  show IsReal (Ideal.ieee 8 23 (0x3F800000#32 : BitVec 32))
  unfold Ideal.ieee
  dsimp only
  rw [if_neg (by decide), if_neg (by decide)]
  exact ⟨_, rfl⟩

/-- A real divided by a positive extended real (the infinity included) is real. -/
theorem isReal_div {a x : EReal} (ha : IsReal a) (hx : 0 < x) : IsReal (Ideal.div a x) := by
  unfold Ideal.div
  rw [if_neg hx.ne']
  obtain ⟨a', rfl⟩ := ha
  induction x using EReal.rec with
  | bot => exact absurd hx not_lt_bot
  | top => rw [EReal.inv_top, mul_zero]; exact IsReal.zero
  | coe r => exact ⟨a' * r⁻¹, by rw [← EReal.coe_inv, ← EReal.coe_mul]⟩

/-! Each fact holds of any arrays; below it is used at the programs' arrays. -/

theorem host_rsqrt_real {s : Shape} (x : FVec Ideal s .f32) (i : s.Idx) (h : (0 : EReal) < x i) :
    IsReal (Host.rsqrt x i) := isReal_rsqrt h

theorem host_div_real {s : Shape} (a x : FVec Ideal s .f32) (i : s.Idx) (ha : IsReal (a i)) (h : (0 : EReal) < x i) :
    IsReal (Host.divf a x i) := isReal_div ha h

theorem mul3_real {s : Shape} (g1 w g2 : FVec Ideal s .f32) (i : s.Idx) (h1 : IsReal (g1 i)) (hw : IsReal (w i))
    (h2 : IsReal (g2 i)) : IsReal (mulf (mulf g1 w) g2 i) := (h1.mul hw).mul h2

theorem gather_real {N R w : Nat} (hN : 0 < N)
    (wf : GatherDims.WF ⟨1, ![N]⟩ ⟨2, ![R, 1]⟩ ⟨1, ![R]⟩ [] [0] [] [0] [] 1 ![1])
    (x : FVec Ideal ⟨1, ![N]⟩ .f32) (idx : IVec ⟨2, ![R, 1]⟩ w) (hx : ∀ j, IsReal (x j)) (e : Fin R) :
    IsReal (Host.gather (vecGatherDims N R wf) x idx (ix1 e)) := by
  rw [vecGather_apply hN]
  exact hx _

theorem one_splat_real {s : Shape} (h : (⟨0, ![]⟩ : Shape).BroadcastsInDim s ![]) (i : s.Idx) :
    IsReal (broadcastInDim s ![] h (constant (F := Ideal) ⟨0, ![]⟩ .f32 0x3F800000#32) i) := by
  rw [splat_apply]
  exact one_word_real

section Coefficients
variable (ew : EVec) (s d : EIdx) (hew : ∀ e, IsReal (ew e)) (hdeg : ∀ i, (0 : EReal) < Cert.ReferenceIdeal.Fold.Pure.deg ew d i)
include hdeg

theorem dinv_real (i : (⟨1, ![100000]⟩ : Shape).Idx) : IsReal (Cert.ReferenceIdeal.Fold.Pure.dinv ew d i) :=
  host_rsqrt_real (Cert.ReferenceIdeal.Fold.Pure.deg ew d) i (hdeg i)

theorem invdeg_real (i : (⟨1, ![100000]⟩ : Shape).Idx) : IsReal (Cert.ReferenceIdeal.Fold.Pure.invdeg ew d i) :=
  host_div_real _ (Cert.ReferenceIdeal.Fold.Pure.deg ew d) i (one_splat_real Cert.ReferenceIdeal.Gen.bcast_S_S100000 i) (hdeg i)

include hew in
theorem norm_real (e : (⟨1, ![3200000]⟩ : Shape).Idx) : IsReal (Cert.ReferenceIdeal.Fold.Pure.norm ew s d e) := by
  obtain ⟨e', rfl⟩ : ∃ e' : Fin 3200000, e = ix1 e' := ⟨e 0, eq_ix1 e⟩
  exact mul3_real _ ew _ (ix1 e')
    (gather_real (N := 100000) (R := 3200000) (w := 32) (by norm_num) _ (Cert.ReferenceIdeal.Fold.Pure.dinv ew d) _
      (dinv_real ew d hdeg) e')
    (hew _)
    (gather_real (N := 100000) (R := 3200000) (w := 32) (by norm_num) _ (Cert.ReferenceIdeal.Fold.Pure.dinv ew d) _
      (dinv_real ew d hdeg) e')

end Coefficients

end Cert.Bridge

end
-- ==== Proof.BridgeL1.lean ====
/-
  The first layer: the kernel's order (aggregate, then the dense transform in the launch) and the reference's order
  (transform, then aggregate) give the same node matrix when the node features, the edge weights and the weight
  matrix are real and the degrees positive; and that matrix is real when the bias is real too.
-/
import proofs.«146515_j84370337562865_2_alg».proof.Proof.BridgeCommon

set_option maxRecDepth 16384

noncomputable section

namespace Cert.Bridge.Layer1

open Idealize.ShloMosaic Idealize.ShloMosaic.ValueIdx Cert.Gcn Cert.Lib.GatherScatter Cert.Bridge
open scoped BigOperators

variable (X : FVec Ideal (⟨2, ![100000, 4]⟩ : Shape) .f32) (ew : EVec) (ei : EList)
  (wt : FVec Ideal (⟨2, ![4, 12]⟩ : Shape) .f32) (bias : FVec Ideal (⟨1, ![12]⟩ : Shape) .f32)

/-- The reference's entry at (p, q), read. -/
theorem ref_apply (p : Fin 100000) (q : Fin 12) :
    Cert.ReferenceIdeal.Value.y1 X ew ei wt bias (ix2 p q)
      = leaky ((((0 : EReal) + ∑ e ∈ inEdges (N := 100000) (Cert.ReferenceIdeal.Fold.Pure.col (Cert.ReferenceIdeal.Fold.Pure.dstV ei)) p,
            (∑ k : Fin 4, X (ix2 (gatherRow (N := 100000) (by norm_num) (Cert.ReferenceIdeal.Fold.Pure.col (Cert.ReferenceIdeal.Fold.Pure.wrap (Cert.ReferenceIdeal.Fold.Pure.srcV ei))) e) k) * wt (ix2 k q))
              * Cert.ReferenceIdeal.Fold.Pure.norm ew (Cert.ReferenceIdeal.Fold.Pure.srcV ei) (Cert.ReferenceIdeal.Fold.Pure.dstV ei) (ix1 e))
          + (∑ k : Fin 4, X (ix2 p k) * wt (ix2 k q)) * Cert.ReferenceIdeal.Fold.Pure.invdeg ew (Cert.ReferenceIdeal.Fold.Pure.dstV ei) (ix1 p)) + bias (ix1 q)) := by
  unfold Cert.ReferenceIdeal.Value.y1
  refine (leaky_apply Cert.ReferenceIdeal.Gen.bcast_S_S100000x12 _ (ix2 p q)).trans (congrArg leaky ?_)
  exact transformed_aggregate_apply (N := 100000) (E := 3200000) (a := 4) (b := 12) (w := 32) (by norm_num) _ _ _ _ _ _ _ _ _ _
    X wt _ _ _ _ bias p q

/-- The kernel's entry at (p, q), read. -/
theorem ker_apply (p : Fin 100000) (q : Fin 12) :
    Cert.KernelIdeal.Value.x1 X ew ei wt bias (ix2 p q)
      = leaky ((∑ k : Fin 4, (((0 : EReal) + ∑ e ∈ inEdges (N := 100000) (Cert.ReferenceIdeal.Fold.Pure.col (Cert.ReferenceIdeal.Fold.Pure.dstV ei)) p,
              X (ix2 (gatherRow (N := 100000) (by norm_num) (Cert.ReferenceIdeal.Fold.Pure.col (Cert.ReferenceIdeal.Fold.Pure.wrap (Cert.ReferenceIdeal.Fold.Pure.srcV ei))) e) k)
                * Cert.ReferenceIdeal.Fold.Pure.norm ew (Cert.ReferenceIdeal.Fold.Pure.srcV ei) (Cert.ReferenceIdeal.Fold.Pure.dstV ei) (ix1 e))
            + X (ix2 p k) * Cert.ReferenceIdeal.Fold.Pure.invdeg ew (Cert.ReferenceIdeal.Fold.Pure.dstV ei) (ix1 p)) * wt (ix2 k q)) + bias (ix1 q)) := by
  unfold Cert.KernelIdeal.Value.x1
  refine (Cert.KernelIdeal.Region0.dense_apply _ _ _ (ix2 p q)).trans (congrArg leaky ?_)
  refine congrArg₂ (· + ·) (Finset.sum_congr rfl fun k _ => congrArg₂ (· * ·) ?_ rfl) ?_
  · refine (aggregate_apply (N := 100000) (E := 3200000) (a := 4) (w := 32) (by norm_num) _ _ _ _ _ _ X _ _ _ _ p k).trans ?_
    refine congrArg₂ (· + ·) rfl (congrArg₂ (· * ·) rfl ?_)
    exact Cert.Lib.Keepdims.col_apply _ _ p 0
  · refine (congrFun (Cert.Lib.Rows.castRow_eq_dimRow bias _ Cert.ReferenceIdeal.Gen.bcast_S12_S1x12_1) _).trans ?_
    exact rowOf_apply bias _ 0 q

variable (hX : ∀ i, IsReal (X i)) (hew : ∀ e, IsReal (ew e)) (hW : ∀ i, IsReal (wt i))
  (hdeg : ∀ i, (0 : EReal) < Cert.ReferenceIdeal.Fold.Pure.deg ew (Cert.ReferenceIdeal.Fold.Pure.dstV ei) i)
include hX hew hW hdeg

/-- The two orders give the same matrix. -/
theorem orders : Cert.KernelIdeal.Value.x1 X ew ei wt bias = Cert.ReferenceIdeal.Value.y1 X ew ei wt bias := by
  funext i
  obtain ⟨p, q, rfl⟩ : ∃ (p : Fin 100000) (q : Fin 12), i = ix2 p q := ⟨i 0, i 1, eq_ix2 i⟩
  rw [ker_apply, ref_apply]
  exact layer_orders (N := 100000) (by norm_num) _ _ X wt _ _ bias hX (norm_real ew _ _ hew hdeg) (invdeg_real ew _ hdeg) hW p q

/-- The matrix is real when the bias is. -/
theorem real (hb : ∀ i, IsReal (bias i)) (i : (⟨2, ![100000, 12]⟩ : Shape).Idx) :
    IsReal (Cert.ReferenceIdeal.Value.y1 X ew ei wt bias i) := by
  obtain ⟨p, q, rfl⟩ : ∃ (p : Fin 100000) (q : Fin 12), i = ix2 p q := ⟨i 0, i 1, eq_ix2 i⟩
  rw [ref_apply]
  exact layer_real (N := 100000) (by norm_num) _ _ X wt _ _ bias hX (norm_real ew _ _ hew hdeg) (invdeg_real ew _ hdeg) hW hb p q

end Cert.Bridge.Layer1

end
-- ==== Proof.BridgeL2.lean ====
/-
  The second layer: the kernel's order (aggregate, then the dense transform in the launch) and the reference's order
  (transform, then aggregate) give the same node matrix when the node features, the edge weights and the weight
  matrix are real and the degrees positive; and that matrix is real when the bias is real too.
-/
import proofs.«146515_j84370337562865_2_alg».proof.Proof.BridgeCommon

set_option maxRecDepth 16384

noncomputable section

namespace Cert.Bridge.Layer2

open Idealize.ShloMosaic Idealize.ShloMosaic.ValueIdx Cert.Gcn Cert.Lib.GatherScatter Cert.Bridge
open scoped BigOperators

variable (X : FVec Ideal (⟨2, ![100000, 12]⟩ : Shape) .f32) (ew : EVec) (ei : EList)
  (wt : FVec Ideal (⟨2, ![12, 24]⟩ : Shape) .f32) (bias : FVec Ideal (⟨1, ![24]⟩ : Shape) .f32)

/-- The reference's entry at (p, q), read. -/
theorem ref_apply (p : Fin 100000) (q : Fin 24) :
    Cert.ReferenceIdeal.Value.y2 X ew ei wt bias (ix2 p q)
      = leaky ((((0 : EReal) + ∑ e ∈ inEdges (N := 100000) (Cert.ReferenceIdeal.Fold.Pure.col (Cert.ReferenceIdeal.Fold.Pure.dstV ei)) p,
            (∑ k : Fin 12, X (ix2 (gatherRow (N := 100000) (by norm_num) (Cert.ReferenceIdeal.Fold.Pure.col (Cert.ReferenceIdeal.Fold.Pure.wrap (Cert.ReferenceIdeal.Fold.Pure.srcV ei))) e) k) * wt (ix2 k q))
              * Cert.ReferenceIdeal.Fold.Pure.norm ew (Cert.ReferenceIdeal.Fold.Pure.srcV ei) (Cert.ReferenceIdeal.Fold.Pure.dstV ei) (ix1 e))
          + (∑ k : Fin 12, X (ix2 p k) * wt (ix2 k q)) * Cert.ReferenceIdeal.Fold.Pure.invdeg ew (Cert.ReferenceIdeal.Fold.Pure.dstV ei) (ix1 p)) + bias (ix1 q)) := by
  unfold Cert.ReferenceIdeal.Value.y2
  refine (leaky_apply Cert.ReferenceIdeal.Gen.bcast_S_S100000x24 _ (ix2 p q)).trans (congrArg leaky ?_)
  exact transformed_aggregate_apply (N := 100000) (E := 3200000) (a := 12) (b := 24) (w := 32) (by norm_num) _ _ _ _ _ _ _ _ _ _
    X wt _ _ _ _ bias p q

/-- The kernel's entry at (p, q), read. -/
theorem ker_apply (p : Fin 100000) (q : Fin 24) :
    Cert.KernelIdeal.Value.x2 X ew ei wt bias (ix2 p q)
      = leaky ((∑ k : Fin 12, (((0 : EReal) + ∑ e ∈ inEdges (N := 100000) (Cert.ReferenceIdeal.Fold.Pure.col (Cert.ReferenceIdeal.Fold.Pure.dstV ei)) p,
              X (ix2 (gatherRow (N := 100000) (by norm_num) (Cert.ReferenceIdeal.Fold.Pure.col (Cert.ReferenceIdeal.Fold.Pure.wrap (Cert.ReferenceIdeal.Fold.Pure.srcV ei))) e) k)
                * Cert.ReferenceIdeal.Fold.Pure.norm ew (Cert.ReferenceIdeal.Fold.Pure.srcV ei) (Cert.ReferenceIdeal.Fold.Pure.dstV ei) (ix1 e))
            + X (ix2 p k) * Cert.ReferenceIdeal.Fold.Pure.invdeg ew (Cert.ReferenceIdeal.Fold.Pure.dstV ei) (ix1 p)) * wt (ix2 k q)) + bias (ix1 q)) := by
  unfold Cert.KernelIdeal.Value.x2
  refine (Cert.KernelIdeal.Region1.dense_apply _ _ _ (ix2 p q)).trans (congrArg leaky ?_)
  refine congrArg₂ (· + ·) (Finset.sum_congr rfl fun k _ => congrArg₂ (· * ·) ?_ rfl) ?_
  · refine (aggregate_apply (N := 100000) (E := 3200000) (a := 12) (w := 32) (by norm_num) _ _ _ _ _ _ X _ _ _ _ p k).trans ?_
    refine congrArg₂ (· + ·) rfl (congrArg₂ (· * ·) rfl ?_)
    exact Cert.Lib.Keepdims.col_apply _ _ p 0
  · refine (congrFun (Cert.Lib.Rows.castRow_eq_dimRow bias _ Cert.ReferenceIdeal.Gen.bcast_S24_S1x24_1) _).trans ?_
    exact rowOf_apply bias _ 0 q

variable (hX : ∀ i, IsReal (X i)) (hew : ∀ e, IsReal (ew e)) (hW : ∀ i, IsReal (wt i))
  (hdeg : ∀ i, (0 : EReal) < Cert.ReferenceIdeal.Fold.Pure.deg ew (Cert.ReferenceIdeal.Fold.Pure.dstV ei) i)
include hX hew hW hdeg

/-- The two orders give the same matrix. -/
theorem orders : Cert.KernelIdeal.Value.x2 X ew ei wt bias = Cert.ReferenceIdeal.Value.y2 X ew ei wt bias := by
  funext i
  obtain ⟨p, q, rfl⟩ : ∃ (p : Fin 100000) (q : Fin 24), i = ix2 p q := ⟨i 0, i 1, eq_ix2 i⟩
  rw [ker_apply, ref_apply]
  exact layer_orders (N := 100000) (by norm_num) _ _ X wt _ _ bias hX (norm_real ew _ _ hew hdeg) (invdeg_real ew _ hdeg) hW p q

/-- The matrix is real when the bias is. -/
theorem real (hb : ∀ i, IsReal (bias i)) (i : (⟨2, ![100000, 24]⟩ : Shape).Idx) :
    IsReal (Cert.ReferenceIdeal.Value.y2 X ew ei wt bias i) := by
  obtain ⟨p, q, rfl⟩ : ∃ (p : Fin 100000) (q : Fin 24), i = ix2 p q := ⟨i 0, i 1, eq_ix2 i⟩
  rw [ref_apply]
  exact layer_real (N := 100000) (by norm_num) _ _ X wt _ _ bias hX (norm_real ew _ _ hew hdeg) (invdeg_real ew _ hdeg) hW hb p q

end Cert.Bridge.Layer2

end
-- ==== Proof.BridgeL3.lean ====
/-
  The third layer: the kernel's order (aggregate, then the dense transform in the launch) and the reference's order
  (transform, then aggregate) give the same node matrix when the node features, the edge weights and the weight
  matrix are real and the degrees positive; and that matrix is real when the bias is real too.
-/
import proofs.«146515_j84370337562865_2_alg».proof.Proof.BridgeCommon

set_option maxRecDepth 16384

noncomputable section

namespace Cert.Bridge.Layer3

open Idealize.ShloMosaic Idealize.ShloMosaic.ValueIdx Cert.Gcn Cert.Lib.GatherScatter Cert.Bridge
open scoped BigOperators

variable (X : FVec Ideal (⟨2, ![100000, 24]⟩ : Shape) .f32) (ew : EVec) (ei : EList)
  (wt : FVec Ideal (⟨2, ![24, 48]⟩ : Shape) .f32) (bias : FVec Ideal (⟨1, ![48]⟩ : Shape) .f32)

/-- The reference's entry at (p, q), read. -/
theorem ref_apply (p : Fin 100000) (q : Fin 48) :
    Cert.ReferenceIdeal.Value.y3 X ew ei wt bias (ix2 p q)
      = leaky ((((0 : EReal) + ∑ e ∈ inEdges (N := 100000) (Cert.ReferenceIdeal.Fold.Pure.col (Cert.ReferenceIdeal.Fold.Pure.dstV ei)) p,
            (∑ k : Fin 24, X (ix2 (gatherRow (N := 100000) (by norm_num) (Cert.ReferenceIdeal.Fold.Pure.col (Cert.ReferenceIdeal.Fold.Pure.wrap (Cert.ReferenceIdeal.Fold.Pure.srcV ei))) e) k) * wt (ix2 k q))
              * Cert.ReferenceIdeal.Fold.Pure.norm ew (Cert.ReferenceIdeal.Fold.Pure.srcV ei) (Cert.ReferenceIdeal.Fold.Pure.dstV ei) (ix1 e))
          + (∑ k : Fin 24, X (ix2 p k) * wt (ix2 k q)) * Cert.ReferenceIdeal.Fold.Pure.invdeg ew (Cert.ReferenceIdeal.Fold.Pure.dstV ei) (ix1 p)) + bias (ix1 q)) := by
  unfold Cert.ReferenceIdeal.Value.y3
  refine (leaky_apply Cert.ReferenceIdeal.Gen.bcast_S_S100000x48 _ (ix2 p q)).trans (congrArg leaky ?_)
  exact transformed_aggregate_apply (N := 100000) (E := 3200000) (a := 24) (b := 48) (w := 32) (by norm_num) _ _ _ _ _ _ _ _ _ _
    X wt _ _ _ _ bias p q

/-- The kernel's entry at (p, q), read. -/
theorem ker_apply (p : Fin 100000) (q : Fin 48) :
    Cert.KernelIdeal.Value.x3 X ew ei wt bias (ix2 p q)
      = leaky ((∑ k : Fin 24, (((0 : EReal) + ∑ e ∈ inEdges (N := 100000) (Cert.ReferenceIdeal.Fold.Pure.col (Cert.ReferenceIdeal.Fold.Pure.dstV ei)) p,
              X (ix2 (gatherRow (N := 100000) (by norm_num) (Cert.ReferenceIdeal.Fold.Pure.col (Cert.ReferenceIdeal.Fold.Pure.wrap (Cert.ReferenceIdeal.Fold.Pure.srcV ei))) e) k)
                * Cert.ReferenceIdeal.Fold.Pure.norm ew (Cert.ReferenceIdeal.Fold.Pure.srcV ei) (Cert.ReferenceIdeal.Fold.Pure.dstV ei) (ix1 e))
            + X (ix2 p k) * Cert.ReferenceIdeal.Fold.Pure.invdeg ew (Cert.ReferenceIdeal.Fold.Pure.dstV ei) (ix1 p)) * wt (ix2 k q)) + bias (ix1 q)) := by
  unfold Cert.KernelIdeal.Value.x3
  refine (Cert.KernelIdeal.Region2.dense_apply _ _ _ (ix2 p q)).trans (congrArg leaky ?_)
  refine congrArg₂ (· + ·) (Finset.sum_congr rfl fun k _ => congrArg₂ (· * ·) ?_ rfl) ?_
  · refine (aggregate_apply (N := 100000) (E := 3200000) (a := 24) (w := 32) (by norm_num) _ _ _ _ _ _ X _ _ _ _ p k).trans ?_
    refine congrArg₂ (· + ·) rfl (congrArg₂ (· * ·) rfl ?_)
    exact Cert.Lib.Keepdims.col_apply _ _ p 0
  · refine (congrFun (Cert.Lib.Rows.castRow_eq_dimRow bias _ Cert.ReferenceIdeal.Gen.bcast_S48_S1x48_1) _).trans ?_
    exact rowOf_apply bias _ 0 q

variable (hX : ∀ i, IsReal (X i)) (hew : ∀ e, IsReal (ew e)) (hW : ∀ i, IsReal (wt i))
  (hdeg : ∀ i, (0 : EReal) < Cert.ReferenceIdeal.Fold.Pure.deg ew (Cert.ReferenceIdeal.Fold.Pure.dstV ei) i)
include hX hew hW hdeg

/-- The two orders give the same matrix. -/
theorem orders : Cert.KernelIdeal.Value.x3 X ew ei wt bias = Cert.ReferenceIdeal.Value.y3 X ew ei wt bias := by
  funext i
  obtain ⟨p, q, rfl⟩ : ∃ (p : Fin 100000) (q : Fin 48), i = ix2 p q := ⟨i 0, i 1, eq_ix2 i⟩
  rw [ker_apply, ref_apply]
  exact layer_orders (N := 100000) (by norm_num) _ _ X wt _ _ bias hX (norm_real ew _ _ hew hdeg) (invdeg_real ew _ hdeg) hW p q

/-- The matrix is real when the bias is. -/
theorem real (hb : ∀ i, IsReal (bias i)) (i : (⟨2, ![100000, 48]⟩ : Shape).Idx) :
    IsReal (Cert.ReferenceIdeal.Value.y3 X ew ei wt bias i) := by
  obtain ⟨p, q, rfl⟩ : ∃ (p : Fin 100000) (q : Fin 48), i = ix2 p q := ⟨i 0, i 1, eq_ix2 i⟩
  rw [ref_apply]
  exact layer_real (N := 100000) (by norm_num) _ _ X wt _ _ bias hX (norm_real ew _ _ hew hdeg) (invdeg_real ew _ hdeg) hW hb p q

end Cert.Bridge.Layer3

end
-- ==== Proof.BridgeHead.lean ====
/-
  The two heads: they differ only in how a vector is laid out as a row (a reshape against a broadcast along the row
  axis), which is the same array; the pooling is the same reduction.
-/
import proofs.«146515_j84370337562865_2_alg».proof.Proof.BridgeCommon
import proofs.«146515_j84370337562865_2_alg».proof.Proof.RefHost
import proofs.«146515_j84370337562865_2_alg».proof.Proof.LayerBridge
import proofs.«146515_j84370337562865_2_alg».proof.Proof.LibRowBroadcasts

set_option maxRecDepth 16384

noncomputable section

namespace Cert.Bridge

open Idealize.ShloMosaic Idealize.ShloMosaic.ValueIdx Cert.Gcn Cert.Lib.GatherScatter
open scoped BigOperators

/-! ## The heads -/

/-- The kernel's head (pooled row by a broadcast, biases by reshapes) is the reference's (pooled row by a reshape,
    biases by broadcasts). -/
theorem head_eq (g : FVec Ideal (⟨1, ![48]⟩ : Shape) .f32) (w1 : FVec Ideal (⟨2, ![48, 32]⟩ : Shape) .f32)
    (b1 : FVec Ideal (⟨1, ![32]⟩ : Shape) .f32) (w2 : FVec Ideal (⟨2, ![32, 16]⟩ : Shape) .f32)
    (b2 : FVec Ideal (⟨1, ![16]⟩ : Shape) .f32) (w3 : FVec Ideal (⟨2, ![16, 2]⟩ : Shape) .f32)
    (b3 : FVec Ideal (⟨1, ![2]⟩ : Shape) .f32) :
    Cert.KernelIdeal.Pure.head (broadcastInDim _ ![1] Cert.KernelIdeal.Gen.bcast_S48_S1x48_1 g) w1
        (shapeCast _ b1 Cert.KernelIdeal.Gen.shapeCasts_S32_S1x32) w2
        (shapeCast _ b2 Cert.KernelIdeal.Gen.shapeCasts_S16_S1x16) w3
        (shapeCast _ b3 Cert.KernelIdeal.Gen.shapeCasts_S2_S1x2)
      = Cert.ReferenceIdeal.Fold.Pure.head (shapeCast _ g Cert.ReferenceIdeal.Gen.shapeCasts_S48_S1x48) w1
        (broadcastInDim _ ![1] Cert.ReferenceIdeal.Gen.bcast_S32_S1x32_1 b1) w2
        (broadcastInDim _ ![1] Cert.ReferenceIdeal.Gen.bcast_S16_S1x16_1 b2) w3
        (broadcastInDim _ ![1] Cert.ReferenceIdeal.Gen.bcast_S2_S1x2_1 b3) := by
  rw [Cert.Lib.Rows.castRow_eq_dimRow b1 Cert.KernelIdeal.Gen.shapeCasts_S32_S1x32 Cert.ReferenceIdeal.Gen.bcast_S32_S1x32_1,
    Cert.Lib.Rows.castRow_eq_dimRow b2 Cert.KernelIdeal.Gen.shapeCasts_S16_S1x16 Cert.ReferenceIdeal.Gen.bcast_S16_S1x16_1,
    Cert.Lib.Rows.castRow_eq_dimRow b3 Cert.KernelIdeal.Gen.shapeCasts_S2_S1x2 Cert.ReferenceIdeal.Gen.bcast_S2_S1x2_1,
    Cert.Lib.Rows.castRow_eq_dimRow g Cert.ReferenceIdeal.Gen.shapeCasts_S48_S1x48 Cert.KernelIdeal.Gen.bcast_S48_S1x48_1]
  rfl

/-- The two programs pool by the same reduction. -/
theorem pool_eq (X : FVec Ideal (⟨2, ![100000, 48]⟩ : Shape) .f32) :
    Cert.KernelIdeal.Pure.pool X = Cert.ReferenceIdeal.Fold.Pure.pool X := rfl

end Cert.Bridge

end
-- ==== Proof.Final.lean ====
/-
  The two idealized programs return the same array.

  Under the precondition the node features, the edge weights, the layers' weights and the first two biases are real
  and the degrees positive.  Then the first layer's two orders agree and give a real matrix, so the second layer's
  agree on it and give a real matrix, so the third's agree; the pooled rows and the heads are the same functions.
-/
import proofs.«146515_j84370337562865_2_alg».proof.Proof.BridgeL1
import proofs.«146515_j84370337562865_2_alg».proof.Proof.BridgeL2
import proofs.«146515_j84370337562865_2_alg».proof.Proof.BridgeL3
import proofs.«146515_j84370337562865_2_alg».proof.Proof.BridgeHead

set_option maxRecDepth 16384

noncomputable section

namespace Cert.Bridge

open Idealize.ShloMosaic Idealize.ShloMosaic.ValueIdx Cert.Gcn

theorem results_eq (X0 : FVec Ideal (⟨2, ![100000, 4]⟩ : Shape) .f32) (ew : EVec) (ei : EList)
    (w1 : FVec Ideal (⟨2, ![4, 12]⟩ : Shape) .f32) (b1 : FVec Ideal (⟨1, ![12]⟩ : Shape) .f32) (w2 : FVec Ideal (⟨2, ![12, 24]⟩ : Shape) .f32) (b2 : FVec Ideal (⟨1, ![24]⟩ : Shape) .f32)
    (w3 : FVec Ideal (⟨2, ![24, 48]⟩ : Shape) .f32) (b3 : FVec Ideal (⟨1, ![48]⟩ : Shape) .f32) (f1 : FVec Ideal (⟨2, ![48, 32]⟩ : Shape) .f32) (g1 : FVec Ideal (⟨1, ![32]⟩ : Shape) .f32)
    (f2 : FVec Ideal (⟨2, ![32, 16]⟩ : Shape) .f32) (g2 : FVec Ideal (⟨1, ![16]⟩ : Shape) .f32) (f3 : FVec Ideal (⟨2, ![16, 2]⟩ : Shape) .f32) (g3 : FVec Ideal (⟨1, ![2]⟩ : Shape) .f32)
    (hX : ∀ i, IsReal (X0 i)) (hew : ∀ e, IsReal (ew e)) (hw1 : ∀ i, IsReal (w1 i)) (hb1 : ∀ i, IsReal (b1 i))
    (hw2 : ∀ i, IsReal (w2 i)) (hb2 : ∀ i, IsReal (b2 i)) (hw3 : ∀ i, IsReal (w3 i))
    (hdeg : ∀ i, (0 : EReal) < Cert.ReferenceIdeal.Fold.Pure.deg ew (Cert.ReferenceIdeal.Fold.Pure.dstV ei) i) :
    Cert.KernelIdeal.Pure.head (broadcastInDim _ ![1] Cert.KernelIdeal.Gen.bcast_S48_S1x48_1
          (Cert.KernelIdeal.Pure.pool (Cert.KernelIdeal.Value.x3 (Cert.KernelIdeal.Value.x2 (Cert.KernelIdeal.Value.x1 X0 ew ei w1 b1) ew ei w2 b2) ew ei w3 b3)))
        f1 (shapeCast _ g1 Cert.KernelIdeal.Gen.shapeCasts_S32_S1x32) f2 (shapeCast _ g2 Cert.KernelIdeal.Gen.shapeCasts_S16_S1x16)
        f3 (shapeCast _ g3 Cert.KernelIdeal.Gen.shapeCasts_S2_S1x2)
      = Cert.ReferenceIdeal.Fold.Pure.head (shapeCast _
          (Cert.ReferenceIdeal.Fold.Pure.pool (Cert.ReferenceIdeal.Value.y3 (Cert.ReferenceIdeal.Value.y2 (Cert.ReferenceIdeal.Value.y1 X0 ew ei w1 b1) ew ei w2 b2) ew ei w3 b3))
          Cert.ReferenceIdeal.Gen.shapeCasts_S48_S1x48)
        f1 (broadcastInDim _ ![1] Cert.ReferenceIdeal.Gen.bcast_S32_S1x32_1 g1) f2
        (broadcastInDim _ ![1] Cert.ReferenceIdeal.Gen.bcast_S16_S1x16_1 g2) f3
        (broadcastInDim _ ![1] Cert.ReferenceIdeal.Gen.bcast_S2_S1x2_1 g3) := by
  have e1 := Layer1.orders X0 ew ei w1 b1 hX hew hw1 hdeg
  have r1 := Layer1.real X0 ew ei w1 b1 hX hew hw1 hdeg hb1
  have e2 := Layer2.orders (Cert.ReferenceIdeal.Value.y1 X0 ew ei w1 b1) ew ei w2 b2 r1 hew hw2 hdeg
  have r2 := Layer2.real (Cert.ReferenceIdeal.Value.y1 X0 ew ei w1 b1) ew ei w2 b2 r1 hew hw2 hdeg hb2
  have e3 := Layer3.orders (Cert.ReferenceIdeal.Value.y2 (Cert.ReferenceIdeal.Value.y1 X0 ew ei w1 b1) ew ei w2 b2) ew ei w3 b3 r2 hew hw3 hdeg
  rw [e1, e2, e3, pool_eq]
  exact head_eq _ f1 g1 f2 g2 f3 g3

end Cert.Bridge

end
-- ==== Proof.lean ====
/-
  The certificate of a three-layer graph convolution network with a pooled head: a kernel that aggregates each
  layer's input over the edges BEFORE the dense transform (the transform, bias and leaky rectifier fused in one
  launch per layer) against a reference that transforms first and aggregates after.

  Over the extended reals the two orders agree by linearity when the entries are real.  The precondition makes the
  float inputs real and every node's degree positive, so the degree's inverse square root and reciprocal are real
  and every layer's matrix is real; at a zero or negative degree the coefficients are infinite or junk and the two
  orders differ, which is why the degrees are part of the stated domain.

  The frames of the two kernel programs are the generated ones.  The reference's run is the generated run with its
  result stated as the fold of its operations over the launch contents.  The
  idealization rewrote nothing, so `preserves` is trivial.  `algebraic`: the kernel's result is read through its
  three launches and the host stretches between them, the reference's through four stretches of its operations, and
  the two terms are equal (Proof/Final.lean).
-/
import proofs.«146515_j84370337562865_2_alg».proof.Defs
import proofs.«146515_j84370337562865_2_alg».proof.Proof.Gen.Kernel
import proofs.«146515_j84370337562865_2_alg».proof.Proof.Gen.Kernel.Skeleton
import proofs.«146515_j84370337562865_2_alg».proof.Proof.Gen.Kernel.Launch
import proofs.«146515_j84370337562865_2_alg».proof.Proof.Gen.Kernel.Points
import proofs.«146515_j84370337562865_2_alg».proof.Proof.Gen.Kernel.Frame
import proofs.«146515_j84370337562865_2_alg».proof.Proof.Gen.KernelIdeal
import proofs.«146515_j84370337562865_2_alg».proof.Proof.Gen.KernelIdeal.Skeleton
import proofs.«146515_j84370337562865_2_alg».proof.Proof.Gen.KernelIdeal.Launch
import proofs.«146515_j84370337562865_2_alg».proof.Proof.Gen.KernelIdeal.Points
import proofs.«146515_j84370337562865_2_alg».proof.Proof.Gen.KernelIdeal.Frame
import proofs.«146515_j84370337562865_2_alg».proof.Proof.Gen.ReferenceIdeal
import proofs.«146515_j84370337562865_2_alg».proof.Proof.Gen.Pre_finite_inputs
import proofs.«146515_j84370337562865_2_alg».proof.Proof.KernelRun
import proofs.«146515_j84370337562865_2_alg».proof.Proof.KernelValue
import proofs.«146515_j84370337562865_2_alg».proof.Proof.RefRunP
import proofs.«146515_j84370337562865_2_alg».proof.Proof.RefValue
import proofs.«146515_j84370337562865_2_alg».proof.Proof.PreFacts
import proofs.«146515_j84370337562865_2_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- Both idealized programs end with the same [1,2] array: the kernel's, read through its launches. -/
theorem algebraic : Cert.algebraic_KernelIdeal_ReferenceIdeal := by
  intro m ρ m' ρ' hpre hagree
  refine ⟨fun c => Cert.KernelIdeal.Gen.W11 m ρ c (Proc.devRef .tc Cert.KernelIdeal.main_v103),
    Cert.KernelIdeal.Gen.run_value (F := Ideal) m ρ, ?_⟩
  refine (θ_run Cert.ReferenceIdeal.defs _ _).mono (fun r h c => ⟨(h c).1.trans ?_, (h c).2⟩)
    (Cert.ReferenceIdeal.RunP.run (F := Ideal) m' ρ')
  obtain ⟨a0, a1, a2, a3, a4, a5, a6, a7, a8, a9, a10, a11, a12, a13, a14⟩ := hagree c
  obtain ⟨hX, hew, hw1, hb1, hw2, hb2, hw3, hdeg⟩ := Cert.Pre_finite_inputs.Decode.facts _ _ _ _ _ _ _ _ _ _ _ _ _ _ _ (hpre c)
  show _ = Cert.KernelIdeal.Gen.W11 m ρ c (Proc.devRef .tc Cert.KernelIdeal.main_v103)
  rw [Cert.ReferenceIdeal.Value.result m' c, Cert.KernelIdeal.Value.result m ρ c,
    a0, a1, a2, a3, a4, a5, a6, a7, a8, a9, a10, a11, a12, a13, a14]
  exact (Cert.Bridge.results_eq _ _ _ _ _ _ _ _ _ _ _ _ _ _ _ hX hew hw1 hb1 hw2 hb2 hw3 hdeg).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
